-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S1024x8 : Shape := ⟨2, ![1024, 8]⟩
abbrev S8 : Shape := ⟨1, ![8]⟩
abbrev S512x256 : Shape := ⟨2, ![512, 256]⟩
abbrev S256 : Shape := ⟨1, ![256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg12 : FVec F S512x256 .f32) (main_arg13 : FVec F S256 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x256 .f32 := Host.absf main_arg12
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg8 : FVec F S512 .f32) (main_arg9 : FVec F S512 .f32) (main_arg10 : FVec F S512 .f32) (main_arg11 : FVec F S512 .f32) (main_arg12 : FVec F S512x256 .f32) (main_arg13 : FVec F S256 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_v48 main_v49 main_v50

def fn_part1 {F : FTy → Type} [FloatOps F] (main_arg5 : FVec F S512 .f32) (main_arg6 : FVec F S1024x8 .f32) (main_arg7 : FVec F S8 .f32) (main_arg8 : FVec F S512 .f32) (main_arg9 : FVec F S512 .f32) (main_arg10 : FVec F S512 .f32) (main_arg11 : FVec F S512 .f32) (main_arg12 : FVec F S512x256 .f32) (main_arg13 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x8 .f32 := Host.absf main_arg6
  let main_cst_8 : FVec F S_ .f32 := constant S_ .f32 0x7F800000#32
  let main_v25 : FVec F S1024x8 .f32 := broadcastInDim S1024x8 ![] bcast_S_S1024x8 main_cst_8
  let main_v26 : IVec S1024x8 1 := cmpf .olt main_v24 main_v25
  let main_c_9 : IVec S_ 1 := constantI S_ 1 1#1
  let main_v27 : IVec S_ 1 := (fun x v => Host.reduce IntOp.andi x v reducesTo_S1024x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x512 .f32) (main_arg1 : IVec S2x400000 32) (main_arg2 : FVec F S512x512 .f32) (main_arg3 : FVec F S512 .f32) (main_arg4 : FVec F S512 .f32) (main_arg5 : FVec F S512 .f32) (main_arg6 : FVec F S1024x8 .f32) (main_arg7 : FVec F S8 .f32) (main_arg8 : FVec F S512 .f32) (main_arg9 : FVec F S512 .f32) (main_arg10 : FVec F S512 .f32) (main_arg11 : FVec F S512 .f32) (main_arg12 : FVec F S512x256 .f32) (main_arg13 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_arg13 main_v13 main_v16
-- ==== Kernel.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S1024x8 : Shape := ⟨2, ![1024, 8]⟩
abbrev S8 : Shape := ⟨1, ![8]⟩
abbrev S512x256 : Shape := ⟨2, ![512, 256]⟩
abbrev S256 : Shape := ⟨1, ![256]⟩
abbrev S1x512 : Shape := ⟨2, ![1, 512]⟩
abbrev S2000x512 : Shape := ⟨2, ![2000, 512]⟩
abbrev S2000 : Shape := ⟨1, ![2000]⟩
abbrev S2000x1 : Shape := ⟨2, ![2000, 1]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S512x8 : Shape := ⟨2, ![512, 8]⟩
abbrev S8x1 : Shape := ⟨2, ![8, 1]⟩
abbrev S8x512 : Shape := ⟨2, ![8, 512]⟩
abbrev S400000x512 : Shape := ⟨2, ![400000, 512]⟩
abbrev S1x8 : Shape := ⟨2, ![1, 8]⟩
abbrev S1000x512 : Shape := ⟨2, ![1000, 512]⟩
abbrev S1000x1 : Shape := ⟨2, ![1000, 1]⟩
abbrev S1000x8 : Shape := ⟨2, ![1000, 8]⟩
abbrev S1000 : Shape := ⟨1, ![1000]⟩
abbrev S1x256 : Shape := ⟨2, ![1, 256]⟩
abbrev S50000x256 : Shape := ⟨2, ![50000, 256]⟩
abbrev S1000x256 : Shape := ⟨2, ![1000, 256]⟩

abbrev nBuf : Space → Nat
  | .hbm => 104
  | .vmem => 38
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1024x8, .f32⟩
  | .hbm, ⟨7, _⟩ => ⟨S8, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x256, .f32⟩
  | .hbm, ⟨13, _⟩ => ⟨S256, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S50000x512, .f32⟩
  | .hbm, ⟨18, _⟩ => ⟨S1x400000, .i32⟩
  | .hbm, ⟨19, _⟩ => ⟨S400000, .i32⟩
  | .hbm, ⟨20, _⟩ => ⟨S1x400000, .i32⟩
  | .hbm, ⟨21, _⟩ => ⟨S400000, .i32⟩
  | .hbm, ⟨22, _⟩ => ⟨S400000, .i1⟩
  | .hbm, ⟨23, _⟩ => ⟨S_, .i32⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .f32⟩
  | .hbm, ⟨28, _⟩ => ⟨S_, .f32⟩
  | .hbm, ⟨29, _⟩ => ⟨S50000, .f32⟩
  | .hbm, ⟨30, _⟩ => ⟨S400000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S512x8, .f32⟩
  | .hbm, ⟨40, _⟩ => ⟨S512x8, .f32⟩
  | .hbm, ⟨41, _⟩ => ⟨S512, .i32⟩
  | .hbm, ⟨42, _⟩ => ⟨S_, .i32⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S_, .i32⟩
  | .hbm, ⟨48, _⟩ => ⟨S512, .i32⟩
  | .hbm, ⟨49, _⟩ => ⟨S512, .i1⟩
  | .hbm, ⟨50, _⟩ => ⟨S512, .i32⟩
  | .hbm, ⟨51, _⟩ => ⟨S512, .i32⟩
  | .hbm, ⟨52, _⟩ => ⟨S_, .i32⟩
  | .hbm, ⟨53, _⟩ => ⟨S512, .i32⟩
  | .hbm, ⟨54, _⟩ => ⟨S512, .i1⟩
  | .hbm, ⟨55, _⟩ => ⟨S512, .i1⟩
  | .hbm, ⟨56, _⟩ => ⟨S_, .i32⟩
  | .hbm, ⟨57, _⟩ => ⟨S512, .i32⟩
  | .hbm, ⟨58, _⟩ => ⟨S512, .i32⟩
  | .hbm, ⟨59, _⟩ => ⟨S512, .i32⟩
  | .hbm, ⟨60, _⟩ => ⟨S8, .i32⟩
  | .hbm, ⟨61, _⟩ => ⟨S1x512, .i32⟩
  | .hbm, ⟨62, _⟩ => ⟨S8x1, .i32⟩
  | .hbm, ⟨63, _⟩ => ⟨S8x512, .i32⟩
  | .hbm, ⟨64, _⟩ => ⟨S8x512, .i32⟩
  | .hbm, ⟨65, _⟩ => ⟨S8x512, .i1⟩
  | .hbm, ⟨66, _⟩ => ⟨S8x512, .f32⟩
  | .hbm, ⟨67, _⟩ => ⟨S_, .i32⟩
  | .hbm, ⟨68, _⟩ => ⟨S400000, .i32⟩
  | .hbm, ⟨69, _⟩ => ⟨S400000, .i1⟩
  | .hbm, ⟨70, _⟩ => ⟨S_, .i32⟩
  | .hbm, ⟨71, _⟩ => ⟨S400000, .i32⟩
  | .hbm, ⟨72, _⟩ => ⟨S400000, .i32⟩
  | .hbm, ⟨73, _⟩ => ⟨S400000, .i32⟩
  | .hbm, ⟨74, _⟩ => ⟨S400000x1, .i32⟩
  | .hbm, ⟨75, _⟩ => ⟨S400000x512, .f32⟩
  | .hbm, ⟨76, _⟩ => ⟨S_, .f32⟩
  | .hbm, ⟨77, _⟩ => ⟨S50000x512, .f32⟩
  | .hbm, ⟨78, _⟩ => ⟨S400000x1, .i32⟩
  | .hbm, ⟨79, _⟩ => ⟨S50000x512, .f32⟩
  | .hbm, ⟨80, _⟩ => ⟨S50000x512, .f32⟩
  | .hbm, ⟨81, _⟩ => ⟨S1x8, .f32⟩
  | .hbm, ⟨82, _⟩ => ⟨S1x512, .f32⟩
  | .hbm, ⟨83, _⟩ => ⟨S1x512, .f32⟩
  | .hbm, ⟨84, _⟩ => ⟨S50000x512, .f32⟩
  | .hbm, ⟨85, _⟩ => ⟨S_, .i32⟩
  | .hbm, ⟨86, _⟩ => ⟨S400000, .i32⟩
  | .hbm, ⟨87, _⟩ => ⟨S400000, .i1⟩
  | .hbm, ⟨88, _⟩ => ⟨S_, .i32⟩
  | .hbm, ⟨89, _⟩ => ⟨S400000, .i32⟩
  | .hbm, ⟨90, _⟩ => ⟨S400000, .i32⟩
  | .hbm, ⟨91, _⟩ => ⟨S400000, .i32⟩
  | .hbm, ⟨92, _⟩ => ⟨S400000x1, .i32⟩
  | .hbm, ⟨93, _⟩ => ⟨S400000x512, .f32⟩
  | .hbm, ⟨94, _⟩ => ⟨S_, .f32⟩
  | .hbm, ⟨95, _⟩ => ⟨S50000x512, .f32⟩
  | .hbm, ⟨96, _⟩ => ⟨S400000x1, .i32⟩
  | .hbm, ⟨97, _⟩ => ⟨S50000x512, .f32⟩
  | .hbm, ⟨98, _⟩ => ⟨S50000x512, .f32⟩
  | .hbm, ⟨99, _⟩ => ⟨S1x8, .f32⟩
  | .hbm, ⟨100, _⟩ => ⟨S1x512, .f32⟩
  | .hbm, ⟨101, _⟩ => ⟨S1x512, .f32⟩
  | .hbm, ⟨102, _⟩ => ⟨S1x256, .f32⟩
  | .hbm, ⟨103, _⟩ => ⟨S50000x256, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S2000x512, .f32⟩
  | .local _ .vmem, ⟨7, _⟩ => ⟨S2000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x1, .f32⟩
  | .local _ .vmem, ⟨13, _⟩ => ⟨S1000x1, .f32⟩
  | .local _ .vmem, ⟨14, _⟩ => ⟨S512x8, .f32⟩
  | .local _ .vmem, ⟨15, _⟩ => ⟨S512x8, .f32⟩
  | .local _ .vmem, ⟨16, _⟩ => ⟨S1x8, .f32⟩
  | .local _ .vmem, ⟨17, _⟩ => ⟨S8x512, .f32⟩
  | .local _ .vmem, ⟨18, _⟩ => ⟨S1x512, .f32⟩
  | .local _ .vmem, ⟨19, _⟩ => ⟨S1x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x512, .f32⟩
  | .local _ .vmem, ⟨24, _⟩ => ⟨S1000x512, .f32⟩
  | .local _ .vmem, ⟨25, _⟩ => ⟨S1000x512, .f32⟩
  | .local _ .vmem, ⟨26, _⟩ => ⟨S1000x1, .f32⟩
  | .local _ .vmem, ⟨27, _⟩ => ⟨S1000x1, .f32⟩
  | .local _ .vmem, ⟨28, _⟩ => ⟨S512x8, .f32⟩
  | .local _ .vmem, ⟨29, _⟩ => ⟨S512x8, .f32⟩
  | .local _ .vmem, ⟨30, _⟩ => ⟨S1x8, .f32⟩
  | .local _ .vmem, ⟨31, _⟩ => ⟨S8x512, .f32⟩
  | .local _ .vmem, ⟨32, _⟩ => ⟨S1x512, .f32⟩
  | .local _ .vmem, ⟨33, _⟩ => ⟨S1x512, .f32⟩
  | .local _ .vmem, ⟨34, _⟩ => ⟨S512x256, .f32⟩
  | .local _ .vmem, ⟨35, _⟩ => ⟨S1x256, .f32⟩
  | .local _ .vmem, ⟨36, _⟩ => ⟨S1000x256, .f32⟩
  | .local _ .vmem, ⟨37, _⟩ => ⟨S1000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_3 : Ref sig .tc := ⟨.hbm, 67, rfl⟩
abbrev main_v30 : Ref sig .tc := ⟨.hbm, 68, rfl⟩
abbrev main_v31 : Ref sig .tc := ⟨.hbm, 69, rfl⟩
abbrev main_c_4 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_5 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_c_6 : Ref sig .tc := ⟨.hbm, 85, rfl⟩
abbrev main_v45 : Ref sig .tc := ⟨.hbm, 86, rfl⟩
abbrev main_v46 : Ref sig .tc := ⟨.hbm, 87, rfl⟩
abbrev main_c_7 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_8 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg11_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem11_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S1000x256 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reduces_S2000x512_S2000 : S2000x512.Reduces [1] S2000
  shapeCasts_S2000_S2000x1 : S2000.ShapeCasts S2000x1
  broadcasts_S2000x1_S2000x512 : S2000x1.Broadcasts S2000x512
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  shapeCasts_S50000_S50000x1 : S50000.ShapeCasts S50000x1
  slices_S1024x8_S512x8_0_0 : S1024x8.Slices ![0, 0] S512x8
  slices_S1024x8_S512x8_512_0 : S1024x8.Slices ![512, 0] S512x8
  bcast_S_S512 : S_.BroadcastsInDim S512 (![] : Fin 0 → Fin S512.rank)
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S_S50000x512 : S_.BroadcastsInDim S50000x512 (![] : Fin 0 → Fin S50000x512.rank)
  shapeCasts_S8_S1x8 : S8.ShapeCasts S1x8
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1000x8 : S1x8.Broadcasts S1000x8
  inb_S8x512_S8x512_0_0 : ∀ a, (![0, 0] : Fin 2 → Nat) a + S8x512.size a ≤ S8x512.size a
  h_S8x512 : 0 < S8x512.numel
  shapeCasts_S8x512_S8x512 : S8x512.ShapeCasts S8x512
  reduces_S1000x512_S1000 : S1000x512.Reduces [1] S1000
  shapeCasts_S1000_S1000x1 : S1000.ShapeCasts S1000x1
  broadcasts_S1x512_S1000x512 : S1x512.Broadcasts S1000x512
  shapeCasts_S256_S1x256 : S256.ShapeCasts S1x256
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  dot_S2000x512_S512x512_S2000x512_1_0_0_1_n_n_wf : DotDims.WF S2000x512 S512x512 S2000x512 [1] [0] [0] [1] [] []
  scatter_S50000_S400000x1_S400000_n_0_0_1_wf : ScatterDims.WF S50000 S400000x1 S400000 [] [0] [0] 1
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S1000x512_S512x8_S1000x8_1_0_0_1_n_n_wf : DotDims.WF S1000x512 S512x8 S1000x8 [1] [0] [0] [1] [] []
  dot_S1000x8_S8x512_S1000x512_1_0_0_1_n_n_wf : DotDims.WF S1000x8 S8x512 S1000x512 [1] [0] [0] [1] [] []
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S50000x512.size a
  hwx0_5 : ∀ i : grid0.Coords, EltTy.bits .f32 = 32 ∨ (Rect.block (s := S50000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S50000x512.size a
  hwx1_1 : ∀ i : grid1.Coords, EltTy.bits .f32 = 32 ∨ (Rect.block (s := S50000x512) S1000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .f32 = 32 ∨ (Rect.block (s := S50000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x8.size a ≤ S512x8.size a
  hwx1_3 : ∀ i : grid1.Coords, EltTy.bits .f32 = 32 ∨ (Rect.block (s := S512x8) S512x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x8.size a ≤ S512x8.size a
  hwx1_4 : ∀ i : grid1.Coords, EltTy.bits .f32 = 32 ∨ (Rect.block (s := S512x8) S512x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x8.size a ≤ S1x8.size a
  hwx1_5 : ∀ i : grid1.Coords, EltTy.bits .f32 = 32 ∨ (Rect.block (s := S1x8) S1x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x512.size a ≤ S8x512.size a
  hwx1_6 : ∀ i : grid1.Coords, EltTy.bits .f32 = 32 ∨ (Rect.block (s := S8x512) S8x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x512.size a ≤ S50000x512.size a
  hwx1_9 : ∀ i : grid1.Coords, EltTy.bits .f32 = 32 ∨ (Rect.block (s := S50000x512) S1000x512.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S50000x512.size a
  hwx2_0 : ∀ i : grid2.Coords, EltTy.bits .f32 = 32 ∨ (Rect.block (s := S50000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S50000x512.size a
  hwx2_1 : ∀ i : grid2.Coords, EltTy.bits .f32 = 32 ∨ (Rect.block (s := S50000x512) S1000x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S50000x1.size a
  hwx2_2 : ∀ i : grid2.Coords, EltTy.bits .f32 = 32 ∨ (Rect.block (s := S50000x1) S1000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x8.size a ≤ S512x8.size a
  hwx2_3 : ∀ i : grid2.Coords, EltTy.bits .f32 = 32 ∨ (Rect.block (s := S512x8) S512x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x8.size a ≤ S512x8.size a
  hwx2_4 : ∀ i : grid2.Coords, EltTy.bits .f32 = 32 ∨ (Rect.block (s := S512x8) S512x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x8.size a ≤ S1x8.size a
  hwx2_5 : ∀ i : grid2.Coords, EltTy.bits .f32 = 32 ∨ (Rect.block (s := S1x8) S1x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S8x512.size a ≤ S8x512.size a
  hwx2_6 : ∀ i : grid2.Coords, EltTy.bits .f32 = 32 ∨ (Rect.block (s := S8x512) S8x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x512.size a ≤ S1x512.size a
  hwx2_7 : ∀ i : grid2.Coords, EltTy.bits .f32 = 32 ∨ (Rect.block (s := S1x512) S1x512.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x512.size a ≤ S1x512.size a
  hwx2_8 : ∀ i : grid2.Coords, EltTy.bits .f32 = 32 ∨ (Rect.block (s := S1x512) S1x512.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512x256.size a ≤ S512x256.size a
  hwx2_9 : ∀ i : grid2.Coords, EltTy.bits .f32 = 32 ∨ (Rect.block (s := S512x256) S512x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x256.size a ≤ S1x256.size a
  hwx2_10 : ∀ i : grid2.Coords, EltTy.bits .f32 = 32 ∨ (Rect.block (s := S1x256) S1x256.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1000x256.size a ≤ S50000x256.size a
  hwx2_11 : ∀ i : grid2.Coords, EltTy.bits .f32 = 32 ∨ (Rect.block (s := S50000x256) S1000x256.size (cc2_transform_11 i) (hinb2_11 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S1000x512_S512x8_S1000x8_1_0_0_1_n_n : DotDims S1000x512 S512x8 S1000x8 where
  lhsContracting := [1]
  rhsContracting := [0]
  lhsNonContracting := [0]
  rhsNonContracting := [1]
  lhsBatch := []
  rhsBatch := []
  wf := dot_S1000x512_S512x8_S1000x8_1_0_0_1_n_n_wf
def dot_S1000x8_S8x512_S1000x512_1_0_0_1_n_n : DotDims S1000x8 S8x512 S1000x512 where
  lhsContracting := [1]
  rhsContracting := [0]
  lhsNonContracting := [0]
  rhsNonContracting := [1]
  lhsBatch := []
  rhsBatch := []
  wf := dot_S1000x8_S8x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S512x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S512x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S8x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S1000x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v44) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S512x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S512x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v29) S8x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S1x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58) S1x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg12) S512x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v59) S1x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v60) S1000x256.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S1024x8 : Shape := ⟨2, ![1024, 8]⟩
abbrev S8 : Shape := ⟨1, ![8]⟩
abbrev S512x256 : Shape := ⟨2, ![512, 256]⟩
abbrev S256 : Shape := ⟨1, ![256]⟩
abbrev S1x400000 : Shape := ⟨2, ![1, 400000]⟩
abbrev S400000 : Shape := ⟨1, ![400000]⟩
abbrev S1x512 : Shape := ⟨2, ![1, 512]⟩
abbrev S_ : Shape := ⟨0, ![]⟩
abbrev S50000 : Shape := ⟨1, ![50000]⟩
abbrev S50000x1 : Shape := ⟨2, ![50000, 1]⟩
abbrev S400000x1 : Shape := ⟨2, ![400000, 1]⟩
abbrev S400000x512 : Shape := ⟨2, ![400000, 512]⟩
abbrev S50000x1024 : Shape := ⟨2, ![50000, 1024]⟩
abbrev S50000x8 : Shape := ⟨2, ![50000, 8]⟩
abbrev S1x8 : Shape := ⟨2, ![1, 8]⟩
abbrev S50000x8x64 : Shape := ⟨3, ![50000, 8, 64]⟩
abbrev S50000x256 : Shape := ⟨2, ![50000, 256]⟩
abbrev S1x256 : Shape := ⟨2, ![1, 256]⟩

abbrev nBuf : Space → Nat
  | .hbm => 222
  | .vmem => 0
  | .smem => 0
  | _ => 0

abbrev hbmTy0_0 (i : Nat) : BufTy := match i % 128 with
  | 0 => ⟨S50000x512, .f32⟩
  | 1 => ⟨S2x400000, .i32⟩
  | 2 => ⟨S512x512, .f32⟩
  | 3 => ⟨S512, .f32⟩
  | 4 => ⟨S512, .f32⟩
  | 5 => ⟨S512, .f32⟩
  | 6 => ⟨S1024x8, .f32⟩
  | 7 => ⟨S8, .f32⟩
  | 8 => ⟨S512, .f32⟩
  | 9 => ⟨S512, .f32⟩
  | 10 => ⟨S512, .f32⟩
  | 11 => ⟨S512, .f32⟩
  | 12 => ⟨S512x256, .f32⟩
  | 13 => ⟨S256, .f32⟩
  | 14 => ⟨S1x400000, .i32⟩
  | 15 => ⟨S400000, .i32⟩
  | 16 => ⟨S1x400000, .i32⟩
  | 17 => ⟨S400000, .i32⟩
  | 18 => ⟨S50000x512, .f32⟩
  | 19 => ⟨S1x512, .f32⟩
  | 20 => ⟨S50000x512, .f32⟩
  | 21 => ⟨S50000x512, .f32⟩
  | 22 => ⟨S_, .f32⟩
  | 23 => ⟨S50000x512, .f32⟩
  | 24 => ⟨S50000x512, .f32⟩
  | 25 => ⟨S_, .f32⟩
  | 26 => ⟨S50000, .f32⟩
  | 27 => ⟨S50000x1, .f32⟩
  | 28 => ⟨S_, .f32⟩
  | 29 => ⟨S50000x1, .f32⟩
  | 30 => ⟨S50000x1, .f32⟩
  | 31 => ⟨S50000x512, .f32⟩
  | 32 => ⟨S50000x512, .f32⟩
  | 33 => ⟨S50000x512, .f32⟩
  | 34 => ⟨S_, .f32⟩
  | 35 => ⟨S50000, .f32⟩
  | 36 => ⟨S50000x1, .f32⟩
  | 37 => ⟨S_, .f32⟩
  | 38 => ⟨S50000x1, .f32⟩
  | 39 => ⟨S50000x1, .f32⟩
  | 40 => ⟨S50000x512, .f32⟩
  | 41 => ⟨S50000x512, .f32⟩
  | 42 => ⟨S1x512, .f32⟩
  | 43 => ⟨S50000x512, .f32⟩
  | 44 => ⟨S50000x512, .f32⟩
  | 45 => ⟨S_, .f32⟩
  | 46 => ⟨S50000x1, .f32⟩
  | 47 => ⟨S50000x1, .f32⟩
  | 48 => ⟨S50000x1, .f32⟩
  | 49 => ⟨S50000x512, .f32⟩
  | 50 => ⟨S50000x512, .f32⟩
  | 51 => ⟨S1x512, .f32⟩
  | 52 => ⟨S50000x512, .f32⟩
  | 53 => ⟨S50000x512, .f32⟩
  | 54 => ⟨S400000, .i1⟩
  | 55 => ⟨S400000x1, .i1⟩
  | 56 => ⟨S_, .i32⟩
  | 57 => ⟨S400000, .i32⟩
  | 58 => ⟨S400000, .i1⟩
  | 59 => ⟨S_, .i32⟩
  | 60 => ⟨S400000, .i32⟩
  | 61 => ⟨S400000, .i32⟩
  | 62 => ⟨S400000, .i32⟩
  | 63 => ⟨S400000x1, .i32⟩
  | 64 => ⟨S400000x512, .f32⟩
  | 65 => ⟨S_, .f32⟩
  | 66 => ⟨S_, .f32⟩
  | 67 => ⟨S400000x512, .i1⟩
  | 68 => ⟨S400000x512, .f32⟩
  | 69 => ⟨S400000x512, .f32⟩
  | 70 => ⟨S_, .f32⟩
  | 71 => ⟨S50000x512, .f32⟩
  | 72 => ⟨S400000x1, .i32⟩
  | 73 => ⟨S50000x512, .f32⟩
  | 74 => ⟨S50000x512, .f32⟩
  | 75 => ⟨S400000, .f32⟩
  | 76 => ⟨S_, .f32⟩
  | 77 => ⟨S50000, .f32⟩
  | 78 => ⟨S400000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x512, .f32⟩
  | 85 => ⟨S50000x512, .f32⟩
  | 86 => ⟨S50000x1024, .f32⟩
  | 87 => ⟨S50000x8, .f32⟩
  | 88 => ⟨S1x8, .f32⟩
  | 89 => ⟨S50000x8, .f32⟩
  | 90 => ⟨S50000x8, .f32⟩
  | 91 => ⟨S50000x8, .f32⟩
  | 92 => ⟨S50000x8, .f32⟩
  | 93 => ⟨S_, .f32⟩
  | 94 => ⟨S50000x8, .f32⟩
  | 95 => ⟨S50000x8, .f32⟩
  | 96 => ⟨S_, .f32⟩
  | 97 => ⟨S50000x8, .f32⟩
  | 98 => ⟨S50000x8, .f32⟩
  | 99 => ⟨S50000x8x64, .f32⟩
  | 100 => ⟨S50000x512, .f32⟩
  | 101 => ⟨S50000x512, .f32⟩
  | 102 => ⟨S_, .f32⟩
  | 103 => ⟨S50000x512, .f32⟩
  | 104 => ⟨S50000x512, .f32⟩
  | 105 => ⟨S50000x512, .f32⟩
  | 106 => ⟨S50000x512, .f32⟩
  | 107 => ⟨S_, .f32⟩
  | 108 => ⟨S50000, .f32⟩
  | 109 => ⟨S50000x1, .f32⟩
  | 110 => ⟨S_, .f32⟩
  | 111 => ⟨S50000x1, .f32⟩
  | 112 => ⟨S50000x1, .f32⟩
  | 113 => ⟨S50000x512, .f32⟩
  | 114 => ⟨S50000x512, .f32⟩
  | 115 => ⟨S50000x512, .f32⟩
  | 116 => ⟨S_, .f32⟩
  | 117 => ⟨S50000, .f32⟩
  | 118 => ⟨S50000x1, .f32⟩
  | 119 => ⟨S_, .f32⟩
  | 120 => ⟨S50000x1, .f32⟩
  | 121 => ⟨S50000x1, .f32⟩
  | 122 => ⟨S50000x512, .f32⟩
  | 123 => ⟨S50000x512, .f32⟩
  | 124 => ⟨S1x512, .f32⟩
  | 125 => ⟨S50000x512, .f32⟩
  | 126 => ⟨S50000x512, .f32⟩
  | 127 => ⟨S_, .f32⟩
  | _ => ⟨S50000x512, .f32⟩

abbrev hbmTy0_1 (i : Nat) : BufTy := match i % 128 with
  | 0 => ⟨S50000x1, .f32⟩
  | 1 => ⟨S50000x1, .f32⟩
  | 2 => ⟨S50000x1, .f32⟩
  | 3 => ⟨S50000x512, .f32⟩
  | 4 => ⟨S50000x512, .f32⟩
  | 5 => ⟨S1x512, .f32⟩
  | 6 => ⟨S50000x512, .f32⟩
  | 7 => ⟨S50000x512, .f32⟩
  | 8 => ⟨S400000, .i1⟩
  | 9 => ⟨S400000x1, .i1⟩
  | 10 => ⟨S_, .i32⟩
  | 11 => ⟨S400000, .i32⟩
  | 12 => ⟨S400000, .i1⟩
  | 13 => ⟨S_, .i32⟩
  | 14 => ⟨S400000, .i32⟩
  | 15 => ⟨S400000, .i32⟩
  | 16 => ⟨S400000, .i32⟩
  | 17 => ⟨S400000x1, .i32⟩
  | 18 => ⟨S400000x512, .f32⟩
  | 19 => ⟨S_, .f32⟩
  | 20 => ⟨S_, .f32⟩
  | 21 => ⟨S400000x512, .i1⟩
  | 22 => ⟨S400000x512, .f32⟩
  | 23 => ⟨S400000x512, .f32⟩
  | 24 => ⟨S_, .f32⟩
  | 25 => ⟨S50000x512, .f32⟩
  | 26 => ⟨S400000x1, .i32⟩
  | 27 => ⟨S50000x512, .f32⟩
  | 28 => ⟨S50000x512, .f32⟩
  | 29 => ⟨S400000, .f32⟩
  | 30 => ⟨S_, .f32⟩
  | 31 => ⟨S50000, .f32⟩
  | 32 => ⟨S400000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x512, .f32⟩
  | 39 => ⟨S50000x512, .f32⟩
  | 40 => ⟨S50000x1024, .f32⟩
  | 41 => ⟨S50000x8, .f32⟩
  | 42 => ⟨S1x8, .f32⟩
  | 43 => ⟨S50000x8, .f32⟩
  | 44 => ⟨S50000x8, .f32⟩
  | 45 => ⟨S50000x8, .f32⟩
  | 46 => ⟨S50000x8, .f32⟩
  | 47 => ⟨S_, .f32⟩
  | 48 => ⟨S50000x8, .f32⟩
  | 49 => ⟨S50000x8, .f32⟩
  | 50 => ⟨S_, .f32⟩
  | 51 => ⟨S50000x8, .f32⟩
  | 52 => ⟨S50000x8, .f32⟩
  | 53 => ⟨S50000x8x64, .f32⟩
  | 54 => ⟨S50000x512, .f32⟩
  | 55 => ⟨S50000x512, .f32⟩
  | 56 => ⟨S_, .f32⟩
  | 57 => ⟨S50000x512, .f32⟩
  | 58 => ⟨S50000x512, .f32⟩
  | 59 => ⟨S50000x512, .f32⟩
  | 60 => ⟨S50000x512, .f32⟩
  | 61 => ⟨S_, .f32⟩
  | 62 => ⟨S50000, .f32⟩
  | 63 => ⟨S50000x1, .f32⟩
  | 64 => ⟨S_, .f32⟩
  | 65 => ⟨S50000x1, .f32⟩
  | 66 => ⟨S50000x1, .f32⟩
  | 67 => ⟨S50000x512, .f32⟩
  | 68 => ⟨S50000x512, .f32⟩
  | 69 => ⟨S50000x512, .f32⟩
  | 70 => ⟨S_, .f32⟩
  | 71 => ⟨S50000, .f32⟩
  | 72 => ⟨S50000x1, .f32⟩
  | 73 => ⟨S_, .f32⟩
  | 74 => ⟨S50000x1, .f32⟩
  | 75 => ⟨S50000x1, .f32⟩
  | 76 => ⟨S50000x512, .f32⟩
  | 77 => ⟨S50000x512, .f32⟩
  | 78 => ⟨S1x512, .f32⟩
  | 79 => ⟨S50000x512, .f32⟩
  | 80 => ⟨S50000x512, .f32⟩
  | 81 => ⟨S_, .f32⟩
  | 82 => ⟨S50000x1, .f32⟩
  | 83 => ⟨S50000x1, .f32⟩
  | 84 => ⟨S50000x1, .f32⟩
  | 85 => ⟨S50000x512, .f32⟩
  | 86 => ⟨S50000x512, .f32⟩
  | 87 => ⟨S1x512, .f32⟩
  | 88 => ⟨S50000x512, .f32⟩
  | 89 => ⟨S50000x512, .f32⟩
  | 90 => ⟨S50000x256, .f32⟩
  | 91 => ⟨S1x256, .f32⟩
  | 92 => ⟨S50000x256, .f32⟩
  | 93 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_11 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_12 : Ref sig .tc := ⟨.hbm, 107, rfl⟩
abbrev main_v74 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_16 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_17 : Ref sig .tc := ⟨.hbm, 138, rfl⟩
abbrev main_v100 : Ref sig .tc := ⟨.hbm, 139, rfl⟩
abbrev main_v101 : Ref sig .tc := ⟨.hbm, 140, rfl⟩
abbrev main_c_18 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_19 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_v107 : Ref sig .tc := ⟨.hbm, 151, rfl⟩
abbrev main_cst_20 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_21 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_22 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_23 : Ref sig .tc := ⟨.hbm, 175, rfl⟩
abbrev main_v128 : Ref sig .tc := ⟨.hbm, 176, rfl⟩
abbrev main_v129 : Ref sig .tc := ⟨.hbm, 177, rfl⟩
abbrev main_cst_24 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_25 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_26 : Ref sig .tc := ⟨.hbm, 189, rfl⟩
abbrev main_v139 : Ref sig .tc := ⟨.hbm, 190, rfl⟩
abbrev main_v140 : Ref sig .tc := ⟨.hbm, 191, rfl⟩
abbrev main_cst_27 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_cst_28 : Ref sig .tc := ⟨.hbm, 198, rfl⟩
abbrev main_v146 : Ref sig .tc := ⟨.hbm, 199, rfl⟩
abbrev main_v147 : Ref sig .tc := ⟨.hbm, 200, rfl⟩
abbrev main_cst_29 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_30 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x512_0_1 : S400000x1.BroadcastsInDim S400000x512 (![0, 1] : Fin 2 → Fin S400000x512.rank)
  bcast_S_S400000x512 : S_.BroadcastsInDim S400000x512 (![] : Fin 0 → Fin S400000x512.rank)
  bcast_S_S50000 : S_.BroadcastsInDim S50000 (![] : Fin 0 → Fin S50000.rank)
  concatenates_S50000x512_S50000x512_S50000x1024_d1 : Shape.Concatenates [S50000x512, S50000x512] S50000x1024 1
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  bcast_S_S50000x8 : S_.BroadcastsInDim S50000x8 (![] : Fin 0 → Fin S50000x8.rank)
  bcast_S50000x8_S50000x8x64_0_1 : S50000x8.BroadcastsInDim S50000x8x64 (![0, 1] : Fin 2 → Fin S50000x8x64.rank)
  shapeCasts_S50000x8x64_S50000x512 : S50000x8x64.ShapeCasts S50000x512
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x512_S512x512_S50000x512_1_0_0_1_n_n_wf : DotDims.WF S50000x512 S512x512 S50000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  scatter_S50000_S400000x1_S400000_n_0_0_1_wf : ScatterDims.WF S50000 S400000x1 S400000 [] [0] [0] 1
  dot_S50000x1024_S1024x8_S50000x8_1_0_0_1_n_n_wf : DotDims.WF S50000x1024 S1024x8 S50000x8 [1] [0] [0] [1] [] []
  dot_S50000x512_S512x256_S50000x256_1_0_0_1_n_n_wf : DotDims.WF S50000x512 S512x256 S50000x256 [1] [0] [0] [1] [] []

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x1024_S1024x8_S50000x8_1_0_0_1_n_n : DotDims S50000x1024 S1024x8 S50000x8 where
  lhsContracting := [1]
  rhsContracting := [0]
  lhsNonContracting := [0]
  rhsNonContracting := [1]
  lhsBatch := []
  rhsBatch := []
  wf := dot_S50000x1024_S1024x8_S50000x8_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.RunValue.lean ====
/-
  The idealized kernel's run with its result named.

  Every weakly fair execution of the program terminates without a fault, and in every final state the result
  buffer holds what the last of the three kernel regions leaves in its output array (`W10` at the result's
  reference: the contents after the launch memory has been carried through the host operations and the three
  regions in order), while every argument array is as launched. The run is the three regions and the stretches
  of host operations between them taken as segments; the final contents of every buffer that outlives the run
  are read off the last segment's state.
-/
import proofs.«116288_j6914897347185_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: termination, no fault, the result buffer at the last region's final contents, the arguments unchanged. -/
theorem run_value : θ_run defs (onTc (τ := τ) (main (F := F))) ⟨m, fun _ => 0, ρ⟩ (fun r => ∀ c : Dev nD,
      r.2.mem ((c.tc : Thread nD τ).loc main_v60) = W10 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v60 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.RunValue

end
-- ==== Proof.RefStages.lean ====
/-
  The reference network as a composition of whole-array stages.

  Each definition is a function of arrays, written with the very host operations the reference program applies, in
  its order: the layer normalisation of a [50000, 512] array (row means, centred squares, the reciprocal square root
  of variance plus the small constant, scale and shift); the input layer's affine map clamped at zero; the edge list
  read off the [2, 400000] integer array (sources, destinations, the "not a self loop" mask, the sources with negative
  entries wrapped); the neighbour sum (gather the source rows, zero the self loops' rows, add each into its
  destination row, add the row itself) and the neighbour count (add the mask into the destinations, plus one); the
  mixing of a row with its neighbourhood mean by eight gates repeated over blocks of 64 features; the output
  projection. `whole` composes them into the program's result.
-/
import proofs.«116288_j6914897347185_2_alg».proof.ReferenceIdeal
import proofs.«116288_j6914897347185_2_alg».proof.Proof.Gen.ReferenceIdeal

noncomputable section

namespace Cert.ReferenceIdeal.Stages

open Cert.ReferenceIdeal Cert.ReferenceIdeal.Facts₀ Cert.ReferenceIdeal.Facts Idealize.ShloMosaic

variable {F : FTy → Type} [FloatOps F]

/-- The mean of every row, as a [50000, 1] column: the row sums from zero, divided by 512. -/
def rowMean (a : FVec F S50000x512 .f32) : FVec F S50000x1 .f32 :=
  Host.divf
    (broadcastInDim S50000x1 ![0] bcast_S50000_S50000x1_0
      (Host.reduceAdd a (constant S_ .f32 0x00000000#32) reducesTo_S50000x512_S50000_d1 h_S_))
    (broadcastInDim S50000x1 ![] bcast_S_S50000x1 (constant S_ .f32 0x44000000#32))

/-- A [50000, 1] column repeated along the rows. -/
def colB (v : FVec F S50000x1 .f32) : FVec F S50000x512 .f32 :=
  broadcastInDim S50000x512 ![0, 1] bcast_S50000x1_S50000x512_0_1 v

/-- A [512] vector repeated down the 50000 rows. -/
def rowB (g : FVec F S512 .f32) : FVec F S50000x512 .f32 :=
  broadcastInDim S50000x512 ![0, 1] bcast_S1x512_S50000x512_0_1 (broadcastInDim S1x512 ![1] bcast_S512_S1x512_1 g)

/-- Layer normalisation of every row, with scale `g` and shift `b`. -/
def lnH (a : FVec F S50000x512 .f32) (g b : FVec F S512 .f32) : FVec F S50000x512 .f32 :=
  addf
    (mulf
      (mulf (rowB g) (subf a (colB (rowMean a))))
      (colB (Host.rsqrt (addf (rowMean (mulf (subf a (colB (rowMean a))) (subf a (colB (rowMean a)))))
        (broadcastInDim S50000x1 ![] bcast_S_S50000x1 (constant S_ .f32 0x3727C5AC#32))))))
    (rowB b)

/-- The input layer before normalisation: the product with the weight matrix plus the bias, clamped at zero. -/
def linH (x : FVec F S50000x512 .f32) (W : FVec F S512x512 .f32) (b : FVec F S512 .f32) : FVec F S50000x512 .f32 :=
  maximumf
    (addf (Host.dotGeneral dot_S50000x512_S512x512_S50000x512_1_0_0_1_n_n none x W) (rowB b))
    (broadcastInDim S50000x512 ![] bcast_S_S50000x512 (constant S_ .f32 0x00000000#32))

/-- The edges' source nodes. -/
def srcH (e : IVec S2x400000 32) : IVec S400000 32 :=
  shapeCast S400000 (extractStridedSlice S1x400000 ![0, 0] e slices_S2x400000_S1x400000_0_0) shapeCasts_S1x400000_S400000

/-- The edges' destination nodes. -/
def dstH (e : IVec S2x400000 32) : IVec S400000 32 :=
  shapeCast S400000 (extractStridedSlice S1x400000 ![1, 0] e slices_S2x400000_S1x400000_1_0) shapeCasts_S1x400000_S400000

/-- The mask of the edges that are not self loops. -/
def maskH (e : IVec S2x400000 32) : IVec S400000 1 := cmpi .ne (srcH e) (dstH e)

/-- A [400000] integer vector as a [400000, 1] index table. -/
def tableB {w : Nat} (v : IVec S400000 w) : IVec S400000x1 w :=
  broadcastInDim S400000x1 ![0] bcast_S400000_S400000x1_0 v

/-- The source nodes with negative entries wrapped by the node count, as an index table. -/
def srcTableH (e : IVec S2x400000 32) : IVec S400000x1 32 :=
  tableB (select (cmpi .slt (srcH e) (broadcastInDim S400000 ![] bcast_S_S400000 (constantI S_ 32 0#32)))
    (addi (srcH e) (broadcastInDim S400000 ![] bcast_S_S400000 (constantI S_ 32 50000#32))) (srcH e))

/-- The rows of `H` at the edges' sources. -/
def gatherH (e : IVec S2x400000 32) (H : FVec F S50000x512 .f32) : FVec F S400000x512 .f32 :=
  Host.gather gather_S50000x512_S400000x1_S400000x512_1_0_n_n_0_1_1512 H (srcTableH e)

/-- The neighbour sum: the source rows of the edges that are not self loops, added into their destination rows,
    plus the row itself. -/
def nbrH (e : IVec S2x400000 32) (H : FVec F S50000x512 .f32) : FVec F S50000x512 .f32 :=
  addf
    (Host.scatterAdd scatter_S50000x512_S400000x1_S400000x512_1_0_0_1
      (broadcastInDim S50000x512 ![] bcast_S_S50000x512 (constant S_ .f32 0x00000000#32))
      (tableB (dstH e))
      (select (broadcastInDim S400000x512 ![0, 1] bcast_S400000x1_S400000x512_0_1 (tableB (maskH e)))
        (gatherH e H)
        (broadcastInDim S400000x512 ![] bcast_S_S400000x512 (id (constant S_ .f32 0x00000000#32)))))
    H

/-- The neighbour count: the number of edges into each node that are not self loops, plus one. -/
def cntH (e : IVec S2x400000 32) : FVec F S50000 .f32 :=
  addf
    (Host.scatterAdd scatter_S50000_S400000x1_S400000_n_0_0_1
      (broadcastInDim S50000 ![] bcast_S_S50000 (constant S_ .f32 0x00000000#32))
      (tableB (dstH e))
      (uitofp .f32 (maskH e)))
    (broadcastInDim S50000 ![] bcast_S_S50000 (constant S_ .f32 0x3F800000#32))

/-- The neighbourhood mean: the neighbour sum divided by the count. -/
def meanH (S : FVec F S50000x512 .f32) (cnt : FVec F S50000 .f32) : FVec F S50000x512 .f32 :=
  Host.divf S (colB (broadcastInDim S50000x1 ![0] bcast_S50000_S50000x1_0 cnt))

/-- The eight gates of every row: the logistic function, written out, of the contraction of the row and its
    neighbourhood mean laid side by side against the gate matrix, plus the bias. -/
def gateH (H M : FVec F S50000x512 .f32) (W : FVec F S1024x8 .f32) (tb : FVec F S8 .f32) : FVec F S50000x8 .f32 :=
  Host.divf
    (broadcastInDim S50000x8 ![] bcast_S_S50000x8 (constant S_ .f32 0x3F800000#32))
    (addf (broadcastInDim S50000x8 ![] bcast_S_S50000x8 (constant S_ .f32 0x3F800000#32))
      (Host.exp (Host.negf (addf
        (Host.dotGeneral dot_S50000x1024_S1024x8_S50000x8_1_0_0_1_n_n none
          (concatenate S50000x1024 1 [⟨S50000x512, H⟩, ⟨S50000x512, M⟩] concatenates_S50000x512_S50000x512_S50000x1024_d1) W)
        (broadcastInDim S50000x8 ![0, 1] bcast_S1x8_S50000x8_0_1 (broadcastInDim S1x8 ![1] bcast_S8_S1x8_1 tb))))))

/-- The gates repeated over blocks of 64 features. -/
def repeatH (G : FVec F S50000x8 .f32) : FVec F S50000x512 .f32 :=
  shapeCast S50000x512 (broadcastInDim S50000x8x64 ![0, 1] bcast_S50000x8_S50000x8x64_0_1 G) shapeCasts_S50000x8x64_S50000x512

/-- A convolution layer before its normalisation: each row mixed with its neighbourhood mean, with the repeated
    gates and their complements as weights. -/
def mixH (H S : FVec F S50000x512 .f32) (cnt : FVec F S50000 .f32) (W : FVec F S1024x8 .f32) (tb : FVec F S8 .f32) :
    FVec F S50000x512 .f32 :=
  addf (mulf H (repeatH (gateH H (meanH S cnt) W tb)))
    (mulf (meanH S cnt)
      (subf (broadcastInDim S50000x512 ![] bcast_S_S50000x512 (constant S_ .f32 0x3F800000#32))
        (repeatH (gateH H (meanH S cnt) W tb))))

/-- The output projection: the product with the output matrix plus the bias. -/
def outH (A : FVec F S50000x512 .f32) (W : FVec F S512x256 .f32) (b : FVec F S256 .f32) : FVec F S50000x256 .f32 :=
  addf (Host.dotGeneral dot_S50000x512_S512x256_S50000x256_1_0_0_1_n_n none A W)
    (broadcastInDim S50000x256 ![0, 1] bcast_S1x256_S50000x256_0_1 (broadcastInDim S1x256 ![1] bcast_S256_S1x256_1 b))

/-- The input layer. -/
def layer0 (x0 : FVec F S50000x512 .f32) (x2 : FVec F S512x512 .f32) (x3 x4 x5 : FVec F S512 .f32) : FVec F S50000x512 .f32 :=
  lnH (linH x0 x2 x3) x4 x5

/-- A convolution layer. -/
def convH (e : IVec S2x400000 32) (H : FVec F S50000x512 .f32) (W : FVec F S1024x8 .f32) (tb : FVec F S8 .f32)
    (g b : FVec F S512 .f32) : FVec F S50000x512 .f32 :=
  lnH (mixH H (nbrH e H) (cntH e) W tb) g b

/-- The reference's result as a function of its fourteen arguments. -/
def whole (x0 : FVec F S50000x512 .f32) (x1 : IVec S2x400000 32) (x2 : FVec F S512x512 .f32) (x3 x4 x5 : FVec F S512 .f32)
    (x6 : FVec F S1024x8 .f32) (x7 : FVec F S8 .f32) (x8 x9 x10 x11 : FVec F S512 .f32) (x12 : FVec F S512x256 .f32)
    (x13 : FVec F S256 .f32) : FVec F S50000x256 .f32 :=
  outH (convH x1 (convH x1 (layer0 x0 x2 x3 x4 x5) x6 x7 x8 x9) x6 x7 x10 x11) x12 x13

end Cert.ReferenceIdeal.Stages

end
-- ==== Proof.RefRun.lean ====
/-
  The reference network's run, read stage by stage.

  The reference program is a straight line of 208 host operations on whole arrays. Cut along the network's stages it is
  eight stretches: the edge slices and the input layer; for each of the two convolution layers the neighbourhood (masks,
  gather, selection, the two sums into destination rows, the mean), the gates and the mix, and the layer normalisation;
  the output projection. A stretch reads a handful of buffers written before it — an earlier stretch's result or an
  argument — and what it leaves in the buffer the next stretches read is one stage function of those contents, whatever
  the other buffers hold. So the contents after all the operations, at the result buffer, are the stages composed at the
  arguments' launch contents: each stretch is read once, from arbitrary contents, and the readings are chained through
  the buffers that carry them, a buffer no operation of a stretch writes keeping its contents through that stretch.

  The module states the eight stretches and the buffers each writes; what each stretch leaves; the chain; that @main is
  the concatenation of the stretches run in order, and hence that every fair execution ends with each buffer at the
  operations' fold over its launch contents; and that fold at the result buffer and at the arguments.
-/
import proofs.«116288_j6914897347185_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stretches

Each is the literal list of its operations, in program order; the operations of a called function stand in its call's
place, on the call's own buffers. -/

/-- The edges' sources and destinations read off the edge array, and the input layer: the product with the weight matrix plus the bias, clamped at zero, then layer normalisation. -/
abbrev s0 : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    binary main_arg0 main_arg2 main_v4 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_arg3 main_v5 (broadcastInDim S1x512 ![1] bcast_S512_S1x512_1 : (⟨S512, .f32⟩ : BufTy).Contents (Elt F) → (⟨S1x512, .f32⟩ : BufTy).Contents (Elt F)),
    unary main_v5 main_v6 (broadcastInDim S50000x512 ![0, 1] bcast_S1x512_S50000x512_0_1 : (⟨S1x512, .f32⟩ : BufTy).Contents (Elt F) → (⟨S50000x512, .f32⟩ : BufTy).Contents (Elt F)),
    binary main_v4 main_v6 main_v7 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x512, .f32⟩) main_call0_v0) (broadcastInDim S50000x512 ![] bcast_S_S50000x512),
    TRef.binary (TRef.of (T := ⟨S50000x512, .f32⟩) main_v7) (TRef.of (T := ⟨S50000x512, .f32⟩) main_call0_v0) (TRef.of (T := ⟨S50000x512, .f32⟩) main_v8) maximumf,
    nullary main_cst (constant S_ .f32 0x00000000#32),
    binary main_v8 main_cst main_v9 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v9 main_v10 (broadcastInDim S50000x1 ![0] bcast_S50000_S50000x1_0 : (⟨S50000, .f32⟩ : BufTy).Contents (Elt F) → (⟨S50000x1, .f32⟩ : BufTy).Contents (Elt F)),
    nullary main_cst_0 (constant S_ .f32 0x44000000#32),
    unary main_cst_0 main_v11 (broadcastInDim S50000x1 ![] bcast_S_S50000x1 : (⟨S_, .f32⟩ : BufTy).Contents (Elt F) → (⟨S50000x1, .f32⟩ : BufTy).Contents (Elt F)),
    binary main_v10 main_v11 main_v12 (Host.divf : (⟨S50000x1, .f32⟩ : BufTy).Contents (Elt F) → (⟨S50000x1, .f32⟩ : BufTy).Contents (Elt F) → (⟨S50000x1, .f32⟩ : BufTy).Contents (Elt F)),
    unary main_v12 main_v13 (broadcastInDim S50000x512 ![0, 1] bcast_S50000x1_S50000x512_0_1 : (⟨S50000x1, .f32⟩ : BufTy).Contents (Elt F) → (⟨S50000x512, .f32⟩ : BufTy).Contents (Elt F)),
    binary main_v8 main_v13 main_v14 (subf : (⟨S50000x512, .f32⟩ : BufTy).Contents (Elt F) → (⟨S50000x512, .f32⟩ : BufTy).Contents (Elt F) → (⟨S50000x512, .f32⟩ : BufTy).Contents (Elt F)),
    binary main_v14 main_v14 main_v15 (mulf : (⟨S50000x512, .f32⟩ : BufTy).Contents (Elt F) → (⟨S50000x512, .f32⟩ : BufTy).Contents (Elt F) → (⟨S50000x512, .f32⟩ : BufTy).Contents (Elt F)),
    nullary main_cst_1 (constant S_ .f32 0x00000000#32),
    binary main_v15 main_cst_1 main_v16 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v16 main_v17 (broadcastInDim S50000x1 ![0] bcast_S50000_S50000x1_0 : (⟨S50000, .f32⟩ : BufTy).Contents (Elt F) → (⟨S50000x1, .f32⟩ : BufTy).Contents (Elt F)),
    nullary main_cst_2 (constant S_ .f32 0x44000000#32),
    unary main_cst_2 main_v18 (broadcastInDim S50000x1 ![] bcast_S_S50000x1 : (⟨S_, .f32⟩ : BufTy).Contents (Elt F) → (⟨S50000x1, .f32⟩ : BufTy).Contents (Elt F)),
    binary main_v17 main_v18 main_v19 (Host.divf : (⟨S50000x1, .f32⟩ : BufTy).Contents (Elt F) → (⟨S50000x1, .f32⟩ : BufTy).Contents (Elt F) → (⟨S50000x1, .f32⟩ : BufTy).Contents (Elt F)),
    unary main_v12 main_v20 (broadcastInDim S50000x512 ![0, 1] bcast_S50000x1_S50000x512_0_1 : (⟨S50000x1, .f32⟩ : BufTy).Contents (Elt F) → (⟨S50000x512, .f32⟩ : BufTy).Contents (Elt F)),
    binary main_v8 main_v20 main_v21 (subf : (⟨S50000x512, .f32⟩ : BufTy).Contents (Elt F) → (⟨S50000x512, .f32⟩ : BufTy).Contents (Elt F) → (⟨S50000x512, .f32⟩ : BufTy).Contents (Elt F)),
    unary main_arg4 main_v22 (broadcastInDim S1x512 ![1] bcast_S512_S1x512_1 : (⟨S512, .f32⟩ : BufTy).Contents (Elt F) → (⟨S1x512, .f32⟩ : BufTy).Contents (Elt F)),
    unary main_v22 main_v23 (broadcastInDim S50000x512 ![0, 1] bcast_S1x512_S50000x512_0_1 : (⟨S1x512, .f32⟩ : BufTy).Contents (Elt F) → (⟨S50000x512, .f32⟩ : BufTy).Contents (Elt F)),
    binary main_v23 main_v21 main_v24 (mulf : (⟨S50000x512, .f32⟩ : BufTy).Contents (Elt F) → (⟨S50000x512, .f32⟩ : BufTy).Contents (Elt F) → (⟨S50000x512, .f32⟩ : BufTy).Contents (Elt F)),
    nullary main_cst_3 (constant S_ .f32 0x3727C5AC#32),
    unary main_cst_3 main_v25 (broadcastInDim S50000x1 ![] bcast_S_S50000x1 : (⟨S_, .f32⟩ : BufTy).Contents (Elt F) → (⟨S50000x1, .f32⟩ : BufTy).Contents (Elt F)),
    binary main_v19 main_v25 main_v26 (addf : (⟨S50000x1, .f32⟩ : BufTy).Contents (Elt F) → (⟨S50000x1, .f32⟩ : BufTy).Contents (Elt F) → (⟨S50000x1, .f32⟩ : BufTy).Contents (Elt F)),
    unary main_v26 main_v27 (Host.rsqrt : (⟨S50000x1, .f32⟩ : BufTy).Contents (Elt F) → (⟨S50000x1, .f32⟩ : BufTy).Contents (Elt F)),
    unary main_v27 main_v28 (broadcastInDim S50000x512 ![0, 1] bcast_S50000x1_S50000x512_0_1 : (⟨S50000x1, .f32⟩ : BufTy).Contents (Elt F) → (⟨S50000x512, .f32⟩ : BufTy).Contents (Elt F)),
    binary main_v24 main_v28 main_v29 (mulf : (⟨S50000x512, .f32⟩ : BufTy).Contents (Elt F) → (⟨S50000x512, .f32⟩ : BufTy).Contents (Elt F) → (⟨S50000x512, .f32⟩ : BufTy).Contents (Elt F)),
    unary main_arg5 main_v30 (broadcastInDim S1x512 ![1] bcast_S512_S1x512_1 : (⟨S512, .f32⟩ : BufTy).Contents (Elt F) → (⟨S1x512, .f32⟩ : BufTy).Contents (Elt F)),
    unary main_v30 main_v31 (broadcastInDim S50000x512 ![0, 1] bcast_S1x512_S50000x512_0_1 : (⟨S1x512, .f32⟩ : BufTy).Contents (Elt F) → (⟨S50000x512, .f32⟩ : BufTy).Contents (Elt F)),
    binary main_v29 main_v31 main_v32 (addf : (⟨S50000x512, .f32⟩ : BufTy).Contents (Elt F) → (⟨S50000x512, .f32⟩ : BufTy).Contents (Elt F) → (⟨S50000x512, .f32⟩ : BufTy).Contents (Elt F)) ]

/-- The buffers stretch 0 writes, in order. -/
abbrev W0 : List (Ref sig .tc) :=
  [main_v0, main_v1, main_v2, main_v3, main_v4, main_v5, main_v6, main_v7, main_call0_cst, main_call0_v0, main_v8, main_cst, main_v9, main_v10, main_cst_0, main_v11, main_v12, main_v13, main_v14, main_v15, main_cst_1, main_v16, main_v17, main_cst_2, main_v18, main_v19, main_v20, main_v21, main_v22, main_v23, main_v24, main_cst_3, main_v25, main_v26, main_v27, main_v28, main_v29, main_v30, main_v31, main_v32]

/-- First convolution layer, the neighbourhood: the self-loop mask, the wrapped source table, the gathered source rows with the self loops' rows zeroed, their sum into the destination rows plus the row itself, the neighbour count, and the neighbourhood mean. -/
abbrev s1 : List (HloOp τ sig (Elt F)) :=
  [ binary main_v1 main_v3 main_v33 (cmpi .ne : (⟨S400000, .i32⟩ : BufTy).Contents (Elt F) → (⟨S400000, .i32⟩ : BufTy).Contents (Elt F) → (⟨S400000, .i1⟩ : BufTy).Contents (Elt F)),
    unary main_v33 main_v34 (broadcastInDim S400000x1 ![0] bcast_S400000_S400000x1_0 : (⟨S400000, .i1⟩ : BufTy).Contents (Elt F) → (⟨S400000x1, .i1⟩ : BufTy).Contents (Elt F)),
    nullary main_c (constantI S_ 32 0#32),
    unary main_c main_v35 (broadcastInDim S400000 ![] bcast_S_S400000 : (⟨S_, .i32⟩ : BufTy).Contents (Elt F) → (⟨S400000, .i32⟩ : BufTy).Contents (Elt F)),
    binary main_v1 main_v35 main_v36 (cmpi .slt : (⟨S400000, .i32⟩ : BufTy).Contents (Elt F) → (⟨S400000, .i32⟩ : BufTy).Contents (Elt F) → (⟨S400000, .i1⟩ : BufTy).Contents (Elt F)),
    nullary main_c_4 (constantI S_ 32 50000#32),
    unary main_c_4 main_v37 (broadcastInDim S400000 ![] bcast_S_S400000 : (⟨S_, .i32⟩ : BufTy).Contents (Elt F) → (⟨S400000, .i32⟩ : BufTy).Contents (Elt F)),
    binary main_v1 main_v37 main_v38 (addi : (⟨S400000, .i32⟩ : BufTy).Contents (Elt F) → (⟨S400000, .i32⟩ : BufTy).Contents (Elt F) → (⟨S400000, .i32⟩ : BufTy).Contents (Elt F)),
    ternary main_v36 main_v38 main_v1 main_v39 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v39 main_v40 (broadcastInDim S400000x1 ![0] bcast_S400000_S400000x1_0 : (⟨S400000, .i32⟩ : BufTy).Contents (Elt F) → (⟨S400000x1, .i32⟩ : BufTy).Contents (Elt F)),
    binary main_v32 main_v40 main_v41 ((fun x i => Host.gather gather_S50000x512_S400000x1_S400000x512_1_0_n_n_0_1_1512 x i) : (⟨S50000x512, .f32⟩ : BufTy).Contents (Elt F) → (⟨S400000x1, .i32⟩ : BufTy).Contents (Elt F) → (⟨S400000x512, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S400000x1, .i1⟩) main_v34) (TRef.of (T := ⟨S400000x512, .i1⟩) main_call1_v1) (broadcastInDim S400000x512 ![0, 1] bcast_S400000x1_S400000x512_0_1),
    TRef.unary (TRef.of (T := ⟨S_, .f32⟩) main_call1_v0) (TRef.of (T := ⟨S400000x512, .f32⟩) main_call1_v2) (broadcastInDim S400000x512 ![] bcast_S_S400000x512),
    TRef.ternary (TRef.of (T := ⟨S400000x512, .i1⟩) main_call1_v1) (TRef.of (T := ⟨S400000x512, .f32⟩) main_v41) (TRef.of (T := ⟨S400000x512, .f32⟩) main_call1_v2) (TRef.of (T := ⟨S400000x512, .f32⟩) main_v42) select,
    nullary main_cst_6 (constant S_ .f32 0x00000000#32),
    unary main_cst_6 main_v43 (broadcastInDim S50000x512 ![] bcast_S_S50000x512 : (⟨S_, .f32⟩ : BufTy).Contents (Elt F) → (⟨S50000x512, .f32⟩ : BufTy).Contents (Elt F)),
    unary main_v3 main_v44 (broadcastInDim S400000x1 ![0] bcast_S400000_S400000x1_0 : (⟨S400000, .i32⟩ : BufTy).Contents (Elt F) → (⟨S400000x1, .i32⟩ : BufTy).Contents (Elt F)),
    ternary main_v43 main_v44 main_v42 main_v45 ((fun x i u => Host.scatterAdd scatter_S50000x512_S400000x1_S400000x512_1_0_0_1 x i u) : (⟨S50000x512, .f32⟩ : BufTy).Contents (Elt F) → (⟨S400000x1, .i32⟩ : BufTy).Contents (Elt F) → (⟨S400000x512, .f32⟩ : BufTy).Contents (Elt F) → (⟨S50000x512, .f32⟩ : BufTy).Contents (Elt F)),
    binary main_v45 main_v32 main_v46 (addf : (⟨S50000x512, .f32⟩ : BufTy).Contents (Elt F) → (⟨S50000x512, .f32⟩ : BufTy).Contents (Elt F) → (⟨S50000x512, .f32⟩ : BufTy).Contents (Elt F)),
    unary main_v33 main_v47 (uitofp .f32 : (⟨S400000, .i1⟩ : BufTy).Contents (Elt F) → (⟨S400000, .f32⟩ : BufTy).Contents (Elt F)),
    nullary main_cst_7 (constant S_ .f32 0x00000000#32),
    unary main_cst_7 main_v48 (broadcastInDim S50000 ![] bcast_S_S50000 : (⟨S_, .f32⟩ : BufTy).Contents (Elt F) → (⟨S50000, .f32⟩ : BufTy).Contents (Elt F)),
    unary main_v3 main_v49 (broadcastInDim S400000x1 ![0] bcast_S400000_S400000x1_0 : (⟨S400000, .i32⟩ : BufTy).Contents (Elt F) → (⟨S400000x1, .i32⟩ : BufTy).Contents (Elt F)),
    ternary main_v48 main_v49 main_v47 main_v50 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_8 (constant S_ .f32 0x3F800000#32),
    unary main_cst_8 main_v51 (broadcastInDim S50000 ![] bcast_S_S50000 : (⟨S_, .f32⟩ : BufTy).Contents (Elt F) → (⟨S50000, .f32⟩ : BufTy).Contents (Elt F)),
    binary main_v50 main_v51 main_v52 (addf : (⟨S50000, .f32⟩ : BufTy).Contents (Elt F) → (⟨S50000, .f32⟩ : BufTy).Contents (Elt F) → (⟨S50000, .f32⟩ : BufTy).Contents (Elt F)),
    unary main_v52 main_v53 (broadcastInDim S50000x1 ![0] bcast_S50000_S50000x1_0 : (⟨S50000, .f32⟩ : BufTy).Contents (Elt F) → (⟨S50000x1, .f32⟩ : BufTy).Contents (Elt F)),
    unary main_v53 main_v54 (broadcastInDim S50000x512 ![0, 1] bcast_S50000x1_S50000x512_0_1 : (⟨S50000x1, .f32⟩ : BufTy).Contents (Elt F) → (⟨S50000x512, .f32⟩ : BufTy).Contents (Elt F)),
    binary main_v46 main_v54 main_v55 (Host.divf : (⟨S50000x512, .f32⟩ : BufTy).Contents (Elt F) → (⟨S50000x512, .f32⟩ : BufTy).Contents (Elt F) → (⟨S50000x512, .f32⟩ : BufTy).Contents (Elt F)) ]

/-- The buffers stretch 1 writes, in order. -/
abbrev W1 : List (Ref sig .tc) :=
  [main_v33, main_v34, main_c, main_v35, main_v36, main_c_4, main_v37, main_v38, main_v39, main_v40, main_v41, main_cst_5, main_call1_v0, main_call1_v1, main_call1_v2, main_v42, main_cst_6, main_v43, main_v44, main_v45, main_v46, main_v47, main_cst_7, main_v48, main_v49, main_v50, main_cst_8, main_v51, main_v52, main_v53, main_v54, main_v55]

/-- First convolution layer, the gates: the row and its neighbourhood mean laid side by side against the gate matrix, the logistic function written out, the gates repeated over blocks of 64 features, and the mix of the row and the mean. -/
abbrev s2 : List (HloOp τ sig (Elt F)) :=
  [ binary main_v32 main_v55 main_v56 ((fun a b => concatenate S50000x1024 1 [⟨S50000x512, a⟩, ⟨S50000x512, b⟩] concatenates_S50000x512_S50000x512_S50000x1024_d1) : (⟨S50000x512, .f32⟩ : BufTy).Contents (Elt F) → (⟨S50000x512, .f32⟩ : BufTy).Contents (Elt F) → (⟨S50000x1024, .f32⟩ : BufTy).Contents (Elt F)),
    binary main_v56 main_arg6 main_v57 ((fun l r => Host.dotGeneral dot_S50000x1024_S1024x8_S50000x8_1_0_0_1_n_n none l r) : (⟨S50000x1024, .f32⟩ : BufTy).Contents (Elt F) → (⟨S1024x8, .f32⟩ : BufTy).Contents (Elt F) → (⟨S50000x8, .f32⟩ : BufTy).Contents (Elt F)),
    unary main_arg7 main_v58 (broadcastInDim S1x8 ![1] bcast_S8_S1x8_1 : (⟨S8, .f32⟩ : BufTy).Contents (Elt F) → (⟨S1x8, .f32⟩ : BufTy).Contents (Elt F)),
    unary main_v58 main_v59 (broadcastInDim S50000x8 ![0, 1] bcast_S1x8_S50000x8_0_1 : (⟨S1x8, .f32⟩ : BufTy).Contents (Elt F) → (⟨S50000x8, .f32⟩ : BufTy).Contents (Elt F)),
    binary main_v57 main_v59 main_v60 (addf : (⟨S50000x8, .f32⟩ : BufTy).Contents (Elt F) → (⟨S50000x8, .f32⟩ : BufTy).Contents (Elt F) → (⟨S50000x8, .f32⟩ : BufTy).Contents (Elt F)),
    unary main_v60 main_v61 (Host.negf : (⟨S50000x8, .f32⟩ : BufTy).Contents (Elt F) → (⟨S50000x8, .f32⟩ : BufTy).Contents (Elt F)),
    unary main_v61 main_v62 (Host.exp : (⟨S50000x8, .f32⟩ : BufTy).Contents (Elt F) → (⟨S50000x8, .f32⟩ : BufTy).Contents (Elt F)),
    nullary main_cst_9 (constant S_ .f32 0x3F800000#32),
    unary main_cst_9 main_v63 (broadcastInDim S50000x8 ![] bcast_S_S50000x8 : (⟨S_, .f32⟩ : BufTy).Contents (Elt F) → (⟨S50000x8, .f32⟩ : BufTy).Contents (Elt F)),
    binary main_v63 main_v62 main_v64 (addf : (⟨S50000x8, .f32⟩ : BufTy).Contents (Elt F) → (⟨S50000x8, .f32⟩ : BufTy).Contents (Elt F) → (⟨S50000x8, .f32⟩ : BufTy).Contents (Elt F)),
    nullary main_cst_10 (constant S_ .f32 0x3F800000#32),
    unary main_cst_10 main_v65 (broadcastInDim S50000x8 ![] bcast_S_S50000x8 : (⟨S_, .f32⟩ : BufTy).Contents (Elt F) → (⟨S50000x8, .f32⟩ : BufTy).Contents (Elt F)),
    binary main_v65 main_v64 main_v66 (Host.divf : (⟨S50000x8, .f32⟩ : BufTy).Contents (Elt F) → (⟨S50000x8, .f32⟩ : BufTy).Contents (Elt F) → (⟨S50000x8, .f32⟩ : BufTy).Contents (Elt F)),
    unary main_v66 main_v67 (broadcastInDim S50000x8x64 ![0, 1] bcast_S50000x8_S50000x8x64_0_1 : (⟨S50000x8, .f32⟩ : BufTy).Contents (Elt F) → (⟨S50000x8x64, .f32⟩ : BufTy).Contents (Elt F)),
    reshape main_v67 main_v68 rfl shapeCasts_S50000x8x64_S50000x512,
    binary main_v32 main_v68 main_v69 (mulf : (⟨S50000x512, .f32⟩ : BufTy).Contents (Elt F) → (⟨S50000x512, .f32⟩ : BufTy).Contents (Elt F) → (⟨S50000x512, .f32⟩ : BufTy).Contents (Elt F)),
    nullary main_cst_11 (constant S_ .f32 0x3F800000#32),
    unary main_cst_11 main_v70 (broadcastInDim S50000x512 ![] bcast_S_S50000x512 : (⟨S_, .f32⟩ : BufTy).Contents (Elt F) → (⟨S50000x512, .f32⟩ : BufTy).Contents (Elt F)),
    binary main_v70 main_v68 main_v71 (subf : (⟨S50000x512, .f32⟩ : BufTy).Contents (Elt F) → (⟨S50000x512, .f32⟩ : BufTy).Contents (Elt F) → (⟨S50000x512, .f32⟩ : BufTy).Contents (Elt F)),
    binary main_v55 main_v71 main_v72 (mulf : (⟨S50000x512, .f32⟩ : BufTy).Contents (Elt F) → (⟨S50000x512, .f32⟩ : BufTy).Contents (Elt F) → (⟨S50000x512, .f32⟩ : BufTy).Contents (Elt F)),
    binary main_v69 main_v72 main_v73 (addf : (⟨S50000x512, .f32⟩ : BufTy).Contents (Elt F) → (⟨S50000x512, .f32⟩ : BufTy).Contents (Elt F) → (⟨S50000x512, .f32⟩ : BufTy).Contents (Elt F)) ]

/-- The buffers stretch 2 writes, in order. -/
abbrev W2 : List (Ref sig .tc) :=
  [main_v56, main_v57, main_v58, main_v59, main_v60, main_v61, main_v62, main_cst_9, main_v63, main_v64, main_cst_10, main_v65, main_v66, main_v67, main_v68, main_v69, main_cst_11, main_v70, main_v71, main_v72, main_v73]

/-- First convolution layer, the layer normalisation of the mix. -/
abbrev s3 : List (HloOp τ sig (Elt F)) :=
  [ nullary main_cst_12 (constant S_ .f32 0x00000000#32),
    binary main_v73 main_cst_12 main_v74 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v74 main_v75 (broadcastInDim S50000x1 ![0] bcast_S50000_S50000x1_0 : (⟨S50000, .f32⟩ : BufTy).Contents (Elt F) → (⟨S50000x1, .f32⟩ : BufTy).Contents (Elt F)),
    nullary main_cst_13 (constant S_ .f32 0x44000000#32),
    unary main_cst_13 main_v76 (broadcastInDim S50000x1 ![] bcast_S_S50000x1 : (⟨S_, .f32⟩ : BufTy).Contents (Elt F) → (⟨S50000x1, .f32⟩ : BufTy).Contents (Elt F)),
    binary main_v75 main_v76 main_v77 (Host.divf : (⟨S50000x1, .f32⟩ : BufTy).Contents (Elt F) → (⟨S50000x1, .f32⟩ : BufTy).Contents (Elt F) → (⟨S50000x1, .f32⟩ : BufTy).Contents (Elt F)),
    unary main_v77 main_v78 (broadcastInDim S50000x512 ![0, 1] bcast_S50000x1_S50000x512_0_1 : (⟨S50000x1, .f32⟩ : BufTy).Contents (Elt F) → (⟨S50000x512, .f32⟩ : BufTy).Contents (Elt F)),
    binary main_v73 main_v78 main_v79 (subf : (⟨S50000x512, .f32⟩ : BufTy).Contents (Elt F) → (⟨S50000x512, .f32⟩ : BufTy).Contents (Elt F) → (⟨S50000x512, .f32⟩ : BufTy).Contents (Elt F)),
    binary main_v79 main_v79 main_v80 (mulf : (⟨S50000x512, .f32⟩ : BufTy).Contents (Elt F) → (⟨S50000x512, .f32⟩ : BufTy).Contents (Elt F) → (⟨S50000x512, .f32⟩ : BufTy).Contents (Elt F)),
    nullary main_cst_14 (constant S_ .f32 0x00000000#32),
    binary main_v80 main_cst_14 main_v81 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v81 main_v82 (broadcastInDim S50000x1 ![0] bcast_S50000_S50000x1_0 : (⟨S50000, .f32⟩ : BufTy).Contents (Elt F) → (⟨S50000x1, .f32⟩ : BufTy).Contents (Elt F)),
    nullary main_cst_15 (constant S_ .f32 0x44000000#32),
    unary main_cst_15 main_v83 (broadcastInDim S50000x1 ![] bcast_S_S50000x1 : (⟨S_, .f32⟩ : BufTy).Contents (Elt F) → (⟨S50000x1, .f32⟩ : BufTy).Contents (Elt F)),
    binary main_v82 main_v83 main_v84 (Host.divf : (⟨S50000x1, .f32⟩ : BufTy).Contents (Elt F) → (⟨S50000x1, .f32⟩ : BufTy).Contents (Elt F) → (⟨S50000x1, .f32⟩ : BufTy).Contents (Elt F)),
    unary main_v77 main_v85 (broadcastInDim S50000x512 ![0, 1] bcast_S50000x1_S50000x512_0_1 : (⟨S50000x1, .f32⟩ : BufTy).Contents (Elt F) → (⟨S50000x512, .f32⟩ : BufTy).Contents (Elt F)),
    binary main_v73 main_v85 main_v86 (subf : (⟨S50000x512, .f32⟩ : BufTy).Contents (Elt F) → (⟨S50000x512, .f32⟩ : BufTy).Contents (Elt F) → (⟨S50000x512, .f32⟩ : BufTy).Contents (Elt F)),
    unary main_arg8 main_v87 (broadcastInDim S1x512 ![1] bcast_S512_S1x512_1 : (⟨S512, .f32⟩ : BufTy).Contents (Elt F) → (⟨S1x512, .f32⟩ : BufTy).Contents (Elt F)),
    unary main_v87 main_v88 (broadcastInDim S50000x512 ![0, 1] bcast_S1x512_S50000x512_0_1 : (⟨S1x512, .f32⟩ : BufTy).Contents (Elt F) → (⟨S50000x512, .f32⟩ : BufTy).Contents (Elt F)),
    binary main_v88 main_v86 main_v89 (mulf : (⟨S50000x512, .f32⟩ : BufTy).Contents (Elt F) → (⟨S50000x512, .f32⟩ : BufTy).Contents (Elt F) → (⟨S50000x512, .f32⟩ : BufTy).Contents (Elt F)),
    nullary main_cst_16 (constant S_ .f32 0x3727C5AC#32),
    unary main_cst_16 main_v90 (broadcastInDim S50000x1 ![] bcast_S_S50000x1 : (⟨S_, .f32⟩ : BufTy).Contents (Elt F) → (⟨S50000x1, .f32⟩ : BufTy).Contents (Elt F)),
    binary main_v84 main_v90 main_v91 (addf : (⟨S50000x1, .f32⟩ : BufTy).Contents (Elt F) → (⟨S50000x1, .f32⟩ : BufTy).Contents (Elt F) → (⟨S50000x1, .f32⟩ : BufTy).Contents (Elt F)),
    unary main_v91 main_v92 (Host.rsqrt : (⟨S50000x1, .f32⟩ : BufTy).Contents (Elt F) → (⟨S50000x1, .f32⟩ : BufTy).Contents (Elt F)),
    unary main_v92 main_v93 (broadcastInDim S50000x512 ![0, 1] bcast_S50000x1_S50000x512_0_1 : (⟨S50000x1, .f32⟩ : BufTy).Contents (Elt F) → (⟨S50000x512, .f32⟩ : BufTy).Contents (Elt F)),
    binary main_v89 main_v93 main_v94 (mulf : (⟨S50000x512, .f32⟩ : BufTy).Contents (Elt F) → (⟨S50000x512, .f32⟩ : BufTy).Contents (Elt F) → (⟨S50000x512, .f32⟩ : BufTy).Contents (Elt F)),
    unary main_arg9 main_v95 (broadcastInDim S1x512 ![1] bcast_S512_S1x512_1 : (⟨S512, .f32⟩ : BufTy).Contents (Elt F) → (⟨S1x512, .f32⟩ : BufTy).Contents (Elt F)),
    unary main_v95 main_v96 (broadcastInDim S50000x512 ![0, 1] bcast_S1x512_S50000x512_0_1 : (⟨S1x512, .f32⟩ : BufTy).Contents (Elt F) → (⟨S50000x512, .f32⟩ : BufTy).Contents (Elt F)),
    binary main_v94 main_v96 main_v97 (addf : (⟨S50000x512, .f32⟩ : BufTy).Contents (Elt F) → (⟨S50000x512, .f32⟩ : BufTy).Contents (Elt F) → (⟨S50000x512, .f32⟩ : BufTy).Contents (Elt F)) ]

/-- The buffers stretch 3 writes, in order. -/
abbrev W3 : List (Ref sig .tc) :=
  [main_cst_12, main_v74, main_v75, main_cst_13, main_v76, main_v77, main_v78, main_v79, main_v80, main_cst_14, main_v81, main_v82, main_cst_15, main_v83, main_v84, main_v85, main_v86, main_v87, main_v88, main_v89, main_cst_16, main_v90, main_v91, main_v92, main_v93, main_v94, main_v95, main_v96, main_v97]

/-- Second convolution layer, the neighbourhood (the same operations on the first layer's result). -/
abbrev s4 : List (HloOp τ sig (Elt F)) :=
  [ binary main_v1 main_v3 main_v98 (cmpi .ne : (⟨S400000, .i32⟩ : BufTy).Contents (Elt F) → (⟨S400000, .i32⟩ : BufTy).Contents (Elt F) → (⟨S400000, .i1⟩ : BufTy).Contents (Elt F)),
    unary main_v98 main_v99 (broadcastInDim S400000x1 ![0] bcast_S400000_S400000x1_0 : (⟨S400000, .i1⟩ : BufTy).Contents (Elt F) → (⟨S400000x1, .i1⟩ : BufTy).Contents (Elt F)),
    nullary main_c_17 (constantI S_ 32 0#32),
    unary main_c_17 main_v100 (broadcastInDim S400000 ![] bcast_S_S400000 : (⟨S_, .i32⟩ : BufTy).Contents (Elt F) → (⟨S400000, .i32⟩ : BufTy).Contents (Elt F)),
    binary main_v1 main_v100 main_v101 (cmpi .slt : (⟨S400000, .i32⟩ : BufTy).Contents (Elt F) → (⟨S400000, .i32⟩ : BufTy).Contents (Elt F) → (⟨S400000, .i1⟩ : BufTy).Contents (Elt F)),
    nullary main_c_18 (constantI S_ 32 50000#32),
    unary main_c_18 main_v102 (broadcastInDim S400000 ![] bcast_S_S400000 : (⟨S_, .i32⟩ : BufTy).Contents (Elt F) → (⟨S400000, .i32⟩ : BufTy).Contents (Elt F)),
    binary main_v1 main_v102 main_v103 (addi : (⟨S400000, .i32⟩ : BufTy).Contents (Elt F) → (⟨S400000, .i32⟩ : BufTy).Contents (Elt F) → (⟨S400000, .i32⟩ : BufTy).Contents (Elt F)),
    ternary main_v101 main_v103 main_v1 main_v104 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v104 main_v105 (broadcastInDim S400000x1 ![0] bcast_S400000_S400000x1_0 : (⟨S400000, .i32⟩ : BufTy).Contents (Elt F) → (⟨S400000x1, .i32⟩ : BufTy).Contents (Elt F)),
    binary main_v97 main_v105 main_v106 ((fun x i => Host.gather gather_S50000x512_S400000x1_S400000x512_1_0_n_n_0_1_1512 x i) : (⟨S50000x512, .f32⟩ : BufTy).Contents (Elt F) → (⟨S400000x1, .i32⟩ : BufTy).Contents (Elt F) → (⟨S400000x512, .f32⟩ : BufTy).Contents (Elt F)),
    nullary main_cst_19 (constant S_ .f32 0x00000000#32),
    TRef.unary (TRef.of (T := ⟨S_, .f32⟩) main_cst_19) (TRef.of (T := ⟨S_, .f32⟩) main_call2_v0) id,
    TRef.unary (TRef.of (T := ⟨S400000x1, .i1⟩) main_v99) (TRef.of (T := ⟨S400000x512, .i1⟩) main_call2_v1) (broadcastInDim S400000x512 ![0, 1] bcast_S400000x1_S400000x512_0_1),
    TRef.unary (TRef.of (T := ⟨S_, .f32⟩) main_call2_v0) (TRef.of (T := ⟨S400000x512, .f32⟩) main_call2_v2) (broadcastInDim S400000x512 ![] bcast_S_S400000x512),
    TRef.ternary (TRef.of (T := ⟨S400000x512, .i1⟩) main_call2_v1) (TRef.of (T := ⟨S400000x512, .f32⟩) main_v106) (TRef.of (T := ⟨S400000x512, .f32⟩) main_call2_v2) (TRef.of (T := ⟨S400000x512, .f32⟩) main_v107) select,
    nullary main_cst_20 (constant S_ .f32 0x00000000#32),
    unary main_cst_20 main_v108 (broadcastInDim S50000x512 ![] bcast_S_S50000x512 : (⟨S_, .f32⟩ : BufTy).Contents (Elt F) → (⟨S50000x512, .f32⟩ : BufTy).Contents (Elt F)),
    unary main_v3 main_v109 (broadcastInDim S400000x1 ![0] bcast_S400000_S400000x1_0 : (⟨S400000, .i32⟩ : BufTy).Contents (Elt F) → (⟨S400000x1, .i32⟩ : BufTy).Contents (Elt F)),
    ternary main_v108 main_v109 main_v107 main_v110 ((fun x i u => Host.scatterAdd scatter_S50000x512_S400000x1_S400000x512_1_0_0_1 x i u) : (⟨S50000x512, .f32⟩ : BufTy).Contents (Elt F) → (⟨S400000x1, .i32⟩ : BufTy).Contents (Elt F) → (⟨S400000x512, .f32⟩ : BufTy).Contents (Elt F) → (⟨S50000x512, .f32⟩ : BufTy).Contents (Elt F)),
    binary main_v110 main_v97 main_v111 (addf : (⟨S50000x512, .f32⟩ : BufTy).Contents (Elt F) → (⟨S50000x512, .f32⟩ : BufTy).Contents (Elt F) → (⟨S50000x512, .f32⟩ : BufTy).Contents (Elt F)),
    unary main_v98 main_v112 (uitofp .f32 : (⟨S400000, .i1⟩ : BufTy).Contents (Elt F) → (⟨S400000, .f32⟩ : BufTy).Contents (Elt F)),
    nullary main_cst_21 (constant S_ .f32 0x00000000#32),
    unary main_cst_21 main_v113 (broadcastInDim S50000 ![] bcast_S_S50000 : (⟨S_, .f32⟩ : BufTy).Contents (Elt F) → (⟨S50000, .f32⟩ : BufTy).Contents (Elt F)),
    unary main_v3 main_v114 (broadcastInDim S400000x1 ![0] bcast_S400000_S400000x1_0 : (⟨S400000, .i32⟩ : BufTy).Contents (Elt F) → (⟨S400000x1, .i32⟩ : BufTy).Contents (Elt F)),
    ternary main_v113 main_v114 main_v112 main_v115 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_22 (constant S_ .f32 0x3F800000#32),
    unary main_cst_22 main_v116 (broadcastInDim S50000 ![] bcast_S_S50000 : (⟨S_, .f32⟩ : BufTy).Contents (Elt F) → (⟨S50000, .f32⟩ : BufTy).Contents (Elt F)),
    binary main_v115 main_v116 main_v117 (addf : (⟨S50000, .f32⟩ : BufTy).Contents (Elt F) → (⟨S50000, .f32⟩ : BufTy).Contents (Elt F) → (⟨S50000, .f32⟩ : BufTy).Contents (Elt F)),
    unary main_v117 main_v118 (broadcastInDim S50000x1 ![0] bcast_S50000_S50000x1_0 : (⟨S50000, .f32⟩ : BufTy).Contents (Elt F) → (⟨S50000x1, .f32⟩ : BufTy).Contents (Elt F)),
    unary main_v118 main_v119 (broadcastInDim S50000x512 ![0, 1] bcast_S50000x1_S50000x512_0_1 : (⟨S50000x1, .f32⟩ : BufTy).Contents (Elt F) → (⟨S50000x512, .f32⟩ : BufTy).Contents (Elt F)),
    binary main_v111 main_v119 main_v120 (Host.divf : (⟨S50000x512, .f32⟩ : BufTy).Contents (Elt F) → (⟨S50000x512, .f32⟩ : BufTy).Contents (Elt F) → (⟨S50000x512, .f32⟩ : BufTy).Contents (Elt F)) ]

/-- The buffers stretch 4 writes, in order. -/
abbrev W4 : List (Ref sig .tc) :=
  [main_v98, main_v99, main_c_17, main_v100, main_v101, main_c_18, main_v102, main_v103, main_v104, main_v105, main_v106, main_cst_19, main_call2_v0, main_call2_v1, main_call2_v2, main_v107, main_cst_20, main_v108, main_v109, main_v110, main_v111, main_v112, main_cst_21, main_v113, main_v114, main_v115, main_cst_22, main_v116, main_v117, main_v118, main_v119, main_v120]

/-- Second convolution layer, the gates and the mix. -/
abbrev s5 : List (HloOp τ sig (Elt F)) :=
  [ binary main_v97 main_v120 main_v121 ((fun a b => concatenate S50000x1024 1 [⟨S50000x512, a⟩, ⟨S50000x512, b⟩] concatenates_S50000x512_S50000x512_S50000x1024_d1) : (⟨S50000x512, .f32⟩ : BufTy).Contents (Elt F) → (⟨S50000x512, .f32⟩ : BufTy).Contents (Elt F) → (⟨S50000x1024, .f32⟩ : BufTy).Contents (Elt F)),
    binary main_v121 main_arg6 main_v122 ((fun l r => Host.dotGeneral dot_S50000x1024_S1024x8_S50000x8_1_0_0_1_n_n none l r) : (⟨S50000x1024, .f32⟩ : BufTy).Contents (Elt F) → (⟨S1024x8, .f32⟩ : BufTy).Contents (Elt F) → (⟨S50000x8, .f32⟩ : BufTy).Contents (Elt F)),
    unary main_arg7 main_v123 (broadcastInDim S1x8 ![1] bcast_S8_S1x8_1 : (⟨S8, .f32⟩ : BufTy).Contents (Elt F) → (⟨S1x8, .f32⟩ : BufTy).Contents (Elt F)),
    unary main_v123 main_v124 (broadcastInDim S50000x8 ![0, 1] bcast_S1x8_S50000x8_0_1 : (⟨S1x8, .f32⟩ : BufTy).Contents (Elt F) → (⟨S50000x8, .f32⟩ : BufTy).Contents (Elt F)),
    binary main_v122 main_v124 main_v125 (addf : (⟨S50000x8, .f32⟩ : BufTy).Contents (Elt F) → (⟨S50000x8, .f32⟩ : BufTy).Contents (Elt F) → (⟨S50000x8, .f32⟩ : BufTy).Contents (Elt F)),
    unary main_v125 main_v126 (Host.negf : (⟨S50000x8, .f32⟩ : BufTy).Contents (Elt F) → (⟨S50000x8, .f32⟩ : BufTy).Contents (Elt F)),
    unary main_v126 main_v127 (Host.exp : (⟨S50000x8, .f32⟩ : BufTy).Contents (Elt F) → (⟨S50000x8, .f32⟩ : BufTy).Contents (Elt F)),
    nullary main_cst_23 (constant S_ .f32 0x3F800000#32),
    unary main_cst_23 main_v128 (broadcastInDim S50000x8 ![] bcast_S_S50000x8 : (⟨S_, .f32⟩ : BufTy).Contents (Elt F) → (⟨S50000x8, .f32⟩ : BufTy).Contents (Elt F)),
    binary main_v128 main_v127 main_v129 (addf : (⟨S50000x8, .f32⟩ : BufTy).Contents (Elt F) → (⟨S50000x8, .f32⟩ : BufTy).Contents (Elt F) → (⟨S50000x8, .f32⟩ : BufTy).Contents (Elt F)),
    nullary main_cst_24 (constant S_ .f32 0x3F800000#32),
    unary main_cst_24 main_v130 (broadcastInDim S50000x8 ![] bcast_S_S50000x8 : (⟨S_, .f32⟩ : BufTy).Contents (Elt F) → (⟨S50000x8, .f32⟩ : BufTy).Contents (Elt F)),
    binary main_v130 main_v129 main_v131 (Host.divf : (⟨S50000x8, .f32⟩ : BufTy).Contents (Elt F) → (⟨S50000x8, .f32⟩ : BufTy).Contents (Elt F) → (⟨S50000x8, .f32⟩ : BufTy).Contents (Elt F)),
    unary main_v131 main_v132 (broadcastInDim S50000x8x64 ![0, 1] bcast_S50000x8_S50000x8x64_0_1 : (⟨S50000x8, .f32⟩ : BufTy).Contents (Elt F) → (⟨S50000x8x64, .f32⟩ : BufTy).Contents (Elt F)),
    reshape main_v132 main_v133 rfl shapeCasts_S50000x8x64_S50000x512,
    binary main_v97 main_v133 main_v134 (mulf : (⟨S50000x512, .f32⟩ : BufTy).Contents (Elt F) → (⟨S50000x512, .f32⟩ : BufTy).Contents (Elt F) → (⟨S50000x512, .f32⟩ : BufTy).Contents (Elt F)),
    nullary main_cst_25 (constant S_ .f32 0x3F800000#32),
    unary main_cst_25 main_v135 (broadcastInDim S50000x512 ![] bcast_S_S50000x512 : (⟨S_, .f32⟩ : BufTy).Contents (Elt F) → (⟨S50000x512, .f32⟩ : BufTy).Contents (Elt F)),
    binary main_v135 main_v133 main_v136 (subf : (⟨S50000x512, .f32⟩ : BufTy).Contents (Elt F) → (⟨S50000x512, .f32⟩ : BufTy).Contents (Elt F) → (⟨S50000x512, .f32⟩ : BufTy).Contents (Elt F)),
    binary main_v120 main_v136 main_v137 (mulf : (⟨S50000x512, .f32⟩ : BufTy).Contents (Elt F) → (⟨S50000x512, .f32⟩ : BufTy).Contents (Elt F) → (⟨S50000x512, .f32⟩ : BufTy).Contents (Elt F)),
    binary main_v134 main_v137 main_v138 (addf : (⟨S50000x512, .f32⟩ : BufTy).Contents (Elt F) → (⟨S50000x512, .f32⟩ : BufTy).Contents (Elt F) → (⟨S50000x512, .f32⟩ : BufTy).Contents (Elt F)) ]

/-- The buffers stretch 5 writes, in order. -/
abbrev W5 : List (Ref sig .tc) :=
  [main_v121, main_v122, main_v123, main_v124, main_v125, main_v126, main_v127, main_cst_23, main_v128, main_v129, main_cst_24, main_v130, main_v131, main_v132, main_v133, main_v134, main_cst_25, main_v135, main_v136, main_v137, main_v138]

/-- Second convolution layer, the layer normalisation of the mix. -/
abbrev s6 : List (HloOp τ sig (Elt F)) :=
  [ nullary main_cst_26 (constant S_ .f32 0x00000000#32),
    binary main_v138 main_cst_26 main_v139 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v139 main_v140 (broadcastInDim S50000x1 ![0] bcast_S50000_S50000x1_0 : (⟨S50000, .f32⟩ : BufTy).Contents (Elt F) → (⟨S50000x1, .f32⟩ : BufTy).Contents (Elt F)),
    nullary main_cst_27 (constant S_ .f32 0x44000000#32),
    unary main_cst_27 main_v141 (broadcastInDim S50000x1 ![] bcast_S_S50000x1 : (⟨S_, .f32⟩ : BufTy).Contents (Elt F) → (⟨S50000x1, .f32⟩ : BufTy).Contents (Elt F)),
    binary main_v140 main_v141 main_v142 (Host.divf : (⟨S50000x1, .f32⟩ : BufTy).Contents (Elt F) → (⟨S50000x1, .f32⟩ : BufTy).Contents (Elt F) → (⟨S50000x1, .f32⟩ : BufTy).Contents (Elt F)),
    unary main_v142 main_v143 (broadcastInDim S50000x512 ![0, 1] bcast_S50000x1_S50000x512_0_1 : (⟨S50000x1, .f32⟩ : BufTy).Contents (Elt F) → (⟨S50000x512, .f32⟩ : BufTy).Contents (Elt F)),
    binary main_v138 main_v143 main_v144 (subf : (⟨S50000x512, .f32⟩ : BufTy).Contents (Elt F) → (⟨S50000x512, .f32⟩ : BufTy).Contents (Elt F) → (⟨S50000x512, .f32⟩ : BufTy).Contents (Elt F)),
    binary main_v144 main_v144 main_v145 (mulf : (⟨S50000x512, .f32⟩ : BufTy).Contents (Elt F) → (⟨S50000x512, .f32⟩ : BufTy).Contents (Elt F) → (⟨S50000x512, .f32⟩ : BufTy).Contents (Elt F)),
    nullary main_cst_28 (constant S_ .f32 0x00000000#32),
    binary main_v145 main_cst_28 main_v146 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v146 main_v147 (broadcastInDim S50000x1 ![0] bcast_S50000_S50000x1_0 : (⟨S50000, .f32⟩ : BufTy).Contents (Elt F) → (⟨S50000x1, .f32⟩ : BufTy).Contents (Elt F)),
    nullary main_cst_29 (constant S_ .f32 0x44000000#32),
    unary main_cst_29 main_v148 (broadcastInDim S50000x1 ![] bcast_S_S50000x1 : (⟨S_, .f32⟩ : BufTy).Contents (Elt F) → (⟨S50000x1, .f32⟩ : BufTy).Contents (Elt F)),
    binary main_v147 main_v148 main_v149 (Host.divf : (⟨S50000x1, .f32⟩ : BufTy).Contents (Elt F) → (⟨S50000x1, .f32⟩ : BufTy).Contents (Elt F) → (⟨S50000x1, .f32⟩ : BufTy).Contents (Elt F)),
    unary main_v142 main_v150 (broadcastInDim S50000x512 ![0, 1] bcast_S50000x1_S50000x512_0_1 : (⟨S50000x1, .f32⟩ : BufTy).Contents (Elt F) → (⟨S50000x512, .f32⟩ : BufTy).Contents (Elt F)),
    binary main_v138 main_v150 main_v151 (subf : (⟨S50000x512, .f32⟩ : BufTy).Contents (Elt F) → (⟨S50000x512, .f32⟩ : BufTy).Contents (Elt F) → (⟨S50000x512, .f32⟩ : BufTy).Contents (Elt F)),
    unary main_arg10 main_v152 (broadcastInDim S1x512 ![1] bcast_S512_S1x512_1 : (⟨S512, .f32⟩ : BufTy).Contents (Elt F) → (⟨S1x512, .f32⟩ : BufTy).Contents (Elt F)),
    unary main_v152 main_v153 (broadcastInDim S50000x512 ![0, 1] bcast_S1x512_S50000x512_0_1 : (⟨S1x512, .f32⟩ : BufTy).Contents (Elt F) → (⟨S50000x512, .f32⟩ : BufTy).Contents (Elt F)),
    binary main_v153 main_v151 main_v154 (mulf : (⟨S50000x512, .f32⟩ : BufTy).Contents (Elt F) → (⟨S50000x512, .f32⟩ : BufTy).Contents (Elt F) → (⟨S50000x512, .f32⟩ : BufTy).Contents (Elt F)),
    nullary main_cst_30 (constant S_ .f32 0x3727C5AC#32),
    unary main_cst_30 main_v155 (broadcastInDim S50000x1 ![] bcast_S_S50000x1 : (⟨S_, .f32⟩ : BufTy).Contents (Elt F) → (⟨S50000x1, .f32⟩ : BufTy).Contents (Elt F)),
    binary main_v149 main_v155 main_v156 (addf : (⟨S50000x1, .f32⟩ : BufTy).Contents (Elt F) → (⟨S50000x1, .f32⟩ : BufTy).Contents (Elt F) → (⟨S50000x1, .f32⟩ : BufTy).Contents (Elt F)),
    unary main_v156 main_v157 (Host.rsqrt : (⟨S50000x1, .f32⟩ : BufTy).Contents (Elt F) → (⟨S50000x1, .f32⟩ : BufTy).Contents (Elt F)),
    unary main_v157 main_v158 (broadcastInDim S50000x512 ![0, 1] bcast_S50000x1_S50000x512_0_1 : (⟨S50000x1, .f32⟩ : BufTy).Contents (Elt F) → (⟨S50000x512, .f32⟩ : BufTy).Contents (Elt F)),
    binary main_v154 main_v158 main_v159 (mulf : (⟨S50000x512, .f32⟩ : BufTy).Contents (Elt F) → (⟨S50000x512, .f32⟩ : BufTy).Contents (Elt F) → (⟨S50000x512, .f32⟩ : BufTy).Contents (Elt F)),
    unary main_arg11 main_v160 (broadcastInDim S1x512 ![1] bcast_S512_S1x512_1 : (⟨S512, .f32⟩ : BufTy).Contents (Elt F) → (⟨S1x512, .f32⟩ : BufTy).Contents (Elt F)),
    unary main_v160 main_v161 (broadcastInDim S50000x512 ![0, 1] bcast_S1x512_S50000x512_0_1 : (⟨S1x512, .f32⟩ : BufTy).Contents (Elt F) → (⟨S50000x512, .f32⟩ : BufTy).Contents (Elt F)),
    binary main_v159 main_v161 main_v162 (addf : (⟨S50000x512, .f32⟩ : BufTy).Contents (Elt F) → (⟨S50000x512, .f32⟩ : BufTy).Contents (Elt F) → (⟨S50000x512, .f32⟩ : BufTy).Contents (Elt F)) ]

/-- The buffers stretch 6 writes, in order. -/
abbrev W6 : List (Ref sig .tc) :=
  [main_cst_26, main_v139, main_v140, main_cst_27, main_v141, main_v142, main_v143, main_v144, main_v145, main_cst_28, main_v146, main_v147, main_cst_29, main_v148, main_v149, main_v150, main_v151, main_v152, main_v153, main_v154, main_cst_30, main_v155, main_v156, main_v157, main_v158, main_v159, main_v160, main_v161, main_v162]

/-- The output projection: the product with the output matrix plus the bias. -/
abbrev s7 : List (HloOp τ sig (Elt F)) :=
  [ binary main_v162 main_arg12 main_v163 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_arg13 main_v164 (broadcastInDim S1x256 ![1] bcast_S256_S1x256_1 : (⟨S256, .f32⟩ : BufTy).Contents (Elt F) → (⟨S1x256, .f32⟩ : BufTy).Contents (Elt F)),
    unary main_v164 main_v165 (broadcastInDim S50000x256 ![0, 1] bcast_S1x256_S50000x256_0_1 : (⟨S1x256, .f32⟩ : BufTy).Contents (Elt F) → (⟨S50000x256, .f32⟩ : BufTy).Contents (Elt F)),
    binary main_v163 main_v165 main_v166 (addf : (⟨S50000x256, .f32⟩ : BufTy).Contents (Elt F) → (⟨S50000x256, .f32⟩ : BufTy).Contents (Elt F) → (⟨S50000x256, .f32⟩ : BufTy).Contents (Elt F)) ]

/-- The buffers stretch 7 writes, in order. -/
abbrev W7 : List (Ref sig .tc) :=
  [main_v163, main_v164, main_v165, main_v166]

theorem s0_writes : (s0 : List (HloOp τ sig (Elt F))).Forall fun op => op.writes ⊆ ((W0).map (Proc.devRef (τ := τ) .tc)).toFinset := by
  simp only [s0, List.Forall, nullary_writes, unary_writes, binary_writes, ternary_writes, reshape_writes, Finset.singleton_subset_iff]
  repeat' apply And.intro
  all_goals exact List.mem_toFinset.mpr (List.mem_map_of_mem (by decide))

/-- A buffer stretch 0 does not write keeps its contents through it. -/
theorem kept0 (V : Valuation τ sig (Elt F)) {r : Ref sig .tc} (hr : r ∉ W0) :
    after s0 V (Proc.devRef .tc r) = V (Proc.devRef .tc r) :=
  after_of_writes_sub s0 V s0_writes hr

theorem s1_writes : (s1 : List (HloOp τ sig (Elt F))).Forall fun op => op.writes ⊆ ((W1).map (Proc.devRef (τ := τ) .tc)).toFinset := by
  simp only [s1, List.Forall, nullary_writes, unary_writes, binary_writes, ternary_writes, reshape_writes, Finset.singleton_subset_iff]
  repeat' apply And.intro
  all_goals exact List.mem_toFinset.mpr (List.mem_map_of_mem (by decide))

/-- A buffer stretch 1 does not write keeps its contents through it. -/
theorem kept1 (V : Valuation τ sig (Elt F)) {r : Ref sig .tc} (hr : r ∉ W1) :
    after s1 V (Proc.devRef .tc r) = V (Proc.devRef .tc r) :=
  after_of_writes_sub s1 V s1_writes hr

theorem s2_writes : (s2 : List (HloOp τ sig (Elt F))).Forall fun op => op.writes ⊆ ((W2).map (Proc.devRef (τ := τ) .tc)).toFinset := by
  simp only [s2, List.Forall, nullary_writes, unary_writes, binary_writes, ternary_writes, reshape_writes, Finset.singleton_subset_iff]
  repeat' apply And.intro
  all_goals exact List.mem_toFinset.mpr (List.mem_map_of_mem (by decide))

/-- A buffer stretch 2 does not write keeps its contents through it. -/
theorem kept2 (V : Valuation τ sig (Elt F)) {r : Ref sig .tc} (hr : r ∉ W2) :
    after s2 V (Proc.devRef .tc r) = V (Proc.devRef .tc r) :=
  after_of_writes_sub s2 V s2_writes hr

theorem s3_writes : (s3 : List (HloOp τ sig (Elt F))).Forall fun op => op.writes ⊆ ((W3).map (Proc.devRef (τ := τ) .tc)).toFinset := by
  simp only [s3, List.Forall, nullary_writes, unary_writes, binary_writes, ternary_writes, reshape_writes, Finset.singleton_subset_iff]
  repeat' apply And.intro
  all_goals exact List.mem_toFinset.mpr (List.mem_map_of_mem (by decide))

/-- A buffer stretch 3 does not write keeps its contents through it. -/
theorem kept3 (V : Valuation τ sig (Elt F)) {r : Ref sig .tc} (hr : r ∉ W3) :
    after s3 V (Proc.devRef .tc r) = V (Proc.devRef .tc r) :=
  after_of_writes_sub s3 V s3_writes hr

theorem s4_writes : (s4 : List (HloOp τ sig (Elt F))).Forall fun op => op.writes ⊆ ((W4).map (Proc.devRef (τ := τ) .tc)).toFinset := by
  simp only [s4, List.Forall, nullary_writes, unary_writes, binary_writes, ternary_writes, reshape_writes, Finset.singleton_subset_iff]
  repeat' apply And.intro
  all_goals exact List.mem_toFinset.mpr (List.mem_map_of_mem (by decide))

/-- A buffer stretch 4 does not write keeps its contents through it. -/
theorem kept4 (V : Valuation τ sig (Elt F)) {r : Ref sig .tc} (hr : r ∉ W4) :
    after s4 V (Proc.devRef .tc r) = V (Proc.devRef .tc r) :=
  after_of_writes_sub s4 V s4_writes hr

theorem s5_writes : (s5 : List (HloOp τ sig (Elt F))).Forall fun op => op.writes ⊆ ((W5).map (Proc.devRef (τ := τ) .tc)).toFinset := by
  simp only [s5, List.Forall, nullary_writes, unary_writes, binary_writes, ternary_writes, reshape_writes, Finset.singleton_subset_iff]
  repeat' apply And.intro
  all_goals exact List.mem_toFinset.mpr (List.mem_map_of_mem (by decide))

/-- A buffer stretch 5 does not write keeps its contents through it. -/
theorem kept5 (V : Valuation τ sig (Elt F)) {r : Ref sig .tc} (hr : r ∉ W5) :
    after s5 V (Proc.devRef .tc r) = V (Proc.devRef .tc r) :=
  after_of_writes_sub s5 V s5_writes hr

theorem s6_writes : (s6 : List (HloOp τ sig (Elt F))).Forall fun op => op.writes ⊆ ((W6).map (Proc.devRef (τ := τ) .tc)).toFinset := by
  simp only [s6, List.Forall, nullary_writes, unary_writes, binary_writes, ternary_writes, reshape_writes, Finset.singleton_subset_iff]
  repeat' apply And.intro
  all_goals exact List.mem_toFinset.mpr (List.mem_map_of_mem (by decide))

/-- A buffer stretch 6 does not write keeps its contents through it. -/
theorem kept6 (V : Valuation τ sig (Elt F)) {r : Ref sig .tc} (hr : r ∉ W6) :
    after s6 V (Proc.devRef .tc r) = V (Proc.devRef .tc r) :=
  after_of_writes_sub s6 V s6_writes hr

theorem s7_writes : (s7 : List (HloOp τ sig (Elt F))).Forall fun op => op.writes ⊆ ((W7).map (Proc.devRef (τ := τ) .tc)).toFinset := by
  simp only [s7, List.Forall, nullary_writes, unary_writes, binary_writes, ternary_writes, reshape_writes, Finset.singleton_subset_iff]
  repeat' apply And.intro
  all_goals exact List.mem_toFinset.mpr (List.mem_map_of_mem (by decide))

/-- A buffer stretch 7 does not write keeps its contents through it. -/
theorem kept7 (V : Valuation τ sig (Elt F)) {r : Ref sig .tc} (hr : r ∉ W7) :
    after s7 V (Proc.devRef .tc r) = V (Proc.devRef .tc r) :=
  after_of_writes_sub s7 V s7_writes hr

/-- Running two stretches one after the other is running their concatenation. -/
theorem after_append (a b : List (HloOp τ sig (Elt F))) (V : Valuation τ sig (Elt F)) :
    after (a ++ b) V = after b (after a V) := by
  induction a generalizing V with
  | nil => rfl
  | cons op a ih => simp only [List.cons_append, after_cons, ih]

/-! ## What each stretch leaves, from any contents -/

theorem s0_v1 (V : Valuation τ sig (Elt F)) :
    after s0 V (Proc.devRef .tc main_v1) = Stages.srcH (V (Proc.devRef .tc main_arg1)) := by
  after_results_simp
  rfl

theorem s0_v3 (V : Valuation τ sig (Elt F)) :
    after s0 V (Proc.devRef .tc main_v3) = Stages.dstH (V (Proc.devRef .tc main_arg1)) := by
  after_results_simp
  rfl

theorem s0_v32 (V : Valuation τ sig (Elt F)) :
    after s0 V (Proc.devRef .tc main_v32)
      = Stages.layer0 (V (Proc.devRef .tc main_arg0)) (V (Proc.devRef .tc main_arg2)) (V (Proc.devRef .tc main_arg3))
          (V (Proc.devRef .tc main_arg4)) (V (Proc.devRef .tc main_arg5)) := by
  after_results_simp
  rfl

/-- The neighbourhood stretch of a convolution layer on the layer's input `H`: it leaves the neighbourhood mean — the
    neighbour sum of `H` over the edges `e` divided by the neighbour count. -/
theorem s1_v55 (V : Valuation τ sig (Elt F)) (e : IVec S2x400000 32) (H : FVec F S50000x512 .f32)
    (h1 : V (Proc.devRef .tc main_v1) = Stages.srcH e) (h3 : V (Proc.devRef .tc main_v3) = Stages.dstH e)
    (hH : V (Proc.devRef .tc main_v32) = H) :
    after s1 V (Proc.devRef .tc main_v55) = Stages.meanH (Stages.nbrH e H) (Stages.cntH (F := F) e) := by
  after_results_simp
  rw [h1, h3, hH]
  rfl

/-- The gate stretch of a convolution layer: from the layer's input `H` and the neighbourhood mean it leaves the mix. -/
theorem s2_v73 (V : Valuation τ sig (Elt F)) (H S : FVec F S50000x512 .f32) (cnt : FVec F S50000 .f32)
    (hH : V (Proc.devRef .tc main_v32) = H) (hM : V (Proc.devRef .tc main_v55) = Stages.meanH S cnt) :
    after s2 V (Proc.devRef .tc main_v73) = Stages.mixH H S cnt (V (Proc.devRef .tc main_arg6)) (V (Proc.devRef .tc main_arg7)) := by
  after_results_simp
  rw [hH, hM]
  rfl

/-- The normalisation stretch of a convolution layer: the layer normalisation of the mix, with the layer's scale and shift. -/
theorem s3_v97 (V : Valuation τ sig (Elt F)) :
    after s3 V (Proc.devRef .tc main_v97) = Stages.lnH (V (Proc.devRef .tc main_v73)) (V (Proc.devRef .tc main_arg8)) (V (Proc.devRef .tc main_arg9)) := by
  after_results_simp
  rfl

/-- The neighbourhood stretch of a convolution layer on the layer's input `H`: it leaves the neighbourhood mean — the
    neighbour sum of `H` over the edges `e` divided by the neighbour count. -/
theorem s4_v120 (V : Valuation τ sig (Elt F)) (e : IVec S2x400000 32) (H : FVec F S50000x512 .f32)
    (h1 : V (Proc.devRef .tc main_v1) = Stages.srcH e) (h3 : V (Proc.devRef .tc main_v3) = Stages.dstH e)
    (hH : V (Proc.devRef .tc main_v97) = H) :
    after s4 V (Proc.devRef .tc main_v120) = Stages.meanH (Stages.nbrH e H) (Stages.cntH (F := F) e) := by
  after_results_simp
  rw [h1, h3, hH]
  rfl

/-- The gate stretch of a convolution layer: from the layer's input `H` and the neighbourhood mean it leaves the mix. -/
theorem s5_v138 (V : Valuation τ sig (Elt F)) (H S : FVec F S50000x512 .f32) (cnt : FVec F S50000 .f32)
    (hH : V (Proc.devRef .tc main_v97) = H) (hM : V (Proc.devRef .tc main_v120) = Stages.meanH S cnt) :
    after s5 V (Proc.devRef .tc main_v138) = Stages.mixH H S cnt (V (Proc.devRef .tc main_arg6)) (V (Proc.devRef .tc main_arg7)) := by
  after_results_simp
  rw [hH, hM]
  rfl

/-- The normalisation stretch of a convolution layer: the layer normalisation of the mix, with the layer's scale and shift. -/
theorem s6_v162 (V : Valuation τ sig (Elt F)) :
    after s6 V (Proc.devRef .tc main_v162) = Stages.lnH (V (Proc.devRef .tc main_v138)) (V (Proc.devRef .tc main_arg10)) (V (Proc.devRef .tc main_arg11)) := by
  after_results_simp
  rfl

/-- The last stretch: the output projection of the second layer's result. -/
theorem s7_v166 (V : Valuation τ sig (Elt F)) :
    after s7 V (Proc.devRef .tc main_v166) = Stages.outH (V (Proc.devRef .tc main_v162)) (V (Proc.devRef .tc main_arg12)) (V (Proc.devRef .tc main_arg13)) := by
  after_results_simp
  rfl

/-! ## The arguments through the stretches -/

/-- The arguments' buffers. -/
abbrev args : List (Ref sig .tc) := [main_arg0, main_arg1, main_arg2, main_arg3, main_arg4, main_arg5, main_arg6, main_arg7, main_arg8, main_arg9, main_arg10, main_arg11, main_arg12, main_arg13]

theorem args_W0 : ∀ r ∈ (args : List (Ref sig .tc)), r ∉ W0 := by decide
theorem args_W1 : ∀ r ∈ (args : List (Ref sig .tc)), r ∉ W1 := by decide
theorem args_W2 : ∀ r ∈ (args : List (Ref sig .tc)), r ∉ W2 := by decide
theorem args_W3 : ∀ r ∈ (args : List (Ref sig .tc)), r ∉ W3 := by decide
theorem args_W4 : ∀ r ∈ (args : List (Ref sig .tc)), r ∉ W4 := by decide
theorem args_W5 : ∀ r ∈ (args : List (Ref sig .tc)), r ∉ W5 := by decide
theorem args_W6 : ∀ r ∈ (args : List (Ref sig .tc)), r ∉ W6 := by decide
theorem args_W7 : ∀ r ∈ (args : List (Ref sig .tc)), r ∉ W7 := by decide

/-- No stretch writes an argument: after any number of the stretches, in order, an argument's buffer holds what it held. -/
theorem args1 (L : Valuation τ sig (Elt F)) {r : Ref sig .tc} (hr : r ∈ (args : List (Ref sig .tc))) :
    after s0 L (Proc.devRef .tc r) = L (Proc.devRef .tc r) := kept0 L (args_W0 r hr)
theorem args2 (L : Valuation τ sig (Elt F)) {r : Ref sig .tc} (hr : r ∈ (args : List (Ref sig .tc))) :
    after s1 (after s0 L) (Proc.devRef .tc r) = L (Proc.devRef .tc r) := (kept1 _ (args_W1 r hr)).trans (args1 L hr)
theorem args3 (L : Valuation τ sig (Elt F)) {r : Ref sig .tc} (hr : r ∈ (args : List (Ref sig .tc))) :
    after s2 (after s1 (after s0 L)) (Proc.devRef .tc r) = L (Proc.devRef .tc r) := (kept2 _ (args_W2 r hr)).trans (args2 L hr)
theorem args4 (L : Valuation τ sig (Elt F)) {r : Ref sig .tc} (hr : r ∈ (args : List (Ref sig .tc))) :
    after s3 (after s2 (after s1 (after s0 L))) (Proc.devRef .tc r) = L (Proc.devRef .tc r) := (kept3 _ (args_W3 r hr)).trans (args3 L hr)
theorem args5 (L : Valuation τ sig (Elt F)) {r : Ref sig .tc} (hr : r ∈ (args : List (Ref sig .tc))) :
    after s4 (after s3 (after s2 (after s1 (after s0 L)))) (Proc.devRef .tc r) = L (Proc.devRef .tc r) := (kept4 _ (args_W4 r hr)).trans (args4 L hr)
theorem args6 (L : Valuation τ sig (Elt F)) {r : Ref sig .tc} (hr : r ∈ (args : List (Ref sig .tc))) :
    after s5 (after s4 (after s3 (after s2 (after s1 (after s0 L))))) (Proc.devRef .tc r) = L (Proc.devRef .tc r) := (kept5 _ (args_W5 r hr)).trans (args5 L hr)
theorem args7 (L : Valuation τ sig (Elt F)) {r : Ref sig .tc} (hr : r ∈ (args : List (Ref sig .tc))) :
    after s6 (after s5 (after s4 (after s3 (after s2 (after s1 (after s0 L)))))) (Proc.devRef .tc r) = L (Proc.devRef .tc r) := (kept6 _ (args_W6 r hr)).trans (args6 L hr)
theorem args8 (L : Valuation τ sig (Elt F)) {r : Ref sig .tc} (hr : r ∈ (args : List (Ref sig .tc))) :
    after s7 (after s6 (after s5 (after s4 (after s3 (after s2 (after s1 (after s0 L))))))) (Proc.devRef .tc r) = L (Proc.devRef .tc r) := (kept7 _ (args_W7 r hr)).trans (args7 L hr)

/-! ## The stretches composed -/

/-- @main's operations: the eight stretches in order. -/
abbrev ops : List (HloOp τ sig (Elt F)) := s0 ++ s1 ++ s2 ++ s3 ++ s4 ++ s5 ++ s6 ++ s7

/-- THE RESULT, from any contents `L`: after all the operations the result buffer holds the composition of the stages at
    the fourteen argument buffers' contents. Each stretch is read from the contents the stretches before it leave; what it
    reads of them is an earlier stretch's result, carried unchanged through the stretches between, or an argument. -/
theorem after_v166 (L : Valuation τ sig (Elt F)) :
    after ops L (Proc.devRef .tc main_v166)
      = Stages.whole (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) := by
  simp only [ops, after_append]
  have a1 := s0_v1 L
  have a3 := s0_v3 L
  have a32 := s0_v32 L
  have b55 := s1_v55 (after s0 L) _ _ a1 a3 a32
  have b1 := (kept1 (after s0 L) (r := main_v1) (by decide)).trans a1
  have b3 := (kept1 (after s0 L) (r := main_v3) (by decide)).trans a3
  have b32 := (kept1 (after s0 L) (r := main_v32) (by decide)).trans a32
  have c73 := s2_v73 (after s1 (after s0 L)) _ _ _ b32 b55
  rw [args2 L (r := main_arg6) (by decide), args2 L (r := main_arg7) (by decide)] at c73
  have c1 := (kept2 (after s1 (after s0 L)) (r := main_v1) (by decide)).trans b1
  have c3 := (kept2 (after s1 (after s0 L)) (r := main_v3) (by decide)).trans b3
  have d97 := s3_v97 (after s2 (after s1 (after s0 L)))
  rw [c73, args3 L (r := main_arg8) (by decide), args3 L (r := main_arg9) (by decide)] at d97
  have d1 := (kept3 (after s2 (after s1 (after s0 L))) (r := main_v1) (by decide)).trans c1
  have d3 := (kept3 (after s2 (after s1 (after s0 L))) (r := main_v3) (by decide)).trans c3
  have e120 := s4_v120 (after s3 (after s2 (after s1 (after s0 L)))) _ _ d1 d3 d97
  have e97 := (kept4 (after s3 (after s2 (after s1 (after s0 L)))) (r := main_v97) (by decide)).trans d97
  have f138 := s5_v138 (after s4 (after s3 (after s2 (after s1 (after s0 L))))) _ _ _ e97 e120
  rw [args5 L (r := main_arg6) (by decide), args5 L (r := main_arg7) (by decide)] at f138
  have g162 := s6_v162 (after s5 (after s4 (after s3 (after s2 (after s1 (after s0 L))))))
  rw [f138, args6 L (r := main_arg10) (by decide), args6 L (r := main_arg11) (by decide)] at g162
  have h166 := s7_v166 (after s6 (after s5 (after s4 (after s3 (after s2 (after s1 (after s0 L)))))))
  rw [g162, args7 L (r := main_arg12) (by decide), args7 L (r := main_arg13) (by decide)] at h166
  unfold Stages.whole Stages.convH Stages.layer0
  exact h166

/-- THE ARGUMENTS, from any contents `L`: no operation writes one. -/
theorem after_arg (L : Valuation τ sig (Elt F)) {r : Ref sig .tc} (hr : r ∈ (args : List (Ref sig .tc))) :
    after ops L (Proc.devRef .tc r) = L (Proc.devRef .tc r) := by
  simp only [ops, after_append]
  exact args8 L hr

/-! ## The program is the list, and its run -/

set_option maxRecDepth 8192 in
set_option maxHeartbeats 4000000 in
/-- @main is the straight line of its operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem s0_sub : (s0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
theorem s1_sub : (s1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., unary_bufs_sub .., ternary_bufs_sub .., binary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem s2_sub : (s2 : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., binary_bufs_sub ..⟩
theorem s3_sub : (s3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
theorem s4_sub : (s4 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., unary_bufs_sub .., ternary_bufs_sub .., binary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem s5_sub : (s5 : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., binary_bufs_sub ..⟩
theorem s6_sub : (s6 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
theorem s7_sub : (s7 : List (HloOp τ sig (Elt F))).Forall fun op => op.bufs ⊆ tcRefs τ sig :=
  ⟨binary_bufs_sub .., unary_bufs_sub .., unary_bufs_sub .., binary_bufs_sub ..⟩

/-- Every operation touches TensorCore references only. -/
theorem ops_sub : (ops : List (HloOp τ sig (Elt F))).Forall fun op => op.bufs ⊆ tcRefs τ sig := by
  simp only [ops, List.forall_append]
  exact ⟨⟨⟨⟨⟨⟨⟨s0_sub, s1_sub⟩, s2_sub⟩, s3_sub⟩, s4_sub⟩, s5_sub⟩, s6_sub⟩, s7_sub⟩

theorem s0_fresh : ∀ op ∈ (s0 : List (HloOp τ sig (Elt F))), op.fresh = ∅ := by
  intro op h; (repeat (cases h with | head => rfl | tail _ h => ?_)); exact nomatch h
theorem s1_fresh : ∀ op ∈ (s1 : List (HloOp τ sig (Elt F))), op.fresh = ∅ := by
  intro op h; (repeat (cases h with | head => rfl | tail _ h => ?_)); exact nomatch h
theorem s2_fresh : ∀ op ∈ (s2 : List (HloOp τ sig (Elt F))), op.fresh = ∅ := by
  intro op h; (repeat (cases h with | head => rfl | tail _ h => ?_)); exact nomatch h
theorem s3_fresh : ∀ op ∈ (s3 : List (HloOp τ sig (Elt F))), op.fresh = ∅ := by
  intro op h; (repeat (cases h with | head => rfl | tail _ h => ?_)); exact nomatch h
theorem s4_fresh : ∀ op ∈ (s4 : List (HloOp τ sig (Elt F))), op.fresh = ∅ := by
  intro op h; (repeat (cases h with | head => rfl | tail _ h => ?_)); exact nomatch h
theorem s5_fresh : ∀ op ∈ (s5 : List (HloOp τ sig (Elt F))), op.fresh = ∅ := by
  intro op h; (repeat (cases h with | head => rfl | tail _ h => ?_)); exact nomatch h
theorem s6_fresh : ∀ op ∈ (s6 : List (HloOp τ sig (Elt F))), op.fresh = ∅ := by
  intro op h; (repeat (cases h with | head => rfl | tail _ h => ?_)); exact nomatch h
theorem s7_fresh : ∀ op ∈ (s7 : List (HloOp τ sig (Elt F))), op.fresh = ∅ := by
  intro op h; (repeat (cases h with | head => rfl | tail _ h => ?_)); exact nomatch h

/-- Every operation determines its results. -/
theorem ops_fresh : ∀ op ∈ (ops : List (HloOp τ sig (Elt F))), op.fresh = ∅ := by
  intro op h
  simp only [ops, List.mem_append] at h
  rcases h with ((((((h | h) | h) | h) | h) | h) | h) | h
  exacts [s0_fresh op h, s1_fresh op h, s2_fresh op h, s3_fresh op h, s4_fresh op h, s5_fresh op h, s6_fresh op h, s7_fresh op h]

/-- THE RUN: on every device, for any float values, from any memory with zero counters, every weakly fair execution of
    @main terminates with every TensorCore buffer at the fold of the operations over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

/-- THE VALUE: the fold at the result buffer is the composition of the stages at the arguments' launch contents. -/
theorem value (m : (ℓ : Loc nD τ sig) → Buf (Elt F) ℓ) (c : Dev nD) :
    after ops (launchContents m c) (Proc.devRef .tc main_v166)
      = Stages.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  after_v166 (launchContents m c)

/-- The fold at an argument's buffer is its launch contents. -/
theorem args_kept (m : (ℓ : Loc nD τ sig) → Buf (Elt F) ℓ) (c : Dev nD) {r : Ref sig .tc}
    (hr : r ∈ (args : List (Ref sig .tc))) :
    after ops (launchContents m c) (Proc.devRef .tc r) = m ((c.tc : Thread nD τ).loc r) :=
  after_arg (launchContents m c) hr

end Cert.ReferenceIdeal.RefRun

end
-- ==== Proof.LibSumSplit.lean ====
/-
  A finite sum over the first n naturals, cut into consecutive stretches.

  If a + b = n, the sum of g over Fin n is the sum over the first a positions plus the sum over the next b
  positions; with three stretches a + b + c = n likewise, grouped to the left. Only commutativity and
  associativity of addition are used, so the statements hold in any additive commutative monoid, the
  extended reals among them: nothing here depends on a summand being finite.
-/
import Mathlib.Algebra.BigOperators.Fin

open scoped BigOperators

namespace Cert.SumSplit

variable {M : Type*} [AddCommMonoid M]

/-- A sum over `Fin n` with `a + b = n` is the sum over the first `a` positions plus the sum over the last `b`. -/
theorem sum_split2 (a b n : ℕ) (h : a + b = n) (g : Fin n → M) :
    ∑ k : Fin n, g k
      = (∑ k : Fin a, g ⟨k.val, by omega⟩) + ∑ k : Fin b, g ⟨a + k.val, by omega⟩ := by
  subst h
  rw [Fin.sum_univ_add]
  rfl

/-- A sum over `Fin n` with `a + b + c = n`: three consecutive stretches, the first two grouped together. -/
theorem sum_split3 (a b c n : ℕ) (h : a + b + c = n) (g : Fin n → M) :
    ∑ k : Fin n, g k
      = ((∑ k : Fin a, g ⟨k.val, by omega⟩) + ∑ k : Fin b, g ⟨a + k.val, by omega⟩)
          + ∑ k : Fin c, g ⟨a + b + k.val, by omega⟩ := by
  rw [sum_split2 (a + b) c n h g, sum_split2 a b (a + b) rfl (fun k => g ⟨k.val, by omega⟩)]

end Cert.SumSplit
-- ==== Proof.Rows.lean ====
/-
  The network, one node (one row) at a time.

  Apart from the gather of neighbour rows and their sum, every stage of the network acts on a single
  row of 512 features: the input layer (an affine map, a clamp at zero, a layer normalisation), a
  graph-convolution layer (the neighbourhood mean, eight gate values, the gates spread over blocks of
  64 features, a convex mix of the row and the mean, a layer normalisation) and the output projection.
  This module states each stage as a function of a row over the extended reals, in the two spellings
  the two programs use for a convolution layer, and proves the two spellings equal:

  * the neighbourhood mean is the sum divided by the count, or the sum times the count's reciprocal:
    equal as soon as the count is not zero;
  * the gate logits contract the row and the mean, laid side by side, against one 1024-row matrix, or
    contract them separately against its upper and lower halves: a sum over 1024 split in two;
  * the gates are repeated 64 times each, or multiplied into a 0/1 matrix whose row c is the indicator
    of the features 64c … 64c+63: a sum with one surviving term;
  * the logistic function is 1 / (1 + exp (-z)) on every extended real, by definition.
-/
import Idealize.ShloMosaic.PureOps.Ideal
import Idealize.ShloMosaic.PureOps.Ideal.Laws
import proofs.«116288_j6914897347185_2_alg».proof.Proof.LibSumSplit

noncomputable section

open scoped BigOperators

namespace Cert.Rows

open Idealize.ShloMosaic

/-- The feature count 512, as the programs write it. -/
abbrev c512 : EReal := Ideal.ofBits .f32 0x44000000#32
/-- The normalisation's small constant, as the programs write it. -/
abbrev ceps : EReal := Ideal.ofBits .f32 0x3727C5AC#32
/-- One, as the programs write it. -/
abbrev cone : EReal := Ideal.ofBits .f32 0x3F800000#32
/-- Zero, as the programs write it. -/
abbrev czero : EReal := Ideal.ofBits .f32 0x00000000#32

/-- The mean of a row. -/
def mean (a : Fin 512 → EReal) : EReal := Ideal.div (∑ k, a k) c512

/-- The variance of a row about its mean. -/
def var (a : Fin 512 → EReal) : EReal := Ideal.div (∑ k, (a k - mean a) * (a k - mean a)) c512

/-- Layer normalisation of a row with scale `g` and shift `b`. -/
def ln (a g b : Fin 512 → EReal) : Fin 512 → EReal := fun j =>
  g j * (a j - mean a) * Ideal.rsqrt (var a + ceps) + b j

/-- The input layer before normalisation: the affine map of a row, clamped at zero. -/
def lin (x : Fin 512 → EReal) (W : Fin 512 → Fin 512 → EReal) (b : Fin 512 → EReal) : Fin 512 → EReal :=
  fun j => max ((∑ k, x k * W k j) + b j) czero

/-- The eight gates of a row `h` with neighbourhood mean `mm`: the logistic function of the two contractions
    plus the bias. -/
def gate (h mm : Fin 512 → EReal) (Wx Wm : Fin 512 → Fin 8 → EReal) (tb : Fin 8 → EReal) : Fin 8 → EReal :=
  fun c => Ideal.logistic ((∑ k, h k * Wx k c) + (∑ k, mm k * Wm k c) + tb c)

/-- The gates spread over the features by a matrix `R`. -/
def spread (gt : Fin 8 → EReal) (R : Fin 8 → Fin 512 → EReal) : Fin 512 → EReal := fun j => ∑ c, gt c * R c j

/-- The mix of a row and its neighbourhood mean, feature by feature, with weights `tm` and `1 - tm`. -/
def mix (h mm tm : Fin 512 → EReal) : Fin 512 → EReal := fun j => h j * tm j + mm j * (cone - tm j)

/-- A convolution layer on one row, first spelling: `s` the neighbour sum (the row included), `ic` the
    reciprocal of the neighbour count, the gate matrix in two halves, the gates spread by `R`. -/
def conv (h s : Fin 512 → EReal) (ic : EReal) (Wx Wm : Fin 512 → Fin 8 → EReal) (tb : Fin 8 → EReal)
    (R : Fin 8 → Fin 512 → EReal) (g be : Fin 512 → EReal) : Fin 512 → EReal :=
  ln (mix h (fun k => s k * ic) (spread (gate h (fun k => s k * ic) Wx Wm tb) R)) g be

/-- The row and its neighbourhood mean laid side by side. -/
def cat (h mm : Fin 512 → EReal) : Fin 1024 → EReal := fun k =>
  if hk : k.val < 512 then h ⟨k.val, hk⟩ else mm ⟨k.val - 512, by omega⟩

/-- The block of 64 features a feature lies in. -/
def blk (j : Fin 512) : Fin 8 := ⟨j.val / 64, by omega⟩

/-- The eight gates, second spelling: one contraction of the concatenated row against the whole matrix, the
    logistic function written out. -/
def gateRef (h mm : Fin 512 → EReal) (W : Fin 1024 → Fin 8 → EReal) (tb : Fin 8 → EReal) : Fin 8 → EReal :=
  fun c => Ideal.div cone (cone + Ideal.exp (-((∑ k, cat h mm k * W k c) + tb c)))

/-- A convolution layer on one row, second spelling: the neighbour sum divided by the count `cnt`, the gates
    repeated over blocks of 64 features. -/
def convRef (h s : Fin 512 → EReal) (cnt : EReal) (W : Fin 1024 → Fin 8 → EReal) (tb : Fin 8 → EReal)
    (g be : Fin 512 → EReal) : Fin 512 → EReal :=
  ln (mix h (fun k => Ideal.div (s k) cnt) (fun j => gateRef h (fun k => Ideal.div (s k) cnt) W tb (blk j))) g be

/-- The output projection of a row. -/
def proj (a : Fin 512 → EReal) (W : Fin 512 → Fin 256 → EReal) (b : Fin 256 → EReal) : Fin 256 → EReal :=
  fun o => (∑ j, a j * W j o) + b o

/-- The programs' one is one. -/
theorem cone_eq : cone = 1 := by
  simp [cone, Ideal.ofBits, Ideal.ieee, -EReal.coe_mul]; norm_num

/-- Dividing by a nonzero count is multiplying by its reciprocal. -/
theorem div_eq_mul_recip (x cnt : EReal) (h : cnt ≠ 0) : Ideal.div x cnt = x * Ideal.div cone cnt := by
  rw [cone_eq]
  unfold Ideal.div
  rw [if_neg h, if_neg h, one_mul]

/-- One contraction of the concatenated row against the whole matrix is the two contractions against its halves. -/
theorem cat_sum (h mm : Fin 512 → EReal) (W : Fin 1024 → Fin 8 → EReal) (c : Fin 8) :
    ∑ k, cat h mm k * W k c
      = (∑ k : Fin 512, h k * W ⟨k.val, by omega⟩ c) + ∑ k : Fin 512, mm k * W ⟨512 + k.val, by omega⟩ c := by
  have h1 : ∀ k : Fin 512, cat h mm ⟨k.val, by omega⟩ = h k := fun k => by
    unfold cat
    rw [dif_pos (show (⟨k.val, by omega⟩ : Fin 1024).val < 512 from k.isLt)]
  have h2 : ∀ k : Fin 512, cat h mm ⟨512 + k.val, by omega⟩ = mm k := fun k => by
    unfold cat
    rw [dif_neg (show ¬ (⟨512 + k.val, by omega⟩ : Fin 1024).val < 512 from by simp)]
    exact congrArg mm (Fin.ext (by simp))
  rw [Cert.SumSplit.sum_split2 512 512 1024 rfl]
  simp only [h1, h2]

/-- Spreading the gates by the 0/1 matrix of the blocks repeats each gate over its block. -/
theorem spread_blocks (gt : Fin 8 → EReal) (R : Fin 8 → Fin 512 → EReal)
    (hR : ∀ c j, R c j = if c = blk j then 1 else 0) (j : Fin 512) : spread gt R j = gt (blk j) := by
  unfold spread
  simp only [hR, mul_ite, mul_one, mul_zero]
  rw [Finset.sum_ite_eq' Finset.univ (blk j) gt, if_pos (Finset.mem_univ _)]

/-- The two spellings of the gates agree. -/
theorem gate_eq (h mm : Fin 512 → EReal) (W : Fin 1024 → Fin 8 → EReal) (tb : Fin 8 → EReal) :
    gateRef h mm W tb = gate h mm (fun k c => W ⟨k.val, by omega⟩ c) (fun k c => W ⟨512 + k.val, by omega⟩ c) tb := by
  funext c
  unfold gateRef gate Ideal.logistic
  rw [cat_sum, cone_eq]

/-- The two spellings of a convolution layer agree, when the count is not zero, `ic` is its reciprocal, the two
    half matrices are the halves of the whole, and `R` is the 0/1 matrix of the blocks. -/
theorem conv_eq (h s : Fin 512 → EReal) (cnt ic : EReal) (W : Fin 1024 → Fin 8 → EReal)
    (Wx Wm : Fin 512 → Fin 8 → EReal) (tb : Fin 8 → EReal) (R : Fin 8 → Fin 512 → EReal) (g be : Fin 512 → EReal)
    (hc : cnt ≠ 0) (hic : ic = Ideal.div cone cnt)
    (hWx : ∀ k c, Wx k c = W ⟨k.val, by omega⟩ c) (hWm : ∀ k c, Wm k c = W ⟨512 + k.val, by omega⟩ c)
    (hR : ∀ c j, R c j = if c = blk j then 1 else 0) :
    conv h s ic Wx Wm tb R g be = convRef h s cnt W tb g be := by
  have hmm : (fun k => Ideal.div (s k) cnt) = fun k => s k * ic := by
    funext k; rw [hic]; exact div_eq_mul_recip _ _ hc
  have hWx' : Wx = fun k c => W ⟨k.val, by omega⟩ c := by funext k c; exact hWx k c
  have hWm' : Wm = fun k c => W ⟨512 + k.val, by omega⟩ c := by funext k c; exact hWm k c
  unfold conv convRef
  rw [hmm, gate_eq, ← hWx', ← hWm']
  congr 2
  funext j
  exact spread_blocks _ R hR j

end Cert.Rows

end
-- ==== Proof.LibPlainDot.lean ====
/-
  A contraction of an M×K array with a K×N array over their shared axis, read at one position.

  Both the accelerator's matrix product into a zero accumulator and the host's general dot product, at the
  exact extended-real values, are at position (r, c) the finite sum over k of lhs (r, k) * rhs (k, c):
  no rounding and no order of accumulation is left in them. The dimension numbers are the plain ones
  (left operand contracted on its last axis, right operand on its first, no batch axes); any record with
  those numbers is the plain record, whatever proof of well-formedness it carries.
-/
import Idealize.ShloMosaic.PureOps.Ideal.Laws
import Idealize.ShloMosaic.Lib.ValueIdx

noncomputable section

open scoped BigOperators

namespace Cert.PlainDot

open Idealize.ShloMosaic Idealize.ShloMosaic.ValueIdx

/-- The contraction shape of a plain M×K by K×N product has one axis. -/
theorem contr_rank (M K N : ℕ) : (DotDims.plain M K N).contr.rank = 1 := rfl

/-- That axis has the shared extent K. -/
theorem contr_size (M K N : ℕ) : (DotDims.plain M K N).contr.size ⟨0, by rw [contr_rank]; exact Nat.one_pos⟩ = K := rfl

/-- The left operand's position for output position (r, c) and contraction coordinate k is (r, k). -/
theorem lhsIdx_eq {M K N : ℕ} (r : Fin M) (c : Fin N) (k : Fin K) :
    (DotDims.plain M K N).lhsIdx (ix2 r c) ((contrEquiv1 (DotDims.plain M K N) K (contr_rank M K N) (contr_size M K N)).symm k)
      = ix2 r k := by
  funext a
  refine Fin.ext ?_
  match a with
  | ⟨0, _⟩ => rfl
  | ⟨1, _⟩ =>
    exact ((DotDims.plain M K N).lhsIdx_val_of_single (cl := (1 : Fin 2)) rfl _ _).trans
      (contrEquiv1_symm_val (DotDims.plain M K N) K (contr_rank M K N) (contr_size M K N) k)

/-- The right operand's position is (k, c). -/
theorem rhsIdx_eq {M K N : ℕ} (r : Fin M) (c : Fin N) (k : Fin K) :
    (DotDims.plain M K N).rhsIdx (ix2 r c) ((contrEquiv1 (DotDims.plain M K N) K (contr_rank M K N) (contr_size M K N)).symm k)
      = ix2 k c := by
  funext a
  refine Fin.ext ?_
  match a with
  | ⟨0, _⟩ =>
    exact ((DotDims.plain M K N).rhsIdx_val_of_single (cr := (0 : Fin 2)) rfl _ _).trans
      (contrEquiv1_symm_val (DotDims.plain M K N) K (contr_rank M K N) (contr_size M K N) k)
  | ⟨1, _⟩ => rfl

/-- The contraction's sum over its index set is the sum over k < K of the products along row r and column c. -/
theorem sum_eq {M K N : ℕ} (f : (⟨2, ![M, K]⟩ : Shape).Idx → EReal) (g : (⟨2, ![K, N]⟩ : Shape).Idx → EReal)
    (r : Fin M) (c : Fin N) :
    ∑ k : (DotDims.plain M K N).contr.Idx,
        f ((DotDims.plain M K N).lhsIdx (ix2 r c) k) * g ((DotDims.plain M K N).rhsIdx (ix2 r c) k)
      = ∑ k : Fin K, f (ix2 r k) * g (ix2 k c) := by
  rw [← Equiv.sum_comp (contrEquiv1 (DotDims.plain M K N) K (contr_rank M K N) (contr_size M K N)).symm]
  refine Finset.sum_congr rfl fun k _ => ?_
  rw [lhsIdx_eq, rhsIdx_eq]

/-- The accelerator's matrix product into the zero accumulator, at (r, c). -/
theorem matmul_zero_apply {M K N : ℕ} (d : DotDims ⟨2, ![M, K]⟩ ⟨2, ![K, N]⟩ ⟨2, ![M, N]⟩) (hd : d = DotDims.plain M K N)
    (prec : Option ContractPrecision) (lhs : FVec Ideal ⟨2, ![M, K]⟩ .f32) (rhs : FVec Ideal ⟨2, ![K, N]⟩ .f32)
    (r : Fin M) (c : Fin N) :
    FloatOps.matmul d prec lhs rhs (constant ⟨2, ![M, N]⟩ .f32 0x00000000#32) (ix2 r c)
      = ∑ k : Fin K, lhs (ix2 r k) * rhs (ix2 k c) := by
  subst hd
  rw [Ideal.matmul_constant_zero_apply]
  exact sum_eq lhs rhs r c

/-- The host's general dot product, at (r, c), whatever its schedule. -/
theorem dotGeneral_apply {M K N : ℕ} (d : DotDims ⟨2, ![M, K]⟩ ⟨2, ![K, N]⟩ ⟨2, ![M, N]⟩) (hd : d = DotDims.plain M K N)
    (prec : Option ContractPrecision) (sched : HostSchedule) (lhs : FVec Ideal ⟨2, ![M, K]⟩ .f32) (rhs : FVec Ideal ⟨2, ![K, N]⟩ .f32)
    (r : Fin M) (c : Fin N) :
    FloatOps.dotGeneral d prec sched lhs rhs (ix2 r c) = ∑ k : Fin K, lhs (ix2 r k) * rhs (ix2 k c) := by
  subst hd
  rw [Ideal.dotGeneral_apply]
  exact sum_eq lhs rhs r c

end Cert.PlainDot

end
-- ==== Proof.Reg0Pay.lean ====
/-
  The input layer on one block of 2000 rows, entry by entry.

  The kernel body of the first region loads a block X of 2000 rows of the input, the whole 512×512 matrix W and three
  rows of 512 numbers (a bias, a scale, a shift), and stores one block of 2000 rows: with H = max (X·W + bias, 0),

      out (r, j) = scale j · (H (r, j) − mean_r) · rsqrt (var_r + ε) + shift j,

  where mean_r is the mean of row r of H and var_r the mean of the squares of that row's deviations from mean_r. Row r of
  the result depends on row r of X only. This module proves that reading: the stored value at (r, j) is the
  specification's layer normalisation of the specification's affine stage of row r, at feature j.

  The body's operations are grouped into two stages (the affine stage; the normalisation of a block) whose composition is
  the stored value by unfolding; each stage is then read at one entry. The operations that are not entrywise are the
  matrix product (at (r, c): the sum over k of X (r, k) · W (k, c), the narrowing of the operands to a shorter format
  being the identity on extended reals), the sum of a block along its columns (at r: the sum of row r's entries), the
  view of a column of 2000 numbers as a 2000×1 block, and the repetition of a 1×512 row over 2000 rows or of a 2000×1
  column over 512 columns.
-/
import proofs.«116288_j6914897347185_2_alg».proof.Proof.Gen.KernelIdeal.Skeleton
import proofs.«116288_j6914897347185_2_alg».proof.Proof.Rows
import proofs.«116288_j6914897347185_2_alg».proof.Proof.LibPlainDot
import Idealize.ShloMosaic.Lib.ValueLayout
import Idealize.ShloMosaic.PureOps.Ideal.Laws

noncomputable section

open scoped BigOperators

namespace Cert.KernelIdeal.Reg0

open Idealize.ShloMosaic Idealize.ShloMosaic.ValueIdx Cert.KernelIdeal

section Layout
variable {α : Type}

/-- A column `[a]` viewed as `[a, 1]` reads, at `(r, u)`, the column at `r`: both positions are `r` in row-major order. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` repeated over `b` columns reads, at `(r, c)`, the column at `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-- The sum of a block along its columns, at row `r`, is the sum of that row's 512 entries. -/
theorem rowSum_apply (a : FVec Ideal S2000x512 .f32) (h : S2000x512.Reduces [1] S2000) (hφ : FKind.Formats .f32)
    (hacc : (0x00000000#32 : BitVec 32) = FKind.add.neutral .f32 hφ) (r : Fin 2000) :
    multiReduction .add [1] S2000 a 0x00000000#32 h hφ hacc (ix1 r) = ∑ k : Fin 512, a (ix2 r k) := by
  refine (Ideal.multiReduction_add_single a 0x00000000#32 h hφ hacc (ix1 r)).trans ?_
  show ∑ k : Fin 512, a (h.lift (ix1 r) k) = ∑ k : Fin 512, a (ix2 r k)
  refine Finset.sum_congr rfl fun k _ => congrArg a ?_
  funext d
  match d with
  | ⟨0, _⟩ => exact Fin.ext rfl
  | ⟨1, _⟩ => exact Fin.ext rfl

/-! ## The body's arithmetic in two stages -/

/-- The affine stage on a block of rows: the block times the matrix, plus the bias row, clamped at zero. -/
def linBlock (x0 : FVec Ideal S2000x512 .f32) (x1 : FVec Ideal S512x512 .f32) (x2 : FVec Ideal S1x512 .f32) :
    FVec Ideal S2000x512 .f32 :=
  maximumf
    (addf
      (matmul dot_S2000x512_S512x512_S2000x512_1_0_0_1_n_n none (truncf .bf16 x0 Facts₀.bitsLt_bf16_f32)
        (truncf .bf16 x1 Facts₀.bitsLt_bf16_f32) (constant S2000x512 .f32 0x00000000#32))
      (broadcastTo S2000x512 (shapeCast S1x512 x2 Facts₀.shapeCasts_S1x512_S1x512) Facts₀.broadcasts_S1x512_S2000x512))
    (broadcast S2000x512 (Scalar.ofBits .f32 0x00000000#32))

/-- The mean of every row of a block, as a column. -/
def rowMean (a : FVec Ideal S2000x512 .f32) : FVec Ideal S2000x1 .f32 :=
  divf
    (shapeCast S2000x1 (multiReduction .add [1] S2000 a 0x00000000#32 Facts₀.reduces_S2000x512_S2000 (.inl rfl) rfl)
      Facts₀.shapeCasts_S2000_S2000x1)
    (broadcast S2000x1 (Scalar.ofBits .f32 0x44000000#32))

/-- Every entry of a block less its row's mean. -/
def centred (a : FVec Ideal S2000x512 .f32) : FVec Ideal S2000x512 .f32 :=
  subf a (broadcastTo S2000x512 (rowMean a) Facts₀.broadcasts_S2000x1_S2000x512)

/-- The variance of every row of a block about its mean, as a column. -/
def rowVar (a : FVec Ideal S2000x512 .f32) : FVec Ideal S2000x1 .f32 :=
  divf
    (shapeCast S2000x1
      (multiReduction .add [1] S2000 (mulf (centred a) (centred a)) 0x00000000#32 Facts₀.reduces_S2000x512_S2000 (.inl rfl) rfl)
      Facts₀.shapeCasts_S2000_S2000x1)
    (broadcast S2000x1 (Scalar.ofBits .f32 0x44000000#32))

/-- Layer normalisation of every row of a block, with the scale row `g` and the shift row `b`. -/
def normBlock (a : FVec Ideal S2000x512 .f32) (g b : FVec Ideal S1x512 .f32) : FVec Ideal S2000x512 .f32 :=
  addf
    (mulf
      (mulf (broadcastTo S2000x512 (shapeCast S1x512 g Facts₀.shapeCasts_S1x512_S1x512) Facts₀.broadcasts_S1x512_S2000x512)
        (centred a))
      (broadcastTo S2000x512 (rsqrt (addf (rowVar a) (broadcast S2000x1 (Scalar.ofBits .f32 0x3727C5AC#32))))
        Facts₀.broadcasts_S2000x1_S2000x512))
    (broadcastTo S2000x512 (shapeCast S1x512 b Facts₀.shapeCasts_S1x512_S1x512) Facts₀.broadcasts_S1x512_S2000x512)

/-- The body's stored value is the normalisation of the affine stage: the same operations, grouped. -/
theorem pay_eq (x0 : Vec Ideal S2000x512 .f32) (x1 : Vec Ideal S512x512 .f32) (x2 x3 x4 : Vec Ideal S1x512 .f32) :
    Gen.k0_pay1 x0 x1 x2 x3 x4 = normBlock (linBlock x0 x1 x2) x3 x4 := rfl

/-! ## Each stage read at one entry -/

/-- The matrix product's dimension numbers are the plain ones. -/
theorem dot_plain : dot_S2000x512_S512x512_S2000x512_1_0_0_1_n_n = DotDims.plain 2000 512 512 := rfl

/-- The affine stage at `(r, c)` is the affine map of row `r`, clamped at zero, at feature `c`. -/
theorem linBlock_apply (x0 : FVec Ideal S2000x512 .f32) (x1 : FVec Ideal S512x512 .f32) (x2 : FVec Ideal S1x512 .f32)
    (r : Fin 2000) (c : Fin 512) :
    linBlock x0 x1 x2 (ix2 r c)
      = Cert.Rows.lin (fun k => x0 (ix2 r k)) (fun k j => x1 (ix2 k j)) (fun j => x2 (ix2 (0 : Fin 1) j)) c := by
  unfold linBlock Cert.Rows.lin
  show max (FloatOps.matmul dot_S2000x512_S512x512_S2000x512_1_0_0_1_n_n none (truncf .bf16 x0 Facts₀.bitsLt_bf16_f32)
        (truncf .bf16 x1 Facts₀.bitsLt_bf16_f32) (constant S2000x512 .f32 0x00000000#32) (ix2 r c)
      + broadcastTo S2000x512 (shapeCast S1x512 x2 Facts₀.shapeCasts_S1x512_S1x512) Facts₀.broadcasts_S1x512_S2000x512 (ix2 r c))
      (Ideal.ofBits .f32 0x00000000#32) = _
  rw [shapeCast_self, broadcastTo_1b_ab_apply, Ideal.matmul_constant_zero_apply, dot_plain]
  exact congrArg (fun s => max (s + x2 (ix2 (0 : Fin 1) c)) (Ideal.ofBits .f32 0x00000000#32))
    (Cert.PlainDot.sum_eq (truncf .bf16 x0 Facts₀.bitsLt_bf16_f32) (truncf .bf16 x1 Facts₀.bitsLt_bf16_f32) r c)

/-- The mean column at row `r` is the mean of row `r`. -/
theorem rowMean_apply (a : FVec Ideal S2000x512 .f32) (r : Fin 2000) (u : Fin 1) :
    rowMean a (ix2 r u) = Cert.Rows.mean (fun k => a (ix2 r k)) := by
  unfold rowMean Cert.Rows.mean
  show Ideal.div (shapeCast S2000x1 (multiReduction .add [1] S2000 a 0x00000000#32 Facts₀.reduces_S2000x512_S2000 (.inl rfl) rfl)
      Facts₀.shapeCasts_S2000_S2000x1 (ix2 r u)) (Ideal.ofBits .f32 0x44000000#32) = _
  rw [shapeCast_a_a1_apply]
  exact congrArg (fun s => Ideal.div s (Ideal.ofBits .f32 0x44000000#32)) (rowSum_apply a _ _ _ r)

/-- A centred entry is the entry less its row's mean. -/
theorem centred_apply (a : FVec Ideal S2000x512 .f32) (r : Fin 2000) (c : Fin 512) :
    centred a (ix2 r c) = a (ix2 r c) - Cert.Rows.mean (fun k => a (ix2 r k)) := by
  unfold centred
  show a (ix2 r c) - broadcastTo S2000x512 (rowMean a) Facts₀.broadcasts_S2000x1_S2000x512 (ix2 r c) = _
  rw [broadcastTo_a1_ab_apply, rowMean_apply]

/-- The variance column at row `r` is the variance of row `r`. -/
theorem rowVar_apply (a : FVec Ideal S2000x512 .f32) (r : Fin 2000) (u : Fin 1) :
    rowVar a (ix2 r u) = Cert.Rows.var (fun k => a (ix2 r k)) := by
  unfold rowVar Cert.Rows.var
  show Ideal.div (shapeCast S2000x1 (multiReduction .add [1] S2000 (mulf (centred a) (centred a)) 0x00000000#32
      Facts₀.reduces_S2000x512_S2000 (.inl rfl) rfl) Facts₀.shapeCasts_S2000_S2000x1 (ix2 r u)) (Ideal.ofBits .f32 0x44000000#32) = _
  rw [shapeCast_a_a1_apply]
  refine congrArg (fun s => Ideal.div s (Ideal.ofBits .f32 0x44000000#32))
    ((rowSum_apply (mulf (centred a) (centred a)) _ _ _ r).trans (Finset.sum_congr rfl fun k _ => ?_))
  show centred a (ix2 r k) * centred a (ix2 r k) = _
  rw [centred_apply]

/-- The normalised block at `(r, j)` is the layer normalisation of row `r` at feature `j`. -/
theorem normBlock_apply (a : FVec Ideal S2000x512 .f32) (g b : FVec Ideal S1x512 .f32) (r : Fin 2000) (j : Fin 512) :
    normBlock a g b (ix2 r j)
      = Cert.Rows.ln (fun k => a (ix2 r k)) (fun k => g (ix2 (0 : Fin 1) k)) (fun k => b (ix2 (0 : Fin 1) k)) j := by
  unfold normBlock Cert.Rows.ln
  show broadcastTo S2000x512 (shapeCast S1x512 g Facts₀.shapeCasts_S1x512_S1x512) Facts₀.broadcasts_S1x512_S2000x512 (ix2 r j)
        * centred a (ix2 r j)
        * broadcastTo S2000x512 (rsqrt (addf (rowVar a) (broadcast S2000x1 (Scalar.ofBits .f32 0x3727C5AC#32))))
            Facts₀.broadcasts_S2000x1_S2000x512 (ix2 r j)
      + broadcastTo S2000x512 (shapeCast S1x512 b Facts₀.shapeCasts_S1x512_S1x512) Facts₀.broadcasts_S1x512_S2000x512 (ix2 r j) = _
  rw [shapeCast_self, shapeCast_self, broadcastTo_1b_ab_apply, broadcastTo_1b_ab_apply, broadcastTo_a1_ab_apply, centred_apply]
  show g (ix2 (0 : Fin 1) j) * (a (ix2 r j) - Cert.Rows.mean fun k => a (ix2 r k))
        * Ideal.rsqrt (rowVar a (ix2 r (0 : Fin 1)) + Ideal.ofBits .f32 0x3727C5AC#32) + b (ix2 (0 : Fin 1) j) = _
  rw [rowVar_apply]

/-- THE PAYLOAD AT AN ENTRY: what the body stores at `(r, j)` is the input layer of row `r` of its input block — the
    affine map of the row against the matrix and the bias, clamped at zero, then layer normalisation with the scale and
    the shift — at feature `j`. -/
theorem pay_apply (x0 : Vec Ideal S2000x512 .f32) (x1 : Vec Ideal S512x512 .f32) (x2 x3 x4 : Vec Ideal S1x512 .f32)
    (r : Fin 2000) (j : Fin 512) :
    Gen.k0_pay1 x0 x1 x2 x3 x4 (ix2 r j)
      = Cert.Rows.ln (Cert.Rows.lin (fun k => x0 (ix2 r k)) (fun k c => x1 (ix2 k c)) (fun c => x2 (ix2 (0 : Fin 1) c)))
          (fun c => x3 (ix2 (0 : Fin 1) c)) (fun c => x4 (ix2 (0 : Fin 1) c)) j := by
  rw [pay_eq, normBlock_apply]
  exact congrArg (fun a => Cert.Rows.ln a (fun c => x3 (ix2 (0 : Fin 1) c)) (fun c => x4 (ix2 (0 : Fin 1) c)) j)
    (funext fun k => linBlock_apply x0 x1 x2 r k)

end Cert.KernelIdeal.Reg0

end
-- ==== Proof.Reg0.lean ====
/-
  The output array of the first region: the input layer, row by row.

  The first region runs the input-layer body over a grid of 25 points. At point t the body sees block t of the input
  (rows 2000 t … 2000 t + 1999), the whole 512×512 matrix and the whole bias, scale and shift rows, and what it stores is
  written back as block t of the output (the same rows). By the payload's reading, entry (p, q) of the stored block is the
  input layer of row p of the input's block, that is of row 2000 t + p of the input. The 25 blocks tile the 50000 rows, so
  after the region the output array holds, at (n, j), the input layer of row n of the input at feature j — whatever the
  arrays held when the region was entered, and for every device.

  The steps: the block index maps decided over the 25 points; each window's block read entry by entry as an entry of its
  array; what a point writes back as a block of one function of the arrays; the cover (row n lies in the block of point
  n / 2000); the array after all the write-backs.
-/
import proofs.«116288_j6914897347185_2_alg».proof.Proof.Gen.KernelIdeal.Frame
import proofs.«116288_j6914897347185_2_alg».proof.Proof.Rows
import proofs.«116288_j6914897347185_2_alg».proof.Proof.Reg0Pay
import Idealize.ShloMosaic.Lib.Pipeline.Value
import Idealize.ShloMosaic.Lib.ValueLayout

noncomputable section

open scoped BigOperators

namespace Cert.KernelIdeal.Reg0

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The zero offsets of the body's whole-block loads and store. -/
theorem hz : (![0, 0] : Fin 2 → Nat) = fun _ => 0 := funext fun a => by fin_cases a <;> rfl

/-- The input layer applied to every row of the input: entry `(n, j)` of the result is the layer normalisation (scale
    `A3`, shift `A4`) of the affine stage (matrix `A1`, bias `A2`) of row `n` of `A0`, at feature `j`. -/
abbrev inputLayer (A0 : S50000x512.Idx → EReal) (A1 : S512x512.Idx → EReal) (A2 A3 A4 : S1x512.Idx → EReal) :
    S50000x512.Idx → EReal := fun i =>
  Cert.Rows.ln (Cert.Rows.lin (fun k => A0 (ix2 (i 0) k)) (fun k j => A1 (ix2 k j)) (fun j => A2 (ix2 0 j)))
    (fun j => A3 (ix2 0 j)) (fun j => A4 (ix2 0 j)) (i 1)

/-- The block index maps over the 25 grid points: the input's and the output's blocks are block `t` along the rows, the
    matrix and the three rows are read whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The windows' blocks, entry by entry -/

/-- An entry of the input's block at point `t` is the entry of the input `2000 t` rows further down. -/
theorem iblk_input (c : Dev nD) (t : Fin cfg0.N) (p : Fin 2000) (k : Fin 512) (n : Fin 50000)
    (hn : n.val = 2000 * t.val + p.val) :
    iblk0 V c 0 t (ix2 p k) = V c (Pipeline.arrRef spec0 0) (ix2 n k) := by
  unfold iblk0
  rw [View.read_apply]
  refine congrArg (V c (Pipeline.arrRef spec0 0)) ?_
  funext a
  apply Fin.ext
  match a with
  | ⟨0, _⟩ => show win0_0.index t (0 : Fin 2) * 2000 + 1 * p.val = n.val; rw [(idx_facts t).1, hn]; omega
  | ⟨1, _⟩ => show win0_0.index t (1 : Fin 2) * 512 + 1 * k.val = k.val; rw [(idx_facts t).2.1]; omega

/-- The matrix's block at every point is the whole matrix. -/
theorem iblk_matrix (c : Dev nD) (t : Fin cfg0.N) (k j : Fin 512) :
    iblk0 V c 1 t (ix2 k j) = V c (Pipeline.arrRef spec0 1) (ix2 k j) := by
  unfold iblk0
  rw [View.read_apply]
  refine congrArg (V c (Pipeline.arrRef spec0 1)) ?_
  funext a
  apply Fin.ext
  match a with
  | ⟨0, _⟩ => show win0_1.index t (0 : Fin 2) * 512 + 1 * k.val = k.val; rw [(idx_facts t).2.2.1]; omega
  | ⟨1, _⟩ => show win0_1.index t (1 : Fin 2) * 512 + 1 * j.val = j.val; rw [(idx_facts t).2.2.2.1]; omega

/-- The bias row's block at every point is the whole row. -/
theorem iblk_bias (c : Dev nD) (t : Fin cfg0.N) (u : Fin 1) (j : Fin 512) :
    iblk0 V c 2 t (ix2 u j) = V c (Pipeline.arrRef spec0 2) (ix2 u j) := by
  unfold iblk0
  rw [View.read_apply]
  refine congrArg (V c (Pipeline.arrRef spec0 2)) ?_
  funext a
  apply Fin.ext
  match a with
  | ⟨0, _⟩ => show win0_2.index t (0 : Fin 2) * 1 + 1 * u.val = u.val; rw [(idx_facts t).2.2.2.2.1]; omega
  | ⟨1, _⟩ => show win0_2.index t (1 : Fin 2) * 512 + 1 * j.val = j.val; rw [(idx_facts t).2.2.2.2.2.1]; omega

/-- The scale row's block at every point is the whole row. -/
theorem iblk_scale (c : Dev nD) (t : Fin cfg0.N) (u : Fin 1) (j : Fin 512) :
    iblk0 V c 3 t (ix2 u j) = V c (Pipeline.arrRef spec0 3) (ix2 u j) := by
  unfold iblk0
  rw [View.read_apply]
  refine congrArg (V c (Pipeline.arrRef spec0 3)) ?_
  funext a
  apply Fin.ext
  match a with
  | ⟨0, _⟩ => show win0_3.index t (0 : Fin 2) * 1 + 1 * u.val = u.val; rw [(idx_facts t).2.2.2.2.2.2.1]; omega
  | ⟨1, _⟩ => show win0_3.index t (1 : Fin 2) * 512 + 1 * j.val = j.val; rw [(idx_facts t).2.2.2.2.2.2.2.1]; omega

/-- The shift row's block at every point is the whole row. -/
theorem iblk_shift (c : Dev nD) (t : Fin cfg0.N) (u : Fin 1) (j : Fin 512) :
    iblk0 V c 4 t (ix2 u j) = V c (Pipeline.arrRef spec0 4) (ix2 u j) := by
  unfold iblk0
  rw [View.read_apply]
  refine congrArg (V c (Pipeline.arrRef spec0 4)) ?_
  funext a
  apply Fin.ext
  match a with
  | ⟨0, _⟩ => show win0_4.index t (0 : Fin 2) * 1 + 1 * u.val = u.val; rw [(idx_facts t).2.2.2.2.2.2.2.2.1]; omega
  | ⟨1, _⟩ => show win0_4.index t (1 : Fin 2) * 512 + 1 * j.val = j.val; rw [(idx_facts t).2.2.2.2.2.2.2.2.2.1]; omega

/-! ## From blocks to the array -/

/-- One stored entry: entry `(p, q)` of what the body stores at point `t` is the input layer at any index `i` of the
    array whose row is `2000 t + p` and whose column is `q` — row `p` of the input's block is that row of the input, and
    the matrix and the three rows are the whole arrays. -/
theorem stored_entry (c : Dev nD) (t : Fin cfg0.N) (p : Fin 2000) (q : Fin 512) (i : S50000x512.Idx)
    (h0 : (i 0).val = 2000 * t.val + p.val) (h1 : i 1 = q) :
    k0_pay1 (iblk0 V c 0 t) (iblk0 V c 1 t) (iblk0 V c 2 t) (iblk0 V c 3 t) (iblk0 V c 4 t) (ix2 p q)
      = inputLayer (V c (Pipeline.arrRef spec0 0)) (V c (Pipeline.arrRef spec0 1)) (V c (Pipeline.arrRef spec0 2))
          (V c (Pipeline.arrRef spec0 3)) (V c (Pipeline.arrRef spec0 4)) i := by
  refine (pay_apply (iblk0 V c 0 t) (iblk0 V c 1 t) (iblk0 V c 2 t) (iblk0 V c 3 t) (iblk0 V c 4 t) p q).trans ?_
  subst h1
  have e0 : (fun k => iblk0 V c 0 t (ix2 p k)) = fun k => V c (Pipeline.arrRef spec0 0) (ix2 (i 0) k) :=
    funext fun k => iblk_input V c t p k (i 0) h0
  have e1 : (fun k j => iblk0 V c 1 t (ix2 k j)) = fun k j => V c (Pipeline.arrRef spec0 1) (ix2 k j) :=
    funext fun k => funext fun j => iblk_matrix V c t k j
  have e2 : (fun j => iblk0 V c 2 t (ix2 (0 : Fin 1) j)) = fun j => V c (Pipeline.arrRef spec0 2) (ix2 (0 : Fin 1) j) :=
    funext fun j => iblk_bias V c t 0 j
  have e3 : (fun j => iblk0 V c 3 t (ix2 (0 : Fin 1) j)) = fun j => V c (Pipeline.arrRef spec0 3) (ix2 (0 : Fin 1) j) :=
    funext fun j => iblk_scale V c t 0 j
  have e4 : (fun j => iblk0 V c 4 t (ix2 (0 : Fin 1) j)) = fun j => V c (Pipeline.arrRef spec0 4) (ix2 (0 : Fin 1) j) :=
    funext fun j => iblk_shift V c t 0 j
  rw [e0, e1, e2, e3, e4]

/-- WHAT POINT `t` WRITES BACK is block `t` of the input layer of the arrays as the region finds them: the body's one
    store covers its staging block, and entry `(p, q)` of that block sits at row `2000 t + p`, column `q` of the output. -/
theorem flushed_eq (c : Dev nD) (t : Fin cfg0.N) :
    (dat0 (F := Ideal) V c).flushed 5 t = ((cfg0.win 5).blk t).view.read (Elt Ideal)
      (inputLayer (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S2000x512) hz, View.ld_unit_zero (S := S512x512) hz, View.ld_unit_zero (S := S1x512) hz]
  funext y
  obtain ⟨p, q, rfl⟩ : ∃ (p : Fin 2000) (q : Fin 512), y = ix2 p q := ⟨y 0, y 1, eq_ix2 y⟩
  rw [View.read_apply]
  have hi0 : ((((cfg0.win 5).blk t).view.emb (ix2 p q)) 0).val = 2000 * t.val + p.val := by
    show win0_5.index t (0 : Fin 2) * 2000 + 1 * p.val = _
    rw [(idx_facts t).2.2.2.2.2.2.2.2.2.2.1]; omega
  have hi1 : (((cfg0.win 5).blk t).view.emb (ix2 p q)) 1 = q := Fin.ext (by
    show win0_5.index t (1 : Fin 2) * 512 + 1 * q.val = q.val
    rw [(idx_facts t).2.2.2.2.2.2.2.2.2.2.2]; omega)
  exact stored_entry V c t p q (((cfg0.win 5).blk t).view.emb (ix2 p q)) hi0 hi1

/-- An index of the output is in point `t`'s block iff each coordinate is in the block's range on its axis. -/
theorem mem_blk (t : Fin cfg0.N) (i : S50000x512.Idx) :
    i ∈ ((cfg0.win 5).blk t).view.set ↔ ∀ a : Fin 2, win0_5.index t a * S2000x512.size a ≤ (i a).val
      ∧ (i a).val < win0_5.index t a * S2000x512.size a + S2000x512.size a := by
  show i ∈ ((View.whole main_v3).slice (win0_5.rect t)).set ↔ _
  rw [View.set_slice_whole, Rect.mem_set_unit]
  exact Iff.rfl

/-- The 25 blocks of 2000 rows cover the 50000 rows: row `n` is in the block of point `n / 2000`. -/
theorem cover (i : S50000x512.Idx) :
    ∃ t : Fin cfg0.N, (cfg0.win 5).flush t = true ∧ i ∈ ((cfg0.win 5).blk t).view.set := by
  have hi0 : (i 0).val < 50000 := (i 0).isLt
  have hi1 : (i 1).val < 512 := (i 1).isLt
  have hN : cfg0.N = 25 := N_0
  obtain ⟨t, ht⟩ : ∃ t : Fin cfg0.N, t.val = (i 0).val / 2000 := ⟨⟨(i 0).val / 2000, by rw [hN]; omega⟩, rfl⟩
  refine ⟨t, flush0_5 t, ?_⟩
  rw [mem_blk]
  intro a
  obtain ⟨-, -, -, -, -, -, -, -, -, -, e0, e1⟩ := idx_facts t
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 512 ≤ (i 1).val ∧ (i 1).val < win0_5.index t (1 : Fin 2) * 512 + 512
    rw [e1]; omega

/-- THE OUTPUT ARRAY AFTER THE REGION: row by row, the input layer of the region's input arrays — entry `(n, j)` is the
    layer normalisation (scale, shift) of the clamped affine map (matrix, bias) of row `n` of the input, at feature `j`. -/
theorem final (c : Dev nD) :
    (dat0 (F := Ideal) V c).arrAt 5 cfg0.N = fun i : S50000x512.Idx =>
      Cert.Rows.ln
        (Cert.Rows.lin (fun k => V c (Pipeline.arrRef spec0 0) (ix2 (i 0) k)) (fun k j => V c (Pipeline.arrRef spec0 1) (ix2 k j))
          (fun j => V c (Pipeline.arrRef spec0 2) (ix2 0 j)))
        (fun j => V c (Pipeline.arrRef spec0 3) (ix2 0 j)) (fun j => V c (Pipeline.arrRef spec0 4) (ix2 0 j)) (i 1) :=
  (dat0 V c).arrAt_eq_of_cover 5
    (inputLayer (V c (Pipeline.arrRef spec0 0)) (V c (Pipeline.arrRef spec0 1)) (V c (Pipeline.arrRef spec0 2))
      (V c (Pipeline.arrRef spec0 3)) (V c (Pipeline.arrRef spec0 4)))
    (fun t _ => flushed_eq V c t) cover

end Cert.KernelIdeal.Reg0

end
-- ==== Proof.Reg1Pay.lean ====
/-
  One block of a convolution layer, entry by entry.

  A grid point of the layer's kernel holds 1000 rows of the node features, of their neighbour sums and of
  their reciprocal neighbour counts, and the layer's weights whole. What it stores is, in every row, a function
  of that row alone: the neighbourhood mean is the row of sums times the row's reciprocal count; the eight gates
  are the logistic function of the row's and the mean's contractions with two 512×8 matrices plus a bias; the
  gates are spread over the 512 features by an 8×512 matrix; the row and the mean are mixed with those weights;
  the mix is layer-normalised. This module reads each array operation of the block at one entry (r, j) — a
  repeated column, a repeated row, a row sum, a matrix product at the exact values — and concludes that entry
  (r, j) of the stored block is the one-row convolution layer of row r, at feature j.
-/
import proofs.«116288_j6914897347185_2_alg».proof.Proof.Gen.KernelIdeal.Skeleton
import proofs.«116288_j6914897347185_2_alg».proof.Proof.Rows
import proofs.«116288_j6914897347185_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Reg1

open Cert.KernelIdeal Cert.KernelIdeal.Gen Idealize.ShloMosaic Idealize.ShloMosaic.ValueIdx

/-! ## The layout operations of the block, read at an entry -/

/-- A vector of `a` entries recast as one column reads, in row `p`, the vector's entry `p`. -/
theorem castCol_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- One column repeated over `b` columns reads, at `(p, c)`, the column's entry in row `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a block along its rows, at the exact values: entry `r` is the sum of row `r`'s 512 entries. -/
theorem rowSum_apply (x : FVec Ideal S1000x512 .f32) (hacc : (0x00000000#32 : BitVec 32) = 0x00000000#32) (r : Fin 1000) :
    multiReduction .add [1] S1000 x 0x00000000#32 reduces_S1000x512_S1000 (.inl rfl) hacc (ix1 r)
      = ∑ k : Fin 512, x (ix2 r k) := by
  refine (Ideal.multiReduction_add_single x 0x00000000#32 reduces_S1000x512_S1000 (.inl rfl) hacc (ix1 r)).trans ?_
  refine Finset.sum_congr rfl fun k _ => congrArg x ?_
  funext c
  apply Fin.ext
  match c with
  | ⟨0, _⟩ => rfl
  | ⟨1, _⟩ => rfl

/-- A row sum kept as a column: entry `(r, 0)` is the sum of row `r`. -/
theorem rowSumCol_apply (x : FVec Ideal S1000x512 .f32) (hacc : (0x00000000#32 : BitVec 32) = 0x00000000#32) (r : Fin 1000) :
    shapeCast S1000x1 (multiReduction .add [1] S1000 x 0x00000000#32 reduces_S1000x512_S1000 (.inl rfl) hacc)
        shapeCasts_S1000_S1000x1 (ix2 r (0 : Fin 1))
      = ∑ k : Fin 512, x (ix2 r k) :=
  (castCol_apply _ shapeCasts_S1000_S1000x1 r).trans (rowSum_apply x hacc r)

/-- The product of a 1000×512 block with a 512×8 matrix into a zero accumulator, at the exact values (the operands'
    narrower number format changes nothing there): entry `(r, c)` contracts row `r` with column `c`. -/
theorem gateDot_apply (lhs : FVec Ideal S1000x512 .bf16) (rhs : FVec Ideal S512x8 .bf16) (r : Fin 1000) (c : Fin 8) :
    matmul dot_S1000x512_S512x8_S1000x8_1_0_0_1_n_n none lhs rhs (constant S1000x8 .f32 0x00000000#32) (ix2 r c)
      = ∑ k : Fin 512, lhs (ix2 r k) * rhs (ix2 k c) := by
  show FloatOps.matmul dot_S1000x512_S512x8_S1000x8_1_0_0_1_n_n none lhs rhs (constant S1000x8 .f32 0x00000000#32) (ix2 r c) = _
  rw [Ideal.matmul_constant_zero_apply]
  exact Cert.PlainDot.sum_eq (M := 1000) (K := 512) (N := 8) lhs rhs r c

/-- The product of the 1000×8 gates with the 8×512 spreading matrix into a zero accumulator: entry `(r, j)`
    contracts row `r` of the gates with column `j` of the matrix. -/
theorem spreadDot_apply (lhs : FVec Ideal S1000x8 .f32) (rhs : FVec Ideal S8x512 .f32) (r : Fin 1000) (j : Fin 512) :
    matmul dot_S1000x8_S8x512_S1000x512_1_0_0_1_n_n (some .fp32) lhs rhs (constant S1000x512 .f32 0x00000000#32) (ix2 r j)
      = ∑ c : Fin 8, lhs (ix2 r c) * rhs (ix2 c j) :=
  Cert.PlainDot.matmul_zero_apply dot_S1000x8_S8x512_S1000x512_1_0_0_1_n_n rfl (some .fp32) lhs rhs r j

/-! ## The mix of a row and its neighbourhood mean -/

/-- The eight gates of row `r`: the logistic function of the row's contraction with one 512×8 matrix, plus the
    neighbourhood mean's contraction with the other, plus the bias. -/
theorem gates_apply (h m : FVec Ideal S1000x512 .f32) (wx wm : FVec Ideal S512x8 .f32) (tb : FVec Ideal S1x8 .f32)
    (r : Fin 1000) (c : Fin 8) :
    logistic (addf (addf
        (matmul dot_S1000x512_S512x8_S1000x8_1_0_0_1_n_n none (truncf .bf16 h bitsLt_bf16_f32) (truncf .bf16 wx bitsLt_bf16_f32)
          (constant S1000x8 .f32 0x00000000#32))
        (matmul dot_S1000x512_S512x8_S1000x8_1_0_0_1_n_n none (truncf .bf16 m bitsLt_bf16_f32) (truncf .bf16 wm bitsLt_bf16_f32)
          (constant S1000x8 .f32 0x00000000#32)))
        (broadcastTo S1000x8 tb broadcasts_S1x8_S1000x8)) (ix2 r c)
      = Cert.Rows.gate (fun k => h (ix2 r k)) (fun k => m (ix2 r k)) (fun k c => wx (ix2 k c)) (fun k c => wm (ix2 k c))
          (fun c => tb (ix2 (0 : Fin 1) c)) c := by
  show Ideal.logistic (_ + _ + _) = _
  rw [gateDot_apply, gateDot_apply, broadcastTo_1b_ab_apply]
  rfl

/-- The block's mix at `(r, j)` is the mix of row `r`: the neighbourhood mean is the row of neighbour sums times the
    row's reciprocal count, the eight gates are the logistic function of the two contractions plus the bias, and
    the gates are spread over the features by the 8×512 matrix. -/
theorem mix_apply (v0 v2 : Vec Ideal S1000x512 .f32) (v4 : Vec Ideal S1000x1 .f32) (v10 v13 : Vec Ideal S512x8 .f32)
    (v19 : Vec Ideal S1x8 .f32) (v24 : Vec Ideal S8x512 .f32) (r : Fin 1000) (j : Fin 512) :
    k1_pay2 v0 v2 v4 v10 v13 v19 v24 (ix2 r j)
      = Cert.Rows.mix (fun k => v0 (ix2 r k)) (fun k => v2 (ix2 r k) * v4 (ix2 r (0 : Fin 1)))
          (Cert.Rows.spread
            (Cert.Rows.gate (fun k => v0 (ix2 r k)) (fun k => v2 (ix2 r k) * v4 (ix2 r (0 : Fin 1)))
              (fun k c => v10 (ix2 k c)) (fun k c => v13 (ix2 k c)) (fun c => v19 (ix2 (0 : Fin 1) c)))
            (fun c j => v24 (ix2 c j))) j := by
  unfold k1_pay2
  simp only [shapeCast_self]
  simp only [addf_apply, mulf_apply, subf_apply, broadcast_apply]
  rw [spreadDot_apply, bcastCol_apply]
  simp only [gates_apply, mulf_apply, bcastCol_apply]
  rfl

/-! ## The layer normalisation of a row -/

/-- A reciprocal square root at an entry is the extended reals' reciprocal square root of the entry. -/
theorem rsqrt_apply {s : Shape} {φ : FTy} (x : FVec Ideal s φ) (i : s.Idx) : rsqrt x i = Ideal.rsqrt (x i) := rfl

/-- The block's layer normalisation at `(r, j)` is the layer normalisation of row `r`: the mean and the variance
    are row sums divided by 512, kept as columns and repeated over the features; scale and shift are one row each. -/
theorem ln_apply (a : FVec Ideal S1000x512 .f32) (g b : FVec Ideal S1x512 .f32) (r : Fin 1000) (j : Fin 512) :
    k1_pay1 a g b (ix2 r j)
      = Cert.Rows.ln (fun k => a (ix2 r k)) (fun k => g (ix2 (0 : Fin 1) k)) (fun k => b (ix2 (0 : Fin 1) k)) j := by
  unfold k1_pay1
  simp only [addf_apply, mulf_apply, subf_apply]
  rw [bcastCol_apply, bcastCol_apply, broadcastTo_1b_ab_apply, broadcastTo_1b_ab_apply]
  simp only [rsqrt_apply, divf_apply, addf_apply, broadcast_apply]
  rw [rowSumCol_apply, rowSumCol_apply]
  simp only [mulf_apply, subf_apply, bcastCol_apply, divf_apply, broadcast_apply]
  rw [rowSumCol_apply]
  rfl

/-! ## The whole block: a convolution layer on each row -/

/-- What the block stores at `(r, j)`: the convolution layer of row `r` — the row, its neighbour sums and its
    reciprocal count, against the two gate matrices, the bias, the spreading matrix, the scale and the shift. -/
theorem conv_apply (x0 x1 : Vec Ideal S1000x512 .f32) (x2 : Vec Ideal S1000x1 .f32) (x3 x4 : Vec Ideal S512x8 .f32)
    (x5 : Vec Ideal S1x8 .f32) (x6 : Vec Ideal S8x512 .f32) (x7 x8 : Vec Ideal S1x512 .f32) (r : Fin 1000) (j : Fin 512) :
    k1_pay1 (k1_pay2 x0 x1 x2 x3 x4 x5 x6) (k1_pay3 x7) (k1_pay4 x8) (ix2 r j)
      = Cert.Rows.conv (fun k => x0 (ix2 r k)) (fun k => x1 (ix2 r k)) (x2 (ix2 r (0 : Fin 1)))
          (fun k c => x3 (ix2 k c)) (fun k c => x4 (ix2 k c)) (fun c => x5 (ix2 (0 : Fin 1) c)) (fun c j => x6 (ix2 c j))
          (fun j => x7 (ix2 (0 : Fin 1) j)) (fun j => x8 (ix2 (0 : Fin 1) j)) j := by
  rw [ln_apply]
  unfold k1_pay3 k1_pay4
  simp only [mix_apply, shapeCast_self]
  rfl

/-- The convolution layer of a row depends only on the row's data: equal data, equal results. -/
theorem conv_congr {h h' s s' : Fin 512 → EReal} {ic ic' : EReal} {Wx Wx' Wm Wm' : Fin 512 → Fin 8 → EReal}
    {tb tb' : Fin 8 → EReal} {R R' : Fin 8 → Fin 512 → EReal} {g g' be be' : Fin 512 → EReal} {q q' : Fin 512}
    (e0 : h = h') (e1 : s = s') (e2 : ic = ic') (e3 : Wx = Wx') (e4 : Wm = Wm') (e5 : tb = tb') (e6 : R = R')
    (e7 : g = g') (e8 : be = be') (eq : q = q') :
    Cert.Rows.conv h s ic Wx Wm tb R g be q = Cert.Rows.conv h' s' ic' Wx' Wm' tb' R' g' be' q' := by
  subst e0 e1 e2 e3 e4 e5 e6 e7 e8 eq
  rfl

end Cert.KernelIdeal.Reg1

end
-- ==== Proof.Reg1Arr.lean ====
/-
  The convolution layer's kernel region: its nine input arrays and where each grid point's blocks sit in them.

  The region runs 50 grid points. At point t the three row-indexed inputs (the node features, their neighbour
  sums, their reciprocal neighbour counts) and the output are cut at block row t — rows 1000 t … 1000 t + 999 —
  and block column 0; the six weight inputs are taken whole at every point. This module names the nine arrays
  as the region finds them and decides those index relations once over the 50 points.
-/
import proofs.«116288_j6914897347185_2_alg».proof.Proof.Gen.KernelIdeal.Frame
import Idealize.ShloMosaic.Lib.Pipeline.Value
import Idealize.ShloMosaic.Lib.ValueIdx

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets, however they are spelt. -/
theorem hz : (![0, 0] : Fin 2 → Nat) = fun _ => 0 := funext fun a => by fin_cases a <;> rfl

/-! ## The region's nine input arrays, as the region finds them -/

/-- The rows, 50000 by 512. -/
abbrev arr0 (c : Dev nD) : S50000x512.Idx → EReal := V c (Pipeline.arrRef spec1 0)
/-- The neighbour sums, 50000 by 512. -/
abbrev arr1 (c : Dev nD) : S50000x512.Idx → EReal := V c (Pipeline.arrRef spec1 1)
/-- The reciprocal neighbour counts, one per row. -/
abbrev arr2 (c : Dev nD) : S50000x1.Idx → EReal := V c (Pipeline.arrRef spec1 2)
/-- The gate matrix applied to the row. -/
abbrev arr3 (c : Dev nD) : S512x8.Idx → EReal := V c (Pipeline.arrRef spec1 3)
/-- The gate matrix applied to the neighbourhood mean. -/
abbrev arr4 (c : Dev nD) : S512x8.Idx → EReal := V c (Pipeline.arrRef spec1 4)
/-- The gate bias. -/
abbrev arr5 (c : Dev nD) : S1x8.Idx → EReal := V c (Pipeline.arrRef spec1 5)
/-- The matrix spreading the eight gates over the 512 features. -/
abbrev arr6 (c : Dev nD) : S8x512.Idx → EReal := V c (Pipeline.arrRef spec1 6)
/-- The normalisation's scale. -/
abbrev arr7 (c : Dev nD) : S1x512.Idx → EReal := V c (Pipeline.arrRef spec1 7)
/-- The normalisation's shift. -/
abbrev arr8 (c : Dev nD) : S1x512.Idx → EReal := V c (Pipeline.arrRef spec1 8)

/-- The index maps over the 50 grid points: the three row windows and the output window sit at block row `t`,
    block column 0; the six weight windows are their whole arrays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 ∧ True :=
  (by decide +kernel : ∀ t : Fin grid1.N, _)

end Cert.KernelIdeal.Reg1

end
-- ==== Proof.Reg1BlkRows.lean ====
/-
  The three row-indexed input blocks of the convolution layer's kernel, read off their arrays: row p of the block
  at grid point t is row 1000 t + p of the array, column for column.
-/
import proofs.«116288_j6914897347185_2_alg».proof.Proof.Reg1Arr

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Row `p` of the rows' block at point `t` is row `1000 t + p` of the array. -/
theorem blk0_apply (c : Dev nD) (t : Fin cfg1.N) (p : Fin 1000) (k : Fin 512) (i0 : Fin 50000) (h : i0.val = t.val * 1000 + p.val) :
    (iblk1 V c 0 t : Vec Ideal S1000x512 .f32) (ix2 p k) = arr0 V c (ix2 i0 k) := by
  have e0 := (idx_facts t).1
  have e1 := (idx_facts t).2.1
  unfold iblk1
  rw [View.read_apply]
  show arr0 V c _ = _
  refine congrArg (arr0 V c) (funext fun a => Fin.ext ?_)
  match a with
  | ⟨0, _⟩ => show win1_0.index t (0 : Fin 2) * 1000 + 1 * p.val = i0.val; rw [e0, h]; omega
  | ⟨1, _⟩ => show win1_0.index t (1 : Fin 2) * 512 + 1 * k.val = k.val; rw [e1]; omega

/-- Row `p` of the neighbour sums' block at point `t` is row `1000 t + p` of the array. -/
theorem blk1_apply (c : Dev nD) (t : Fin cfg1.N) (p : Fin 1000) (k : Fin 512) (i0 : Fin 50000) (h : i0.val = t.val * 1000 + p.val) :
    (iblk1 V c 1 t : Vec Ideal S1000x512 .f32) (ix2 p k) = arr1 V c (ix2 i0 k) := by
  have e0 := (idx_facts t).2.2.1
  have e1 := (idx_facts t).2.2.2.1
  unfold iblk1
  rw [View.read_apply]
  show arr1 V c _ = _
  refine congrArg (arr1 V c) (funext fun a => Fin.ext ?_)
  match a with
  | ⟨0, _⟩ => show win1_1.index t (0 : Fin 2) * 1000 + 1 * p.val = i0.val; rw [e0, h]; omega
  | ⟨1, _⟩ => show win1_1.index t (1 : Fin 2) * 512 + 1 * k.val = k.val; rw [e1]; omega

/-- Entry `p` of the reciprocal counts' block at point `t` is entry `1000 t + p` of the array. -/
theorem blk2_apply (c : Dev nD) (t : Fin cfg1.N) (p : Fin 1000) (k : Fin 1) (i0 : Fin 50000) (h : i0.val = t.val * 1000 + p.val) :
    (iblk1 V c 2 t : Vec Ideal S1000x1 .f32) (ix2 p k) = arr2 V c (ix2 i0 k) := by
  have e0 := (idx_facts t).2.2.2.2.1
  have e1 := (idx_facts t).2.2.2.2.2.1
  unfold iblk1
  rw [View.read_apply]
  show arr2 V c _ = _
  refine congrArg (arr2 V c) (funext fun a => Fin.ext ?_)
  match a with
  | ⟨0, _⟩ => show win1_2.index t (0 : Fin 2) * 1000 + 1 * p.val = i0.val; rw [e0, h]; omega
  | ⟨1, _⟩ => show win1_2.index t (1 : Fin 2) * 1 + 1 * k.val = k.val; rw [e1]; omega

end Cert.KernelIdeal.Reg1

end
-- ==== Proof.Reg1BlkWts.lean ====
/-
  The six weight blocks of the convolution layer's kernel, read off their arrays: each is its whole array at
  every grid point, entry for entry.
-/
import proofs.«116288_j6914897347185_2_alg».proof.Proof.Reg1Arr

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The first gate matrix's block is the whole matrix at every point. -/
theorem blk3_apply (c : Dev nD) (t : Fin cfg1.N) (p : Fin 512) (k : Fin 8)  :
    (iblk1 V c 3 t : Vec Ideal S512x8 .f32) (ix2 p k) = arr3 V c (ix2 p k) := by
  have e0 := (idx_facts t).2.2.2.2.2.2.1
  have e1 := (idx_facts t).2.2.2.2.2.2.2.1
  unfold iblk1
  rw [View.read_apply]
  show arr3 V c _ = _
  refine congrArg (arr3 V c) (funext fun a => Fin.ext ?_)
  match a with
  | ⟨0, _⟩ => show win1_3.index t (0 : Fin 2) * 512 + 1 * p.val = p.val; rw [e0]; omega
  | ⟨1, _⟩ => show win1_3.index t (1 : Fin 2) * 8 + 1 * k.val = k.val; rw [e1]; omega

/-- The second gate matrix's block is the whole matrix at every point. -/
theorem blk4_apply (c : Dev nD) (t : Fin cfg1.N) (p : Fin 512) (k : Fin 8)  :
    (iblk1 V c 4 t : Vec Ideal S512x8 .f32) (ix2 p k) = arr4 V c (ix2 p k) := by
  have e0 := (idx_facts t).2.2.2.2.2.2.2.2.1
  have e1 := (idx_facts t).2.2.2.2.2.2.2.2.2.1
  unfold iblk1
  rw [View.read_apply]
  show arr4 V c _ = _
  refine congrArg (arr4 V c) (funext fun a => Fin.ext ?_)
  match a with
  | ⟨0, _⟩ => show win1_4.index t (0 : Fin 2) * 512 + 1 * p.val = p.val; rw [e0]; omega
  | ⟨1, _⟩ => show win1_4.index t (1 : Fin 2) * 8 + 1 * k.val = k.val; rw [e1]; omega

/-- The bias's block is the whole bias at every point. -/
theorem blk5_apply (c : Dev nD) (t : Fin cfg1.N) (p : Fin 1) (k : Fin 8)  :
    (iblk1 V c 5 t : Vec Ideal S1x8 .f32) (ix2 p k) = arr5 V c (ix2 p k) := by
  have e0 := (idx_facts t).2.2.2.2.2.2.2.2.2.2.1
  have e1 := (idx_facts t).2.2.2.2.2.2.2.2.2.2.2.1
  unfold iblk1
  rw [View.read_apply]
  show arr5 V c _ = _
  refine congrArg (arr5 V c) (funext fun a => Fin.ext ?_)
  match a with
  | ⟨0, _⟩ => show win1_5.index t (0 : Fin 2) * 1 + 1 * p.val = p.val; rw [e0]; omega
  | ⟨1, _⟩ => show win1_5.index t (1 : Fin 2) * 8 + 1 * k.val = k.val; rw [e1]; omega

/-- The spreading matrix's block is the whole matrix at every point. -/
theorem blk6_apply (c : Dev nD) (t : Fin cfg1.N) (p : Fin 8) (k : Fin 512)  :
    (iblk1 V c 6 t : Vec Ideal S8x512 .f32) (ix2 p k) = arr6 V c (ix2 p k) := by
  have e0 := (idx_facts t).2.2.2.2.2.2.2.2.2.2.2.2.1
  have e1 := (idx_facts t).2.2.2.2.2.2.2.2.2.2.2.2.2.1
  unfold iblk1
  rw [View.read_apply]
  show arr6 V c _ = _
  refine congrArg (arr6 V c) (funext fun a => Fin.ext ?_)
  match a with
  | ⟨0, _⟩ => show win1_6.index t (0 : Fin 2) * 8 + 1 * p.val = p.val; rw [e0]; omega
  | ⟨1, _⟩ => show win1_6.index t (1 : Fin 2) * 512 + 1 * k.val = k.val; rw [e1]; omega

/-- The scale's block is the whole scale at every point. -/
theorem blk7_apply (c : Dev nD) (t : Fin cfg1.N) (p : Fin 1) (k : Fin 512)  :
    (iblk1 V c 7 t : Vec Ideal S1x512 .f32) (ix2 p k) = arr7 V c (ix2 p k) := by
  have e0 := (idx_facts t).2.2.2.2.2.2.2.2.2.2.2.2.2.2.1
  have e1 := (idx_facts t).2.2.2.2.2.2.2.2.2.2.2.2.2.2.2.1
  unfold iblk1
  rw [View.read_apply]
  show arr7 V c _ = _
  refine congrArg (arr7 V c) (funext fun a => Fin.ext ?_)
  match a with
  | ⟨0, _⟩ => show win1_7.index t (0 : Fin 2) * 1 + 1 * p.val = p.val; rw [e0]; omega
  | ⟨1, _⟩ => show win1_7.index t (1 : Fin 2) * 512 + 1 * k.val = k.val; rw [e1]; omega

/-- The shift's block is the whole shift at every point. -/
theorem blk8_apply (c : Dev nD) (t : Fin cfg1.N) (p : Fin 1) (k : Fin 512)  :
    (iblk1 V c 8 t : Vec Ideal S1x512 .f32) (ix2 p k) = arr8 V c (ix2 p k) := by
  have e0 := (idx_facts t).2.2.2.2.2.2.2.2.2.2.2.2.2.2.2.2.1
  have e1 := (idx_facts t).2.2.2.2.2.2.2.2.2.2.2.2.2.2.2.2.2.1
  unfold iblk1
  rw [View.read_apply]
  show arr8 V c _ = _
  refine congrArg (arr8 V c) (funext fun a => Fin.ext ?_)
  match a with
  | ⟨0, _⟩ => show win1_8.index t (0 : Fin 2) * 1 + 1 * p.val = p.val; rw [e0]; omega
  | ⟨1, _⟩ => show win1_8.index t (1 : Fin 2) * 512 + 1 * k.val = k.val; rw [e1]; omega

end Cert.KernelIdeal.Reg1

end
-- ==== Proof.Reg1.lean ====
/-
  The convolution layer's kernel region, as one function of its input arrays.

  The region runs 50 grid points; point t reads rows 1000 t … 1000 t + 999 of the node features, of their
  neighbour sums and of their reciprocal neighbour counts, and the weights whole, and writes the same rows of the
  output. What it writes in a row is the one-row convolution layer of that row (the payload, read entry by
  entry), and a row of a block is a row of the array (the block reads). So the write-back of point t is block t
  of ONE array-wide function — row i, feature j ↦ the convolution layer of row i of the inputs at feature j —
  and since the 50 blocks fill the 50000 rows (row r lies in the block of point r / 1000, and every point writes
  back), the output array after the region is that function.
-/
import proofs.«116288_j6914897347185_2_alg».proof.Proof.Reg1Pay
import proofs.«116288_j6914897347185_2_alg».proof.Proof.Reg1BlkRows
import proofs.«116288_j6914897347185_2_alg».proof.Proof.Reg1BlkWts
import Idealize.ShloMosaic.Lib.Pipeline.Value

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What the output array holds after the region, row by row: the convolution layer of row `i 0` of the region's
    input arrays — the rows, the neighbour sums, the reciprocal counts — against the weights, at feature `i 1`. -/
abbrev convArr (c : Dev nD) : S50000x512.Idx → EReal := fun i : S50000x512.Idx =>
  Cert.Rows.conv (fun k => arr0 V c (ix2 (i 0) k)) (fun k => arr1 V c (ix2 (i 0) k)) (arr2 V c (ix2 (i 0) 0))
    (fun k c' => arr3 V c (ix2 k c')) (fun k c' => arr4 V c (ix2 k c')) (fun c' => arr5 V c (ix2 0 c'))
    (fun c' j => arr6 V c (ix2 c' j)) (fun j => arr7 V c (ix2 0 j)) (fun j => arr8 V c (ix2 0 j)) (i 1)

/-- What grid point `t` writes back is block `t` of that array: rows `1000 t … 1000 t + 999`, each the convolution
    layer of the same row of the inputs. -/
theorem flushed_eq (c : Dev nD) (t : Fin cfg1.N) :
    (dat1 (F := Ideal) V c).flushed 9 t = ((cfg1.win 9).blk t).view.read (Elt Ideal) (convArr V c) := by
  show (cfg1.win 9).cut (grid1.coords t) ((dat1 (F := Ideal) V c).after 9 t) = _
  rw [after1_9]
  unfold out1_9
  rw [View.canon_unit_zero hz]
  simp only [View.ld_unit_zero (S := S1000x512) hz, View.ld_unit_zero (S := S1000x1) hz, View.ld_unit_zero (S := S512x8) hz,
    View.ld_unit_zero (S := S1x8) hz, View.ld_unit_zero (S := S8x512) hz, View.ld_unit_zero (S := S1x512) hz]
  funext y
  obtain ⟨p, q, rfl⟩ : ∃ (p : Fin 1000) (q : Fin 512), y = ix2 p q := ⟨y 0, y 1, eq_ix2 y⟩
  show k1_pay1 (k1_pay2 (iblk1 V c 0 t) (iblk1 V c 1 t) (iblk1 V c 2 t) (iblk1 V c 3 t) (iblk1 V c 4 t) (iblk1 V c 5 t) (iblk1 V c 6 t))
      (k1_pay3 (iblk1 V c 7 t)) (k1_pay4 (iblk1 V c 8 t)) (ix2 p q)
    = convArr V c (((cfg1.win 9).blk t).view.emb (ix2 p q))
  refine (conv_apply (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  have e18 := (idx_facts t).2.2.2.2.2.2.2.2.2.2.2.2.2.2.2.2.2.2.1
  have e19 := (idx_facts t).2.2.2.2.2.2.2.2.2.2.2.2.2.2.2.2.2.2.2.1
  have hi0 : ((((cfg1.win 9).blk t).view.emb (ix2 p q)) (0 : Fin 2)).val = t.val * 1000 + p.val := by
    show win1_9.index t (0 : Fin 2) * 1000 + 1 * p.val = _
    rw [e18]; omega
  have hi1 : ((((cfg1.win 9).blk t).view.emb (ix2 p q)) (1 : Fin 2)).val = q.val := by
    show win1_9.index t (1 : Fin 2) * 512 + 1 * q.val = _
    rw [e19]; omega
  exact conv_congr (funext fun k => blk0_apply V c t p k _ hi0) (funext fun k => blk1_apply V c t p k _ hi0)
    (blk2_apply V c t p 0 _ hi0) (funext fun k => funext fun c' => blk3_apply V c t k c')
    (funext fun k => funext fun c' => blk4_apply V c t k c') (funext fun c' => blk5_apply V c t 0 c')
    (funext fun c' => funext fun j => blk6_apply V c t c' j) (funext fun j => blk7_apply V c t 0 j)
    (funext fun j => blk8_apply V c t 0 j) (Fin.ext hi1.symm)

/-- An index of the output array lies in point `t`'s block iff each coordinate lies in the block's range on its axis. -/
theorem mem_blk (t : Fin cfg1.N) (i : S50000x512.Idx) :
    i ∈ ((cfg1.win 9).blk t).view.set ↔ ∀ a : Fin 2, win1_9.index t a * S1000x512.size a ≤ (i a).val
      ∧ (i a).val < win1_9.index t a * S1000x512.size a + S1000x512.size a := by
  show i ∈ ((View.whole main_v44).slice (win1_9.rect t)).set ↔ _
  rw [View.set_slice_whole, Rect.mem_set_unit]
  exact Iff.rfl

/-- The 50 blocks of 1000 rows fill the array: row `r` lies in the block of point `r / 1000`, and every point
    writes its block back. -/
theorem cover (i : S50000x512.Idx) :
    ∃ t : Fin cfg1.N, (cfg1.win 9).flush t = true ∧ i ∈ ((cfg1.win 9).blk t).view.set := by
  have hi0 : (i 0).val < 50000 := (i 0).isLt
  have hi1 : (i 1).val < 512 := (i 1).isLt
  have hN : cfg1.N = 50 := N_1
  obtain ⟨t, ht⟩ : ∃ t : Fin cfg1.N, t.val = (i 0).val / 1000 := ⟨⟨(i 0).val / 1000, by rw [hN]; omega⟩, rfl⟩
  have e18 := (idx_facts t).2.2.2.2.2.2.2.2.2.2.2.2.2.2.2.2.2.2.1
  have e19 := (idx_facts t).2.2.2.2.2.2.2.2.2.2.2.2.2.2.2.2.2.2.2.1
  refine ⟨t, flush1_9 t, ?_⟩
  rw [mem_blk]
  intro a
  match a with
  | ⟨0, _⟩ =>
    show win1_9.index t (0 : Fin 2) * 1000 ≤ (i 0).val ∧ (i 0).val < win1_9.index t (0 : Fin 2) * 1000 + 1000
    rw [e18, ht]; omega
  | ⟨1, _⟩ =>
    show win1_9.index t (1 : Fin 2) * 512 ≤ (i 1).val ∧ (i 1).val < win1_9.index t (1 : Fin 2) * 512 + 512
    rw [e19]; omega

/-- The output array after the region is the convolution layer of the input arrays, row by row. -/
theorem final' (c : Dev nD) : (dat1 (F := Ideal) V c).arrAt 9 cfg1.N = convArr V c :=
  (dat1 (F := Ideal) V c).arrAt_eq_of_cover 9 (convArr V c) (fun t _ => flushed_eq V c t) cover

/-- The same, with the nine input arrays written out as the region finds them. -/
theorem final (c : Dev nD) :
    (dat1 (F := Ideal) V c).arrAt 9 cfg1.N = fun i : S50000x512.Idx =>
      Cert.Rows.conv
        (fun k => (V c (Pipeline.arrRef spec1 0) : S50000x512.Idx → EReal) (ix2 (i 0) k))
        (fun k => (V c (Pipeline.arrRef spec1 1) : S50000x512.Idx → EReal) (ix2 (i 0) k))
        ((V c (Pipeline.arrRef spec1 2) : S50000x1.Idx → EReal) (ix2 (i 0) 0))
        (fun k c' => (V c (Pipeline.arrRef spec1 3) : S512x8.Idx → EReal) (ix2 k c'))
        (fun k c' => (V c (Pipeline.arrRef spec1 4) : S512x8.Idx → EReal) (ix2 k c'))
        (fun c' => (V c (Pipeline.arrRef spec1 5) : S1x8.Idx → EReal) (ix2 0 c'))
        (fun c' j => (V c (Pipeline.arrRef spec1 6) : S8x512.Idx → EReal) (ix2 c' j))
        (fun j => (V c (Pipeline.arrRef spec1 7) : S1x512.Idx → EReal) (ix2 0 j))
        (fun j => (V c (Pipeline.arrRef spec1 8) : S1x512.Idx → EReal) (ix2 0 j))
        (i 1) :=
  final' V c

end Cert.KernelIdeal.Reg1

end
-- ==== Proof.Reg2Pay.lean ====
/-
  One block of the output layer, read one entry at a time.

  The last region handles the 50000 nodes in blocks of 1000 rows. On a block it forms, for every row, the
  neighbourhood mean (the neighbour sum times the reciprocal count), the eight gates (the logistic function of two
  contractions of the row and the mean against two 512×8 matrices, plus a bias), the gates spread over the 512
  features by an 8×512 matrix, the mix of the row and the mean with those weights, the layer normalisation of the
  mix, and the projection of the normalised row by a 512×256 matrix plus a bias. Every operation is either entry by
  entry or acts along one row: a sum along a row, a column repeated over the features, a row repeated over the
  block's rows, a product with a matrix shared by all rows. So entry (r, o) of the block's result depends only on
  row r of the block's three row-indexed inputs, and is the row function `Cert.Rows.proj (Cert.Rows.conv …)` of
  that row. The narrowing of an operand to a shorter format before a product is the identity on exact values.

  This module reads each non-pointwise operation at an index, then the mixing stage, then the normalisation and
  projection stage, then their composition.
-/
import proofs.«116288_j6914897347185_2_alg».proof.Proof.Gen.KernelIdeal.Skeleton
import proofs.«116288_j6914897347185_2_alg».proof.Proof.Rows
import proofs.«116288_j6914897347185_2_alg».proof.Proof.LibPlainDot
import Idealize.ShloMosaic.Lib.ValueLayout

noncomputable section

open scoped BigOperators

namespace Cert.KernelIdeal.Reg2

open Idealize.ShloMosaic Idealize.ShloMosaic.ValueIdx Cert.KernelIdeal Cert.KernelIdeal.Gen

section Layout
variable {α : Type}

/-- A vector of `a` entries viewed as a column of `a` rows reads, at row `r`, its entry `r`. -/
theorem column_of_vector {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column of `a` rows repeated over `b` columns reads, at `(r, j)`, the column's entry in row `r`. -/
theorem column_over_columns {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

end Layout

/-- The sum along the rows of a `[1000, 512]` array, at row `r`, is the sum of that row's 512 entries. -/
theorem row_sum (v : FVec Ideal S1000x512 .f32) (h : S1000x512.Reduces [1] S1000) (hφ : FKind.Formats .f32)
    (hacc : (0x00000000#32 : BitVec 32) = 0x00000000#32) (r : Fin 1000) :
    multiReduction (F := Ideal) .add [1] S1000 v 0x00000000#32 h hφ hacc (ix1 r) = ∑ k : Fin 512, v (ix2 r k) := by
  refine (Ideal.multiReduction_add_single v 0x00000000#32 h hφ hacc (ix1 r)).trans ?_
  refine Finset.sum_congr rfl fun k _ => congrArg v ?_
  funext c
  refine Fin.ext ?_
  match c with
  | ⟨0, _⟩ => rfl
  | ⟨1, _⟩ => rfl

/-- A product of an `M×K` array with a `K×N` array into a zero accumulator, whatever the operands' formats,
    is at `(r, c)` the sum over `k` of the products along row `r` and column `c`. -/
theorem product_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  subst hd
  rw [Ideal.matmul_constant_zero_apply]
  exact Cert.PlainDot.sum_eq lhs rhs r c

section Pointwise
variable {s : Shape} {φ : FTy}

/-- The logistic function of an array, entry by entry. -/
theorem logistic_apply (a : FVec Ideal s φ) (i : s.Idx) : logistic a i = Ideal.logistic (a i) := rfl
/-- The reciprocal square root of an array, entry by entry. -/
theorem rsqrt_apply (a : FVec Ideal s φ) (i : s.Idx) : rsqrt a i = Ideal.rsqrt (a i) := rfl

end Pointwise

/-- The mixing stage of one block, at row `r` and feature `j`: the row and its neighbourhood mean (the neighbour sum
    times the reciprocal count) mixed with the weights the eight gates of that row spread over the features. -/
theorem mix_apply (v0 v2 : Vec Ideal S1000x512 .f32) (v4 : Vec Ideal S1000x1 .f32) (v10 v13 : Vec Ideal S512x8 .f32)
    (v19 : Vec Ideal S1x8 .f32) (v24 : Vec Ideal S8x512 .f32) (r : Fin 1000) (j : Fin 512) :
    k2_pay2 (F := Ideal) v0 v2 v4 v10 v13 v19 v24 (ix2 r j)
      = Cert.Rows.mix (fun k => v0 (ix2 r k)) (fun k => v2 (ix2 r k) * v4 (ix2 r 0))
          (Cert.Rows.spread
            (Cert.Rows.gate (fun k => v0 (ix2 r k)) (fun k => v2 (ix2 r k) * v4 (ix2 r 0))
              (fun k c => v10 (ix2 k c)) (fun k c => v13 (ix2 k c)) (fun c => v19 (ix2 0 c)))
            (fun c j => v24 (ix2 c j))) j := by
  unfold k2_pay2
  simp only [shapeCast_self]
  simp only [addf_apply, mulf_apply, subf_apply, broadcast_apply, truncf_apply, logistic_apply, column_over_columns,
    broadcastTo_1b_ab_apply, product_apply dot_S1000x512_S512x8_S1000x8_1_0_0_1_n_n rfl,
    product_apply dot_S1000x8_S8x512_S1000x512_1_0_0_1_n_n rfl, Ideal.ofBits_def]
  rfl

/-- The normalisation and projection stage of one block, at row `r` and output feature `o`: the row is normalised
    (mean, variance about the mean, scale and shift) and projected by the output matrix, plus the output bias. -/
theorem norm_proj_apply (v31 : FVec Ideal S1000x512 .f32) (v33 v35 : FVec Ideal S1x512 .f32)
    (v59 : Vec Ideal S512x256 .f32) (v62 : Vec Ideal S1x256 .f32) (r : Fin 1000) (o : Fin 256) :
    k2_pay1 (F := Ideal) v31 v33 v35 v59 v62 (ix2 r o)
      = Cert.Rows.proj (Cert.Rows.ln (fun k => v31 (ix2 r k)) (fun k => v33 (ix2 0 k)) (fun k => v35 (ix2 0 k)))
          (fun j o => v59 (ix2 j o)) (fun o => v62 (ix2 0 o)) o := by
  unfold k2_pay1
  simp only [shapeCast_self, addf_apply, mulf_apply, subf_apply, divf_apply, broadcast_apply, truncf_apply, rsqrt_apply,
    column_over_columns, column_of_vector, broadcastTo_1b_ab_apply,
    product_apply dot_S1000x512_S512x256_S1000x256_1_0_0_1_n_n rfl, Ideal.ofBits_def]
  rw [row_sum, row_sum]
  simp only [mulf_apply, subf_apply, divf_apply, broadcast_apply, column_over_columns, column_of_vector]
  rw [row_sum]
  rfl

/-- ONE ENTRY OF A BLOCK OF THE OUTPUT: at row `r` and output feature `o`, the projection of the convolution layer
    of row `r` of the block's inputs (the rows, the neighbour sums, the reciprocal counts), the weights being the
    whole small arrays every block sees. -/
theorem block_apply (x0 x1 : Vec Ideal S1000x512 .f32) (x2 : Vec Ideal S1000x1 .f32) (x3 x4 : Vec Ideal S512x8 .f32)
    (x5 : Vec Ideal S1x8 .f32) (x6 : Vec Ideal S8x512 .f32) (x7 x8 : Vec Ideal S1x512 .f32)
    (x9 : Vec Ideal S512x256 .f32) (x10 : Vec Ideal S1x256 .f32) (r : Fin 1000) (o : Fin 256) :
    k2_pay1 (F := Ideal) (k2_pay2 x0 x1 x2 x3 x4 x5 x6) (k2_pay3 x7) (k2_pay4 x8) x9 x10 (ix2 r o)
      = Cert.Rows.proj
          (Cert.Rows.conv (fun k => x0 (ix2 r k)) (fun k => x1 (ix2 r k)) (x2 (ix2 r 0))
            (fun k c => x3 (ix2 k c)) (fun k c => x4 (ix2 k c)) (fun c => x5 (ix2 0 c)) (fun c j => x6 (ix2 c j))
            (fun j => x7 (ix2 0 j)) (fun j => x8 (ix2 0 j)))
          (fun j o => x9 (ix2 j o)) (fun o => x10 (ix2 0 o)) o := by
  rw [norm_proj_apply]
  simp only [mix_apply]
  unfold k2_pay3 k2_pay4 Cert.Rows.conv
  simp only [shapeCast_self]

end Cert.KernelIdeal.Reg2

end
-- ==== Proof.Reg2Blk.lean ====
/-
  The input blocks of the last region as parts of its input arrays.

  The region walks 50 points; at point `t` each of its twelve windows reads or writes one block of its array. The
  three row-indexed inputs (the rows, the neighbour sums, the reciprocal counts) and the output are cut into blocks
  of 1000 rows and point `t` takes block `t`; every weight array is a single block, the same at every point. A
  block's entry `(p, q)` is the array's entry at block index × block size + `(p, q)`: row `1000 t + p` for the
  row-indexed arrays, the entry `(p, q)` itself for a weight array. The block indices are decided once over the
  50 points; each window's block is then read by the arithmetic of its two axes.
-/
import proofs.«116288_j6914897347185_2_alg».proof.Proof.Gen.KernelIdeal.Frame
import Idealize.ShloMosaic.Lib.ValueIdx

set_option maxRecDepth 16384

noncomputable section

namespace Cert.KernelIdeal.Reg2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The index maps of the region's twelve windows, decided over its 50 points: the three row-indexed inputs and
    the output move together, block `t` at point `t`; every weight array is one block. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = t.val ∧ win2_11.index t (1 : Fin 2) = 0 :=
  (by decide +kernel : ∀ t : Fin grid2.N, _)

/-! ## The input blocks as parts of the input arrays

A window's block at point `t` holds, at `(p, q)`, the array's element at (block index × block size + (p, q)). For
the three row-indexed inputs that is row `1000 t + p`; for a weight array, whose one block is the whole array, it
is the element `(p, q)` itself. -/

theorem rows_block0 (c : Dev nD) (t : Fin cfg2.N) (p : Fin 1000) (k : Fin 512) (i : Fin 50000)
    (hi : i.val = t.val * 1000 + p.val) :
    (iblk2 V c 0 t : Vec Ideal S1000x512 .f32) (ix2 p k)
      = (V c (Pipeline.arrRef spec2 0) : S50000x512.Idx → EReal) (ix2 i k) := by
  obtain ⟨a0, a1, b0, b1, c0, c1, d0, d1, e0, e1, f0, f1, g0, g1, h0, h1, i0, i1, j0, j1, k0, k1, l0, l1⟩ := block_indices t
  show (V c (Pipeline.arrRef spec2 0) : S50000x512.Idx → EReal) (((cfg2.win 0).blk t).view.emb (ix2 p k)) = _
  refine congrArg (V c (Pipeline.arrRef spec2 0) : S50000x512.Idx → EReal) (funext fun a => Fin.ext ?_)
  match a with
  | ⟨0, _⟩ => show win2_0.index t (0 : Fin 2) * 1000 + 1 * p.val = i.val; omega
  | ⟨1, _⟩ => show win2_0.index t (1 : Fin 2) * 512 + 1 * k.val = k.val; omega

theorem rows_block1 (c : Dev nD) (t : Fin cfg2.N) (p : Fin 1000) (k : Fin 512) (i : Fin 50000)
    (hi : i.val = t.val * 1000 + p.val) :
    (iblk2 V c 1 t : Vec Ideal S1000x512 .f32) (ix2 p k)
      = (V c (Pipeline.arrRef spec2 1) : S50000x512.Idx → EReal) (ix2 i k) := by
  obtain ⟨a0, a1, b0, b1, c0, c1, d0, d1, e0, e1, f0, f1, g0, g1, h0, h1, i0, i1, j0, j1, k0, k1, l0, l1⟩ := block_indices t
  show (V c (Pipeline.arrRef spec2 1) : S50000x512.Idx → EReal) (((cfg2.win 1).blk t).view.emb (ix2 p k)) = _
  refine congrArg (V c (Pipeline.arrRef spec2 1) : S50000x512.Idx → EReal) (funext fun a => Fin.ext ?_)
  match a with
  | ⟨0, _⟩ => show win2_1.index t (0 : Fin 2) * 1000 + 1 * p.val = i.val; omega
  | ⟨1, _⟩ => show win2_1.index t (1 : Fin 2) * 512 + 1 * k.val = k.val; omega

theorem rows_block2 (c : Dev nD) (t : Fin cfg2.N) (p : Fin 1000) (u : Fin 1) (i : Fin 50000)
    (hi : i.val = t.val * 1000 + p.val) :
    (iblk2 V c 2 t : Vec Ideal S1000x1 .f32) (ix2 p u)
      = (V c (Pipeline.arrRef spec2 2) : S50000x1.Idx → EReal) (ix2 i u) := by
  obtain ⟨a0, a1, b0, b1, c0, c1, d0, d1, e0, e1, f0, f1, g0, g1, h0, h1, i0, i1, j0, j1, k0, k1, l0, l1⟩ := block_indices t
  show (V c (Pipeline.arrRef spec2 2) : S50000x1.Idx → EReal) (((cfg2.win 2).blk t).view.emb (ix2 p u)) = _
  refine congrArg (V c (Pipeline.arrRef spec2 2) : S50000x1.Idx → EReal) (funext fun a => Fin.ext ?_)
  match a with
  | ⟨0, _⟩ => show win2_2.index t (0 : Fin 2) * 1000 + 1 * p.val = i.val; omega
  | ⟨1, _⟩ => show win2_2.index t (1 : Fin 2) * 1 + 1 * u.val = u.val; omega

theorem whole_block3 (c : Dev nD) (t : Fin cfg2.N) (p : Fin 512) (q : Fin 8) :
    (iblk2 V c 3 t : Vec Ideal S512x8 .f32) (ix2 p q) = (V c (Pipeline.arrRef spec2 3) : S512x8.Idx → EReal) (ix2 p q) := by
  obtain ⟨a0, a1, b0, b1, c0, c1, d0, d1, e0, e1, f0, f1, g0, g1, h0, h1, i0, i1, j0, j1, k0, k1, l0, l1⟩ := block_indices t
  show (V c (Pipeline.arrRef spec2 3) : S512x8.Idx → EReal) (((cfg2.win 3).blk t).view.emb (ix2 p q)) = _
  refine congrArg (V c (Pipeline.arrRef spec2 3) : S512x8.Idx → EReal) (funext fun a => Fin.ext ?_)
  match a with
  | ⟨0, _⟩ => show win2_3.index t (0 : Fin 2) * 512 + 1 * p.val = p.val; omega
  | ⟨1, _⟩ => show win2_3.index t (1 : Fin 2) * 8 + 1 * q.val = q.val; omega

theorem whole_block4 (c : Dev nD) (t : Fin cfg2.N) (p : Fin 512) (q : Fin 8) :
    (iblk2 V c 4 t : Vec Ideal S512x8 .f32) (ix2 p q) = (V c (Pipeline.arrRef spec2 4) : S512x8.Idx → EReal) (ix2 p q) := by
  obtain ⟨a0, a1, b0, b1, c0, c1, d0, d1, e0, e1, f0, f1, g0, g1, h0, h1, i0, i1, j0, j1, k0, k1, l0, l1⟩ := block_indices t
  show (V c (Pipeline.arrRef spec2 4) : S512x8.Idx → EReal) (((cfg2.win 4).blk t).view.emb (ix2 p q)) = _
  refine congrArg (V c (Pipeline.arrRef spec2 4) : S512x8.Idx → EReal) (funext fun a => Fin.ext ?_)
  match a with
  | ⟨0, _⟩ => show win2_4.index t (0 : Fin 2) * 512 + 1 * p.val = p.val; omega
  | ⟨1, _⟩ => show win2_4.index t (1 : Fin 2) * 8 + 1 * q.val = q.val; omega

theorem whole_block5 (c : Dev nD) (t : Fin cfg2.N) (p : Fin 1) (q : Fin 8) :
    (iblk2 V c 5 t : Vec Ideal S1x8 .f32) (ix2 p q) = (V c (Pipeline.arrRef spec2 5) : S1x8.Idx → EReal) (ix2 p q) := by
  obtain ⟨a0, a1, b0, b1, c0, c1, d0, d1, e0, e1, f0, f1, g0, g1, h0, h1, i0, i1, j0, j1, k0, k1, l0, l1⟩ := block_indices t
  show (V c (Pipeline.arrRef spec2 5) : S1x8.Idx → EReal) (((cfg2.win 5).blk t).view.emb (ix2 p q)) = _
  refine congrArg (V c (Pipeline.arrRef spec2 5) : S1x8.Idx → EReal) (funext fun a => Fin.ext ?_)
  match a with
  | ⟨0, _⟩ => show win2_5.index t (0 : Fin 2) * 1 + 1 * p.val = p.val; omega
  | ⟨1, _⟩ => show win2_5.index t (1 : Fin 2) * 8 + 1 * q.val = q.val; omega

theorem whole_block6 (c : Dev nD) (t : Fin cfg2.N) (p : Fin 8) (q : Fin 512) :
    (iblk2 V c 6 t : Vec Ideal S8x512 .f32) (ix2 p q) = (V c (Pipeline.arrRef spec2 6) : S8x512.Idx → EReal) (ix2 p q) := by
  obtain ⟨a0, a1, b0, b1, c0, c1, d0, d1, e0, e1, f0, f1, g0, g1, h0, h1, i0, i1, j0, j1, k0, k1, l0, l1⟩ := block_indices t
  show (V c (Pipeline.arrRef spec2 6) : S8x512.Idx → EReal) (((cfg2.win 6).blk t).view.emb (ix2 p q)) = _
  refine congrArg (V c (Pipeline.arrRef spec2 6) : S8x512.Idx → EReal) (funext fun a => Fin.ext ?_)
  match a with
  | ⟨0, _⟩ => show win2_6.index t (0 : Fin 2) * 8 + 1 * p.val = p.val; omega
  | ⟨1, _⟩ => show win2_6.index t (1 : Fin 2) * 512 + 1 * q.val = q.val; omega

theorem whole_block7 (c : Dev nD) (t : Fin cfg2.N) (p : Fin 1) (q : Fin 512) :
    (iblk2 V c 7 t : Vec Ideal S1x512 .f32) (ix2 p q) = (V c (Pipeline.arrRef spec2 7) : S1x512.Idx → EReal) (ix2 p q) := by
  obtain ⟨a0, a1, b0, b1, c0, c1, d0, d1, e0, e1, f0, f1, g0, g1, h0, h1, i0, i1, j0, j1, k0, k1, l0, l1⟩ := block_indices t
  show (V c (Pipeline.arrRef spec2 7) : S1x512.Idx → EReal) (((cfg2.win 7).blk t).view.emb (ix2 p q)) = _
  refine congrArg (V c (Pipeline.arrRef spec2 7) : S1x512.Idx → EReal) (funext fun a => Fin.ext ?_)
  match a with
  | ⟨0, _⟩ => show win2_7.index t (0 : Fin 2) * 1 + 1 * p.val = p.val; omega
  | ⟨1, _⟩ => show win2_7.index t (1 : Fin 2) * 512 + 1 * q.val = q.val; omega

theorem whole_block8 (c : Dev nD) (t : Fin cfg2.N) (p : Fin 1) (q : Fin 512) :
    (iblk2 V c 8 t : Vec Ideal S1x512 .f32) (ix2 p q) = (V c (Pipeline.arrRef spec2 8) : S1x512.Idx → EReal) (ix2 p q) := by
  obtain ⟨a0, a1, b0, b1, c0, c1, d0, d1, e0, e1, f0, f1, g0, g1, h0, h1, i0, i1, j0, j1, k0, k1, l0, l1⟩ := block_indices t
  show (V c (Pipeline.arrRef spec2 8) : S1x512.Idx → EReal) (((cfg2.win 8).blk t).view.emb (ix2 p q)) = _
  refine congrArg (V c (Pipeline.arrRef spec2 8) : S1x512.Idx → EReal) (funext fun a => Fin.ext ?_)
  match a with
  | ⟨0, _⟩ => show win2_8.index t (0 : Fin 2) * 1 + 1 * p.val = p.val; omega
  | ⟨1, _⟩ => show win2_8.index t (1 : Fin 2) * 512 + 1 * q.val = q.val; omega

theorem whole_block9 (c : Dev nD) (t : Fin cfg2.N) (p : Fin 512) (q : Fin 256) :
    (iblk2 V c 9 t : Vec Ideal S512x256 .f32) (ix2 p q) = (V c (Pipeline.arrRef spec2 9) : S512x256.Idx → EReal) (ix2 p q) := by
  obtain ⟨a0, a1, b0, b1, c0, c1, d0, d1, e0, e1, f0, f1, g0, g1, h0, h1, i0, i1, j0, j1, k0, k1, l0, l1⟩ := block_indices t
  show (V c (Pipeline.arrRef spec2 9) : S512x256.Idx → EReal) (((cfg2.win 9).blk t).view.emb (ix2 p q)) = _
  refine congrArg (V c (Pipeline.arrRef spec2 9) : S512x256.Idx → EReal) (funext fun a => Fin.ext ?_)
  match a with
  | ⟨0, _⟩ => show win2_9.index t (0 : Fin 2) * 512 + 1 * p.val = p.val; omega
  | ⟨1, _⟩ => show win2_9.index t (1 : Fin 2) * 256 + 1 * q.val = q.val; omega

theorem whole_block10 (c : Dev nD) (t : Fin cfg2.N) (p : Fin 1) (q : Fin 256) :
    (iblk2 V c 10 t : Vec Ideal S1x256 .f32) (ix2 p q) = (V c (Pipeline.arrRef spec2 10) : S1x256.Idx → EReal) (ix2 p q) := by
  obtain ⟨a0, a1, b0, b1, c0, c1, d0, d1, e0, e1, f0, f1, g0, g1, h0, h1, i0, i1, j0, j1, k0, k1, l0, l1⟩ := block_indices t
  show (V c (Pipeline.arrRef spec2 10) : S1x256.Idx → EReal) (((cfg2.win 10).blk t).view.emb (ix2 p q)) = _
  refine congrArg (V c (Pipeline.arrRef spec2 10) : S1x256.Idx → EReal) (funext fun a => Fin.ext ?_)
  match a with
  | ⟨0, _⟩ => show win2_10.index t (0 : Fin 2) * 1 + 1 * p.val = p.val; omega
  | ⟨1, _⟩ => show win2_10.index t (1 : Fin 2) * 256 + 1 * q.val = q.val; omega

end Cert.KernelIdeal.Reg2

end
-- ==== Proof.Reg2.lean ====
/-
  The output array of the last region, row by row.

  The region walks 50 points; point `t` reads block `t` (1000 rows) of the rows, of the neighbour sums and of the
  reciprocal counts, reads the weight arrays whole, and writes block `t` of the output. Entry `(p, o)` of what it
  writes is the projected convolution layer of row `p` of the three row-indexed blocks, and that row is row
  `1000 t + p` of the arrays; so what point `t` writes back is block `t` of ONE function of the input arrays, the
  output rows. The 50 blocks cover the array (row `n` lies in block `n / 1000`), so the array ends holding the
  output rows.
-/
import proofs.«116288_j6914897347185_2_alg».proof.Proof.Gen.KernelIdeal.Frame
import proofs.«116288_j6914897347185_2_alg».proof.Proof.Reg2Pay
import proofs.«116288_j6914897347185_2_alg».proof.Proof.Reg2Blk
import Idealize.ShloMosaic.Lib.Pipeline.Value

set_option maxRecDepth 16384

noncomputable section

open scoped BigOperators

namespace Cert.KernelIdeal.Reg2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The whole-block rectangle's offsets are zero on both axes. -/
theorem hz : (![0, 0] : Fin 2 → Nat) = fun _ => 0 := funext fun a => by fin_cases a <;> rfl

/-- The rows of the network's output as the region's input arrays determine them. -/
abbrev outRows (c : Dev nD) : S50000x256.Idx → EReal := fun i =>
  Cert.Rows.proj
    (Cert.Rows.conv (fun k => (V c (Pipeline.arrRef spec2 0) : S50000x512.Idx → EReal) (ix2 (i 0) k))
      (fun k => (V c (Pipeline.arrRef spec2 1) : S50000x512.Idx → EReal) (ix2 (i 0) k))
      ((V c (Pipeline.arrRef spec2 2) : S50000x1.Idx → EReal) (ix2 (i 0) 0))
      (fun k g => (V c (Pipeline.arrRef spec2 3) : S512x8.Idx → EReal) (ix2 k g))
      (fun k g => (V c (Pipeline.arrRef spec2 4) : S512x8.Idx → EReal) (ix2 k g))
      (fun g => (V c (Pipeline.arrRef spec2 5) : S1x8.Idx → EReal) (ix2 0 g))
      (fun g j => (V c (Pipeline.arrRef spec2 6) : S8x512.Idx → EReal) (ix2 g j))
      (fun j => (V c (Pipeline.arrRef spec2 7) : S1x512.Idx → EReal) (ix2 0 j))
      (fun j => (V c (Pipeline.arrRef spec2 8) : S1x512.Idx → EReal) (ix2 0 j)))
    (fun j o => (V c (Pipeline.arrRef spec2 9) : S512x256.Idx → EReal) (ix2 j o))
    (fun o => (V c (Pipeline.arrRef spec2 10) : S1x256.Idx → EReal) (ix2 0 o)) (i 1)

/-- The output row function depends only on the values of its arguments. -/
theorem proj_conv_congr {h h' s s' : Fin 512 → EReal} {ic ic' : EReal} {Wx Wx' Wm Wm' : Fin 512 → Fin 8 → EReal}
    {tb tb' : Fin 8 → EReal} {R R' : Fin 8 → Fin 512 → EReal} {g g' be be' : Fin 512 → EReal}
    {W W' : Fin 512 → Fin 256 → EReal} {b b' : Fin 256 → EReal} {o o' : Fin 256}
    (e0 : ∀ k, h k = h' k) (e1 : ∀ k, s k = s' k) (e2 : ic = ic') (e3 : ∀ k c, Wx k c = Wx' k c)
    (e4 : ∀ k c, Wm k c = Wm' k c) (e5 : ∀ c, tb c = tb' c) (e6 : ∀ c j, R c j = R' c j) (e7 : ∀ j, g j = g' j)
    (e8 : ∀ j, be j = be' j) (e9 : ∀ j o, W j o = W' j o) (e10 : ∀ o, b o = b' o) (eo : o = o') :
    Cert.Rows.proj (Cert.Rows.conv h s ic Wx Wm tb R g be) W b o
      = Cert.Rows.proj (Cert.Rows.conv h' s' ic' Wx' Wm' tb' R' g' be') W' b' o' := by
  obtain rfl : h = h' := funext e0
  obtain rfl : s = s' := funext e1
  obtain rfl : Wx = Wx' := funext fun k => funext (e3 k)
  obtain rfl : Wm = Wm' := funext fun k => funext (e4 k)
  obtain rfl : tb = tb' := funext e5
  obtain rfl : R = R' := funext fun c => funext (e6 c)
  obtain rfl : g = g' := funext e7
  obtain rfl : be = be' := funext e8
  obtain rfl : W = W' := funext fun j => funext (e9 j)
  obtain rfl : b = b' := funext e10
  subst e2 eo
  rfl

/-- A block's entry `y`, as the staging buffer's entry at `y`'s two coordinates. -/
theorem cut_apply (t : Fin cfg2.N) (X : Vec Ideal S1000x256 .f32) (y : ((cfg2.win 11).xblock (grid2.coords t)).Idx)
    (h0 : (y 0).val < 1000) (h1 : (y 1).val < 256) :
    (cfg2.win 11).cut (grid2.coords t) X y = X (ix2 (⟨(y 0).val, h0⟩ : Fin 1000) (⟨(y 1).val, h1⟩ : Fin 256)) :=
  congrArg X (funext fun a => by match a with | ⟨0, _⟩ => rfl | ⟨1, _⟩ => rfl)

/-- WHAT POINT `t` WRITES BACK is block `t` of the output rows: the block's entry `(p, o)` is the projected
    convolution layer of row `p` of the input blocks, which is row `1000 t + p` of the input arrays. -/
theorem block_written (c : Dev nD) (t : Fin cfg2.N) :
    (dat2 (F := Ideal) V c).flushed 11 t = ((cfg2.win 11).blk t).view.read (Elt Ideal) (outRows V c) := by
  show (cfg2.win 11).cut (grid2.coords t) ((dat2 V c).after 11 t) = _
  rw [after2_11]
  unfold out2_11
  rw [View.canon_unit_zero hz]
  simp only [View.ld_unit_zero (S := S1000x512) hz, View.ld_unit_zero (S := S1000x1) hz, View.ld_unit_zero (S := S512x8) hz,
    View.ld_unit_zero (S := S1x8) hz, View.ld_unit_zero (S := S8x512) hz, View.ld_unit_zero (S := S1x512) hz,
    View.ld_unit_zero (S := S512x256) hz, View.ld_unit_zero (S := S1x256) hz]
  funext y
  have hy0 : (y 0).val < 1000 := (y 0).isLt
  have hy1 : (y 1).val < 256 := (y 1).isLt
  refine (cut_apply t _ y hy0 hy1).trans ?_
  refine (block_apply (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) ⟨(y 0).val, hy0⟩ ⟨(y 1).val, hy1⟩).trans ?_
  obtain ⟨a0, a1, b0, b1, c0, c1, d0, d1, e0, e1, f0, f1, g0, g1, h0, h1, i0, i1, j0, j1, k0, k1, l0, l1⟩ := block_indices t
  have hi0 : ((((cfg2.win 11).blk t).view.emb y) 0).val = t.val * 1000 + (y 0).val := by
    show win2_11.index t (0 : Fin 2) * 1000 + 1 * (y 0).val = _; omega
  have hi1 : ((((cfg2.win 11).blk t).view.emb y) 1).val = (y 1).val := by
    show win2_11.index t (1 : Fin 2) * 256 + 1 * (y 1).val = _; omega
  show _ = outRows V c (((cfg2.win 11).blk t).view.emb y)
  exact proj_conv_congr (fun k => rows_block0 V c t _ k _ hi0) (fun k => rows_block1 V c t _ k _ hi0)
    (rows_block2 V c t _ 0 _ hi0) (fun k g => whole_block3 V c t k g) (fun k g => whole_block4 V c t k g)
    (fun g => whole_block5 V c t 0 g) (fun g j => whole_block6 V c t g j) (fun j => whole_block7 V c t 0 j)
    (fun j => whole_block8 V c t 0 j) (fun j o => whole_block9 V c t j o) (fun o => whole_block10 V c t 0 o)
    (Fin.ext hi1.symm)

/-- An index of the output array lies in point `t`'s block iff each of its coordinates lies in the block's range
    on that axis. -/
theorem mem_block (t : Fin cfg2.N) (i : S50000x256.Idx) :
    i ∈ ((cfg2.win 11).blk t).view.set ↔ ∀ a : Fin 2, win2_11.index t a * S1000x256.size a ≤ (i a).val
      ∧ (i a).val < win2_11.index t a * S1000x256.size a + S1000x256.size a := by
  show i ∈ ((View.whole main_v60).slice (win2_11.rect t)).set ↔ _
  rw [View.set_slice_whole, Rect.mem_set_unit]
  exact Iff.rfl

/-- THE BLOCKS COVER THE ARRAY: row `n` of the output lies in the block of point `n / 1000`, and every point writes
    its block back. -/
theorem covered (i : S50000x256.Idx) :
    ∃ t : Fin cfg2.N, (cfg2.win 11).flush t = true ∧ i ∈ ((cfg2.win 11).blk t).view.set := by
  have hi0 : (i 0).val < 50000 := (i 0).isLt
  have hi1 : (i 1).val < 256 := (i 1).isLt
  obtain ⟨t, ht⟩ : ∃ t : Fin cfg2.N, t.val = (i 0).val / 1000 :=
    ⟨⟨(i 0).val / 1000, by show (i 0).val / 1000 < grid2.N; rw [N_2]; omega⟩, rfl⟩
  obtain ⟨a0, a1, b0, b1, c0, c1, d0, d1, e0, e1, f0, f1, g0, g1, h0, h1, i0, i1, j0, j1, k0, k1, l0, l1⟩ := block_indices t
  refine ⟨t, flush2_11 t, ?_⟩
  rw [mem_block]
  intro a
  match a with
  | ⟨0, _⟩ =>
    show win2_11.index t (0 : Fin 2) * 1000 ≤ (i 0).val ∧ (i 0).val < win2_11.index t (0 : Fin 2) * 1000 + 1000
    omega
  | ⟨1, _⟩ =>
    show win2_11.index t (1 : Fin 2) * 256 ≤ (i 1).val ∧ (i 1).val < win2_11.index t (1 : Fin 2) * 256 + 256
    omega

/-- THE OUTPUT ARRAY after the region is the output rows of the region's input arrays. -/
theorem final_rows (c : Dev nD) : (dat2 (F := Ideal) V c).arrAt 11 cfg2.N = outRows V c :=
  (dat2 V c).arrAt_eq_of_cover 11 (outRows V c) (fun t _ => block_written V c t) covered

set_option maxHeartbeats 1000000 in
/-- The same with the row function written out: row `i 0` of the output, at feature `i 1`, is the projected
    convolution layer of row `i 0` of the rows, the neighbour sums and the reciprocal counts. -/
theorem final (c : Dev nD) :
    (dat2 (F := Ideal) V c).arrAt 11 cfg2.N = fun i =>
    Cert.Rows.proj
      (Cert.Rows.conv (fun k => (V c (Pipeline.arrRef spec2 0) : S50000x512.Idx → EReal) (ix2 (i 0) k))
        (fun k => (V c (Pipeline.arrRef spec2 1) : S50000x512.Idx → EReal) (ix2 (i 0) k))
        ((V c (Pipeline.arrRef spec2 2) : S50000x1.Idx → EReal) (ix2 (i 0) 0))
        (fun k g => (V c (Pipeline.arrRef spec2 3) : S512x8.Idx → EReal) (ix2 k g))
        (fun k g => (V c (Pipeline.arrRef spec2 4) : S512x8.Idx → EReal) (ix2 k g))
        (fun g => (V c (Pipeline.arrRef spec2 5) : S1x8.Idx → EReal) (ix2 0 g))
        (fun g j => (V c (Pipeline.arrRef spec2 6) : S8x512.Idx → EReal) (ix2 g j))
        (fun j => (V c (Pipeline.arrRef spec2 7) : S1x512.Idx → EReal) (ix2 0 j))
        (fun j => (V c (Pipeline.arrRef spec2 8) : S1x512.Idx → EReal) (ix2 0 j)))
      (fun j o => (V c (Pipeline.arrRef spec2 9) : S512x256.Idx → EReal) (ix2 j o))
      (fun o => (V c (Pipeline.arrRef spec2 10) : S1x256.Idx → EReal) (ix2 0 o)) (i 1) :=
  final_rows V c

end Cert.KernelIdeal.Reg2

end
-- ==== Proof.KDefs.lean ====
/-
  The values the idealized kernel computes on the host between its three regions.

  The edge list read off the [2, 400000] integer array (sources, destinations, the destinations with self loops sent
  to the node count, where nothing lands, the sources with negative entries wrapped), the neighbour sum of a row
  array (gather the source rows, add each into its redirected destination row, add the row itself), the neighbour
  count and its reciprocal, the block of each feature by the floor-division idiom, and the 0/1 matrix of the feature
  blocks: each as a function of what it is computed from.
-/
import proofs.«116288_j6914897347185_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.KStages

open Idealize.ShloMosaic Idealize.ShloMosaic.TcCoe Idealize.ShloMosaic.Tactic Idealize.ShloMosaic.ValueIdx
open Idealize.SL Idealize.SL.Sem Idealize.ShloMosaic.StableHlo
open Cert.KernelIdeal Cert.KernelIdeal.Gen

/-- The edges' source nodes. -/
def srcK (e : IVec S2x400000 32) : IVec S400000 32 :=
  shapeCast S400000 (extractStridedSlice S1x400000 ![0, 0] e slices_S2x400000_S1x400000_0_0) shapeCasts_S1x400000_S400000

/-- The edges' destination nodes. -/
def dstK (e : IVec S2x400000 32) : IVec S400000 32 :=
  shapeCast S400000 (extractStridedSlice S1x400000 ![1, 0] e slices_S2x400000_S1x400000_1_0) shapeCasts_S1x400000_S400000

/-- A [400000] integer vector as a [400000, 1] index table. -/
def tableK {w : Nat} (v : IVec S400000 w) : IVec S400000x1 w :=
  broadcastInDim S400000x1 ![0] bcast_S400000_S400000x1_0 v

/-- The destinations with the self loops sent to the node count. -/
def dstEffK (mask : IVec S400000 1) (dst : IVec S400000 32) (n : IVec S_ 32) : IVec S400000 32 :=
  select mask dst (broadcastInDim S400000 ![] bcast_S_S400000 (id n))

/-- The sources with negative entries wrapped by the node count, as an index table. -/
def srcTableK (src : IVec S400000 32) : IVec S400000x1 32 :=
  tableK (select (cmpi .slt src (broadcastInDim S400000 ![] bcast_S_S400000 (constantI S_ 32 0#32)))
    (addi src (broadcastInDim S400000 ![] bcast_S_S400000 (constantI S_ 32 50000#32))) src)

/-- The neighbour sum of a row array: the source rows added into the redirected destination rows, plus the row. -/
def nbrK (dstEff src : IVec S400000 32) (H : FVec Ideal S50000x512 .f32) : FVec Ideal S50000x512 .f32 :=
  addf
    (Host.scatterAdd scatter_S50000x512_S400000x1_S400000x512_1_0_0_1
      (broadcastInDim S50000x512 ![] bcast_S_S50000x512 (constant S_ .f32 0x00000000#32))
      (tableK dstEff)
      (Host.gather gather_S50000x512_S400000x1_S400000x512_1_0_n_n_0_1_1512 H (srcTableK src)))
    H

/-- The neighbour count: the mask added into the destinations, plus one. -/
def cntK (mask : IVec S400000 1) (dst : IVec S400000 32) : FVec Ideal S50000 .f32 :=
  addf
    (Host.scatterAdd scatter_S50000_S400000x1_S400000_n_0_0_1
      (broadcastInDim S50000 ![] bcast_S_S50000 (constant S_ .f32 0x00000000#32))
      (tableK dst)
      (uitofp .f32 mask))
    (broadcastInDim S50000 ![] bcast_S_S50000 (constant S_ .f32 0x3F800000#32))

/-- The reciprocal of the neighbour count, as a [50000, 1] column. -/
def recipK (mask : IVec S400000 1) (dst : IVec S400000 32) : FVec Ideal S50000x1 .f32 :=
  shapeCast S50000x1
    (Host.divf (broadcastInDim S50000 ![] bcast_S_S50000 (constant S_ .f32 0x3F800000#32)) (cntK mask dst))
    shapeCasts_S50000_S50000x1

/-- The block of each feature, by the floor-division idiom on 32-bit integers. -/
def blockK (io : IVec S512 32) (d : IVec S_ 32) : IVec S512 32 :=
  select
    (andi (cmpi .ne (signi io) (broadcastInDim S512 ![] bcast_S_S512 (signi (id d))))
      (cmpi .ne (Host.remsi io (broadcastInDim S512 ![] bcast_S_S512 (id d)))
        (broadcastInDim S512 ![] bcast_S_S512 (constantI S_ 32 0#32))))
    (subi (Host.divsi io (broadcastInDim S512 ![] bcast_S_S512 (id d)))
      (broadcastInDim S512 ![] bcast_S_S512 (constantI S_ 32 1#32)))
    (Host.divsi io (broadcastInDim S512 ![] bcast_S_S512 (id d)))

/-- The 0/1 matrix of the feature blocks. -/
def onehotK (blk : IVec S512 32) : FVec Ideal S8x512 .f32 :=
  uitofp .f32 (cmpi .eq
    (broadcastInDim S8x512 ![0, 1] bcast_S1x512_S8x512_0_1 (broadcastInDim S1x512 ![1] bcast_S512_S1x512_1 blk))
    (broadcastInDim S8x512 ![0, 1] bcast_S8x1_S8x512_0_1 (broadcastInDim S8x1 ![0] bcast_S8_S8x1_0 (iotaInDim S8 32 0))))

end Cert.KernelIdeal.KStages

end
-- ==== Proof.KStages.lean ====
/-
  The host side of the idealized kernel, stretch by stretch.

  A stretch of host operations between two kernel regions, started from ANY buffer contents V, leaves in each buffer
  a later region or stretch reads the value named for it: a reshape of an argument vector into a one-row array, the
  edge list's sources, destinations and mask, the redirected destinations, the reciprocal neighbour count, the two
  halves of the gate matrix, the 0/1 matrix of the feature blocks, the neighbour sum of the previous region's rows.
-/
import proofs.«116288_j6914897347185_2_alg».proof.Proof.Gen.KernelIdeal.Frame
import proofs.«116288_j6914897347185_2_alg».proof.Proof.KDefs
import Idealize.ShloMosaic.Lib.ValueIdx
import Idealize.ShloMosaic.Lib.Pipeline.Value
import Idealize.ShloMosaic.Lib.StableHlo.Run

set_option maxRecDepth 16384

noncomputable section

namespace Cert.KernelIdeal.KStages

open Idealize.ShloMosaic Idealize.ShloMosaic.TcCoe Idealize.ShloMosaic.Tactic Idealize.ShloMosaic.ValueIdx
open Idealize.SL Idealize.SL.Sem Idealize.ShloMosaic.StableHlo
open Cert.KernelIdeal Cert.KernelIdeal.Gen

variable (V : Valuation τ sig (Elt Ideal))

/-! ## Before the first region -/

theorem s0_v0 : StableHlo.after (hostOps0 (F := Ideal)) V (Proc.devRef .tc main_v0)
    = shapeCast S1x512 (V (Proc.devRef .tc main_arg3)) shapeCasts_S512_S1x512 := by after_results; try rfl
theorem s0_v1 : StableHlo.after (hostOps0 (F := Ideal)) V (Proc.devRef .tc main_v1)
    = shapeCast S1x512 (V (Proc.devRef .tc main_arg4)) shapeCasts_S512_S1x512 := by after_results; try rfl
theorem s0_v2 : StableHlo.after (hostOps0 (F := Ideal)) V (Proc.devRef .tc main_v2)
    = shapeCast S1x512 (V (Proc.devRef .tc main_arg5)) shapeCasts_S512_S1x512 := by after_results; try rfl

/-! ## Between the first and the second region -/

theorem s1_v5 : StableHlo.after (hostOps1 (F := Ideal)) V (Proc.devRef .tc main_v5) = srcK (V (Proc.devRef .tc main_arg1)) := by
  after_results; try rfl
theorem s1_v7 : StableHlo.after (hostOps1 (F := Ideal)) V (Proc.devRef .tc main_v7) = dstK (V (Proc.devRef .tc main_arg1)) := by
  after_results; try rfl
theorem s1_v8 : StableHlo.after (hostOps1 (F := Ideal)) V (Proc.devRef .tc main_v8)
    = cmpi .ne (srcK (V (Proc.devRef .tc main_arg1))) (dstK (V (Proc.devRef .tc main_arg1))) := by
  after_results; try rfl
theorem s1_c : StableHlo.after (hostOps1 (F := Ideal)) V (Proc.devRef .tc main_c) = constantI S_ 32 50000#32 := by
  after_results; try rfl

theorem s11_v9 : StableHlo.after (hostOps1_1 (F := Ideal)) V (Proc.devRef .tc main_v9)
    = dstEffK (V (Proc.devRef .tc main_v8)) (V (Proc.devRef .tc main_v7)) (V (Proc.devRef .tc main_c)) := by
  after_results; try rfl

theorem s12_v18 : StableHlo.after (hostOps1_2 (F := Ideal)) V (Proc.devRef .tc main_v18)
    = recipK (V (Proc.devRef .tc main_v8)) (V (Proc.devRef .tc main_v7)) := by
  after_results; try rfl
theorem s12_v19 : StableHlo.after (hostOps1_2 (F := Ideal)) V (Proc.devRef .tc main_v19)
    = extractStridedSlice S512x8 ![0, 0] (V (Proc.devRef .tc main_arg6)) slices_S1024x8_S512x8_0_0 := by
  after_results; try rfl
theorem s12_v20 : StableHlo.after (hostOps1_2 (F := Ideal)) V (Proc.devRef .tc main_v20)
    = extractStridedSlice S512x8 ![512, 0] (V (Proc.devRef .tc main_arg6)) slices_S1024x8_S512x8_512_0 := by
  after_results; try rfl
theorem s12_v21 : StableHlo.after (hostOps1_2 (F := Ideal)) V (Proc.devRef .tc main_v21) = iotaInDim S512 32 0 := by
  after_results; try rfl
theorem s12_c2 : StableHlo.after (hostOps1_2 (F := Ideal)) V (Proc.devRef .tc main_c_2) = constantI S_ 32 64#32 := by
  after_results; try rfl

set_option maxHeartbeats 1000000 in
theorem s13_v22 : StableHlo.after (hostOps1_3 (F := Ideal)) V (Proc.devRef .tc main_v22)
    = blockK (V (Proc.devRef .tc main_v21)) (V (Proc.devRef .tc main_c_2)) := by
  after_results_simp
  rfl

theorem s14_v29 : StableHlo.after (hostOps1_4 (F := Ideal)) V (Proc.devRef .tc main_v29)
    = onehotK (V (Proc.devRef .tc main_v22)) := by
  after_results; try rfl
set_option maxHeartbeats 1000000 in
theorem s14_v40 : StableHlo.after (hostOps1_4 (F := Ideal)) V (Proc.devRef .tc main_v40)
    = nbrK (V (Proc.devRef .tc main_v9)) (V (Proc.devRef .tc main_v5)) (V (Proc.devRef .tc main_v3)) := by
  unfold nbrK srcTableK tableK
  after_results_simp
theorem s14_v41 : StableHlo.after (hostOps1_4 (F := Ideal)) V (Proc.devRef .tc main_v41)
    = shapeCast S1x8 (V (Proc.devRef .tc main_arg7)) shapeCasts_S8_S1x8 := by after_results; try rfl
theorem s14_v42 : StableHlo.after (hostOps1_4 (F := Ideal)) V (Proc.devRef .tc main_v42)
    = shapeCast S1x512 (V (Proc.devRef .tc main_arg8)) shapeCasts_S512_S1x512 := by after_results; try rfl
theorem s14_v43 : StableHlo.after (hostOps1_4 (F := Ideal)) V (Proc.devRef .tc main_v43)
    = shapeCast S1x512 (V (Proc.devRef .tc main_arg9)) shapeCasts_S512_S1x512 := by after_results; try rfl

/-! ## Between the second and the third region -/

set_option maxHeartbeats 1000000 in
theorem s2_v55 : StableHlo.after (hostOps2 (F := Ideal)) V (Proc.devRef .tc main_v55)
    = nbrK (V (Proc.devRef .tc main_v9)) (V (Proc.devRef .tc main_v5)) (V (Proc.devRef .tc main_v44)) := by
  unfold nbrK srcTableK tableK
  after_results_simp
theorem s2_v56 : StableHlo.after (hostOps2 (F := Ideal)) V (Proc.devRef .tc main_v56)
    = shapeCast S1x8 (V (Proc.devRef .tc main_arg7)) shapeCasts_S8_S1x8 := by after_results; try rfl
theorem s2_v57 : StableHlo.after (hostOps2 (F := Ideal)) V (Proc.devRef .tc main_v57)
    = shapeCast S1x512 (V (Proc.devRef .tc main_arg10)) shapeCasts_S512_S1x512 := by after_results; try rfl
theorem s2_v58 : StableHlo.after (hostOps2 (F := Ideal)) V (Proc.devRef .tc main_v58)
    = shapeCast S1x512 (V (Proc.devRef .tc main_arg11)) shapeCasts_S512_S1x512 := by after_results; try rfl
theorem s2_v59 : StableHlo.after (hostOps2 (F := Ideal)) V (Proc.devRef .tc main_v59)
    = shapeCast S1x256 (V (Proc.devRef .tc main_arg13)) shapeCasts_S256_S1x256 := by after_results; try rfl

end Cert.KernelIdeal.KStages

end
-- ==== Proof.KFold1.lean ====
/-
  The idealized kernel's host side, folded: what the buffers the first two regions read hold when the regions are
  entered, as functions of the launch memory.

  Between the launch and the second region the program reshapes argument vectors into one-row arrays, reads the
  edge list's sources and destinations off the [2, 400000] integer argument, marks the edges that are not self
  loops, sends the self loops' destinations to the node count, takes the reciprocal neighbour count, cuts the gate
  matrix in two, builds the 0/1 matrix of the feature blocks, and forms the neighbour sum of the first region's
  rows. Each stretch of host operations leaves its values in buffers that the later stretches and regions do not
  write, so a value is read where it was made and carried unchanged to where it is used; an argument is carried
  unchanged from the launch.
-/
import proofs.«116288_j6914897347185_2_alg».proof.Proof.Gen.KernelIdeal.Frame
import proofs.«116288_j6914897347185_2_alg».proof.Proof.KDefs
import proofs.«116288_j6914897347185_2_alg».proof.Proof.KStages
import Idealize.ShloMosaic.Lib.Pipeline.Value
import Idealize.ShloMosaic.Lib.StableHlo.Run

set_option maxRecDepth 16384

noncomputable section

namespace Cert.KernelIdeal.KFold

open Idealize.ShloMosaic Idealize.ShloMosaic.TcCoe Idealize.ShloMosaic.Tactic Idealize.ShloMosaic.ValueIdx
open Idealize.SL Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- A buffer that no operation of a stretch writes holds after the stretch what it held before. -/
macro "skip_ops" : tactic => `(tactic| (refine StableHlo.after_of_forall_not_mem _ _ (List.forall_iff_forall_mem.mp ?_); simp only [hostOps0, hostOps1, hostOps1_1, hostOps1_2, hostOps1_3, hostOps1_4, hostOps2, List.Forall, StableHlo.nullary_writes, StableHlo.unary_writes, StableHlo.binary_writes, StableHlo.ternary_writes, StableHlo.quaternary_writes, StableHlo.reshape_writes, StableHlo.binaryIndexed_writes, Finset.mem_singleton]; (repeat' apply And.intro); all_goals exact StableHlo.devRef_ne_of_ne (by decide)))

/-! ## The edge list and what is read off it -/

/-- The edge list as launched: the [2, 400000] integer argument. -/
abbrev edges : IVec S2x400000 32 := m ((c : Thread nD τ).loc main_arg1)
/-- The edges that are not self loops. -/
abbrev mask : IVec S400000 1 := cmpi .ne (KStages.srcK (edges m c)) (KStages.dstK (edges m c))
/-- The destinations, the self loops' sent to the node count. -/
abbrev dstEff : IVec S400000 32 := KStages.dstEffK (mask m c) (KStages.dstK (edges m c)) (constantI S_ 32 50000#32)

/-! ## Before the first region -/

theorem V1_arg0 : V1 m ρ c main_arg0 = m ((c : Thread nD τ).loc main_arg0) :=
  (by skip_ops : W1 m ρ c (Proc.devRef .tc main_arg0) = W0 m ρ c (Proc.devRef .tc main_arg0)).trans rfl
theorem V1_arg2 : V1 m ρ c main_arg2 = m ((c : Thread nD τ).loc main_arg2) :=
  (by skip_ops : W1 m ρ c (Proc.devRef .tc main_arg2) = W0 m ρ c (Proc.devRef .tc main_arg2)).trans rfl
theorem V1_v0 : V1 m ρ c main_v0 = shapeCast S1x512 (m ((c : Thread nD τ).loc main_arg3)) shapeCasts_S512_S1x512 :=
  KStages.s0_v0 (W0 m ρ c)
theorem V1_v1 : V1 m ρ c main_v1 = shapeCast S1x512 (m ((c : Thread nD τ).loc main_arg4)) shapeCasts_S512_S1x512 :=
  KStages.s0_v1 (W0 m ρ c)
theorem V1_v2 : V1 m ρ c main_v2 = shapeCast S1x512 (m ((c : Thread nD τ).loc main_arg5)) shapeCasts_S512_S1x512 :=
  KStages.s0_v2 (W0 m ρ c)

/-! ## The arguments, carried from the launch -/

/-- An argument the first region does not stage, after the first region. -/
theorem W2_arg1 : W2 m ρ c (Proc.devRef .tc main_arg1) = edges m c :=
  (W2_of_ne m ρ c main_arg1 (by decide)).trans ((by skip_ops : W1 m ρ c (Proc.devRef .tc main_arg1) = W0 m ρ c (Proc.devRef .tc main_arg1)).trans rfl)
theorem W2_arg6 : W2 m ρ c (Proc.devRef .tc main_arg6) = m ((c : Thread nD τ).loc main_arg6) :=
  (W2_of_ne m ρ c main_arg6 (by decide)).trans ((by skip_ops : W1 m ρ c (Proc.devRef .tc main_arg6) = W0 m ρ c (Proc.devRef .tc main_arg6)).trans rfl)
theorem W2_arg7 : W2 m ρ c (Proc.devRef .tc main_arg7) = m ((c : Thread nD τ).loc main_arg7) :=
  (W2_of_ne m ρ c main_arg7 (by decide)).trans ((by skip_ops : W1 m ρ c (Proc.devRef .tc main_arg7) = W0 m ρ c (Proc.devRef .tc main_arg7)).trans rfl)
theorem W2_arg8 : W2 m ρ c (Proc.devRef .tc main_arg8) = m ((c : Thread nD τ).loc main_arg8) :=
  (W2_of_ne m ρ c main_arg8 (by decide)).trans ((by skip_ops : W1 m ρ c (Proc.devRef .tc main_arg8) = W0 m ρ c (Proc.devRef .tc main_arg8)).trans rfl)
theorem W2_arg9 : W2 m ρ c (Proc.devRef .tc main_arg9) = m ((c : Thread nD τ).loc main_arg9) :=
  (W2_of_ne m ρ c main_arg9 (by decide)).trans ((by skip_ops : W1 m ρ c (Proc.devRef .tc main_arg9) = W0 m ρ c (Proc.devRef .tc main_arg9)).trans rfl)
theorem W4_arg6 : W4 m ρ c (Proc.devRef .tc main_arg6) = m ((c : Thread nD τ).loc main_arg6) :=
  ((by skip_ops : W4 m ρ c (Proc.devRef .tc main_arg6) = W3 m ρ c (Proc.devRef .tc main_arg6))).trans (((by skip_ops : W3 m ρ c (Proc.devRef .tc main_arg6) = W2 m ρ c (Proc.devRef .tc main_arg6))).trans (W2_arg6 m ρ c))
theorem W6_arg7 : W6 m ρ c (Proc.devRef .tc main_arg7) = m ((c : Thread nD τ).loc main_arg7) :=
  ((by skip_ops : W6 m ρ c (Proc.devRef .tc main_arg7) = W5 m ρ c (Proc.devRef .tc main_arg7))).trans (((by skip_ops : W5 m ρ c (Proc.devRef .tc main_arg7) = W4 m ρ c (Proc.devRef .tc main_arg7))).trans (((by skip_ops : W4 m ρ c (Proc.devRef .tc main_arg7) = W3 m ρ c (Proc.devRef .tc main_arg7))).trans (((by skip_ops : W3 m ρ c (Proc.devRef .tc main_arg7) = W2 m ρ c (Proc.devRef .tc main_arg7))).trans (W2_arg7 m ρ c))))
theorem W6_arg8 : W6 m ρ c (Proc.devRef .tc main_arg8) = m ((c : Thread nD τ).loc main_arg8) :=
  ((by skip_ops : W6 m ρ c (Proc.devRef .tc main_arg8) = W5 m ρ c (Proc.devRef .tc main_arg8))).trans (((by skip_ops : W5 m ρ c (Proc.devRef .tc main_arg8) = W4 m ρ c (Proc.devRef .tc main_arg8))).trans (((by skip_ops : W4 m ρ c (Proc.devRef .tc main_arg8) = W3 m ρ c (Proc.devRef .tc main_arg8))).trans (((by skip_ops : W3 m ρ c (Proc.devRef .tc main_arg8) = W2 m ρ c (Proc.devRef .tc main_arg8))).trans (W2_arg8 m ρ c))))
theorem W6_arg9 : W6 m ρ c (Proc.devRef .tc main_arg9) = m ((c : Thread nD τ).loc main_arg9) :=
  ((by skip_ops : W6 m ρ c (Proc.devRef .tc main_arg9) = W5 m ρ c (Proc.devRef .tc main_arg9))).trans (((by skip_ops : W5 m ρ c (Proc.devRef .tc main_arg9) = W4 m ρ c (Proc.devRef .tc main_arg9))).trans (((by skip_ops : W4 m ρ c (Proc.devRef .tc main_arg9) = W3 m ρ c (Proc.devRef .tc main_arg9))).trans (((by skip_ops : W3 m ρ c (Proc.devRef .tc main_arg9) = W2 m ρ c (Proc.devRef .tc main_arg9))).trans (W2_arg9 m ρ c))))

/-! ## The edge list's values, where they are made and where they are used -/

theorem W3_v5 : W3 m ρ c (Proc.devRef .tc main_v5) = KStages.srcK (edges m c) :=
  (KStages.s1_v5 (W2 m ρ c)).trans (congrArg KStages.srcK (W2_arg1 m ρ c))
theorem W3_v7 : W3 m ρ c (Proc.devRef .tc main_v7) = KStages.dstK (edges m c) :=
  (KStages.s1_v7 (W2 m ρ c)).trans (congrArg KStages.dstK (W2_arg1 m ρ c))
theorem W3_v8 : W3 m ρ c (Proc.devRef .tc main_v8) = mask m c :=
  (KStages.s1_v8 (W2 m ρ c)).trans (congrArg (fun e => cmpi .ne (KStages.srcK e) (KStages.dstK e)) (W2_arg1 m ρ c))
theorem W3_c : W3 m ρ c (Proc.devRef .tc main_c) = constantI S_ 32 50000#32 :=
  KStages.s1_c (W2 m ρ c)
theorem W4_v9 : W4 m ρ c (Proc.devRef .tc main_v9) = dstEff m c :=
  (KStages.s11_v9 (W3 m ρ c)).trans (by rw [W3_v8 m ρ c, W3_v7 m ρ c, W3_c m ρ c])
/-- The redirected destinations, at the entry of the last stretch before the second region. -/
theorem W6_v9 : W6 m ρ c (Proc.devRef .tc main_v9) = dstEff m c :=
  ((by skip_ops : W6 m ρ c (Proc.devRef .tc main_v9) = W5 m ρ c (Proc.devRef .tc main_v9))).trans (((by skip_ops : W5 m ρ c (Proc.devRef .tc main_v9) = W4 m ρ c (Proc.devRef .tc main_v9))).trans (W4_v9 m ρ c))
/-- The sources, there. -/
theorem W6_v5 : W6 m ρ c (Proc.devRef .tc main_v5) = KStages.srcK (edges m c) :=
  ((by skip_ops : W6 m ρ c (Proc.devRef .tc main_v5) = W5 m ρ c (Proc.devRef .tc main_v5))).trans (((by skip_ops : W5 m ρ c (Proc.devRef .tc main_v5) = W4 m ρ c (Proc.devRef .tc main_v5))).trans (((by skip_ops : W4 m ρ c (Proc.devRef .tc main_v5) = W3 m ρ c (Proc.devRef .tc main_v5))).trans (W3_v5 m ρ c)))
theorem W4_v8 : W4 m ρ c (Proc.devRef .tc main_v8) = mask m c :=
  ((by skip_ops : W4 m ρ c (Proc.devRef .tc main_v8) = W3 m ρ c (Proc.devRef .tc main_v8))).trans (W3_v8 m ρ c)
theorem W4_v7 : W4 m ρ c (Proc.devRef .tc main_v7) = KStages.dstK (edges m c) :=
  ((by skip_ops : W4 m ρ c (Proc.devRef .tc main_v7) = W3 m ρ c (Proc.devRef .tc main_v7))).trans (W3_v7 m ρ c)

end Cert.KernelIdeal.KFold

end
-- ==== Proof.KFold1V7.lean ====
/-
  What the second region finds in the nine buffers it reads, as functions of the launch memory and of the first
  region's output.

  The second region reads the first region's output rows, their neighbour sum, the reciprocal neighbour counts, the
  two halves of the gate matrix, the gate bias as a one-row array, the 0/1 matrix of the feature blocks, and the
  normalisation's scale and shift as one-row arrays. Each is made by one stretch of host operations from values made
  earlier or from arguments, and no later stretch writes it.
-/
import proofs.«116288_j6914897347185_2_alg».proof.Proof.Gen.KernelIdeal.Frame
import proofs.«116288_j6914897347185_2_alg».proof.Proof.KDefs
import proofs.«116288_j6914897347185_2_alg».proof.Proof.KStages
import proofs.«116288_j6914897347185_2_alg».proof.Proof.KFold1
import Idealize.ShloMosaic.Lib.Pipeline.Value
import Idealize.ShloMosaic.Lib.StableHlo.Run

set_option maxRecDepth 16384

noncomputable section

namespace Cert.KernelIdeal.KFold

open Idealize.ShloMosaic Idealize.ShloMosaic.TcCoe Idealize.ShloMosaic.Tactic Idealize.ShloMosaic.ValueIdx
open Idealize.SL Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The rows: the first region's output array, which no host stretch before the second region writes. -/
theorem V7_v3 : V7 m ρ c main_v3 = (dat0 (V1 m ρ) c).arrAt 5 cfg0.N :=
  ((by skip_ops : W7 m ρ c (Proc.devRef .tc main_v3) = W6 m ρ c (Proc.devRef .tc main_v3))).trans (((by skip_ops : W6 m ρ c (Proc.devRef .tc main_v3) = W5 m ρ c (Proc.devRef .tc main_v3))).trans (((by skip_ops : W5 m ρ c (Proc.devRef .tc main_v3) = W4 m ρ c (Proc.devRef .tc main_v3))).trans (((by skip_ops : W4 m ρ c (Proc.devRef .tc main_v3) = W3 m ρ c (Proc.devRef .tc main_v3))).trans (((by skip_ops : W3 m ρ c (Proc.devRef .tc main_v3) = W2 m ρ c (Proc.devRef .tc main_v3))).trans (W2_arr m ρ c 5)))))

/-- The neighbour sums of those rows: the source rows added into the redirected destination rows, plus the rows. -/
theorem V7_v40 : V7 m ρ c main_v40 = KStages.nbrK (dstEff m c) (KStages.srcK (edges m c)) (V7 m ρ c main_v3) :=
  (KStages.s14_v40 (W6 m ρ c)).trans
    (congr (congr (congrArg KStages.nbrK (W6_v9 m ρ c)) (W6_v5 m ρ c))
      (by skip_ops : W7 m ρ c (Proc.devRef .tc main_v3) = W6 m ρ c (Proc.devRef .tc main_v3)).symm)

/-- The reciprocal neighbour counts. -/
theorem V7_v18 : V7 m ρ c main_v18 = KStages.recipK (mask m c) (KStages.dstK (edges m c)) :=
  ((by skip_ops : W7 m ρ c (Proc.devRef .tc main_v18) = W6 m ρ c (Proc.devRef .tc main_v18))).trans (((by skip_ops : W6 m ρ c (Proc.devRef .tc main_v18) = W5 m ρ c (Proc.devRef .tc main_v18))).trans ((KStages.s12_v18 (W4 m ρ c)).trans (congr (congrArg KStages.recipK (W4_v8 m ρ c)) (W4_v7 m ρ c))))

/-- The upper half of the gate matrix. -/
theorem V7_v19 : V7 m ρ c main_v19
    = extractStridedSlice S512x8 ![0, 0] (m ((c : Thread nD τ).loc main_arg6)) slices_S1024x8_S512x8_0_0 :=
  ((by skip_ops : W7 m ρ c (Proc.devRef .tc main_v19) = W6 m ρ c (Proc.devRef .tc main_v19))).trans (((by skip_ops : W6 m ρ c (Proc.devRef .tc main_v19) = W5 m ρ c (Proc.devRef .tc main_v19))).trans ((KStages.s12_v19 (W4 m ρ c)).trans (by rw [W4_arg6 m ρ c])))

/-- The lower half of the gate matrix. -/
theorem V7_v20 : V7 m ρ c main_v20
    = extractStridedSlice S512x8 ![512, 0] (m ((c : Thread nD τ).loc main_arg6)) slices_S1024x8_S512x8_512_0 :=
  ((by skip_ops : W7 m ρ c (Proc.devRef .tc main_v20) = W6 m ρ c (Proc.devRef .tc main_v20))).trans (((by skip_ops : W6 m ρ c (Proc.devRef .tc main_v20) = W5 m ρ c (Proc.devRef .tc main_v20))).trans ((KStages.s12_v20 (W4 m ρ c)).trans (by rw [W4_arg6 m ρ c])))

/-- The gate bias as a one-row array. -/
theorem V7_v41 : V7 m ρ c main_v41 = shapeCast S1x8 (m ((c : Thread nD τ).loc main_arg7)) shapeCasts_S8_S1x8 :=
  (KStages.s14_v41 (W6 m ρ c)).trans (by rw [W6_arg7 m ρ c])

theorem W5_v21 : W5 m ρ c (Proc.devRef .tc main_v21) = iotaInDim S512 32 0 := KStages.s12_v21 (W4 m ρ c)
theorem W5_c2 : W5 m ρ c (Proc.devRef .tc main_c_2) = constantI S_ 32 64#32 := KStages.s12_c2 (W4 m ρ c)
/-- The block of each feature. -/
theorem W6_v22 : W6 m ρ c (Proc.devRef .tc main_v22) = KStages.blockK (iotaInDim S512 32 0) (constantI S_ 32 64#32) :=
  (KStages.s13_v22 (W5 m ρ c)).trans (by rw [W5_v21 m ρ c, W5_c2 m ρ c])

/-- The 0/1 matrix of the feature blocks. -/
theorem V7_v29 : V7 m ρ c main_v29 = KStages.onehotK (KStages.blockK (iotaInDim S512 32 0) (constantI S_ 32 64#32)) :=
  (KStages.s14_v29 (W6 m ρ c)).trans (by rw [W6_v22 m ρ c])

/-- The normalisation's scale as a one-row array. -/
theorem V7_v42 : V7 m ρ c main_v42 = shapeCast S1x512 (m ((c : Thread nD τ).loc main_arg8)) shapeCasts_S512_S1x512 :=
  (KStages.s14_v42 (W6 m ρ c)).trans (by rw [W6_arg8 m ρ c])

/-- The normalisation's shift as a one-row array. -/
theorem V7_v43 : V7 m ρ c main_v43 = shapeCast S1x512 (m ((c : Thread nD τ).loc main_arg9)) shapeCasts_S512_S1x512 :=
  (KStages.s14_v43 (W6 m ρ c)).trans (by rw [W6_arg9 m ρ c])

end Cert.KernelIdeal.KFold

end
-- ==== Proof.KFold2.lean ====
/-
  What the buffers hold when the third region is entered, and the result buffer after it.

  The program's run is a fold through its segments: a stretch of host operations rewrites the buffers it writes and leaves
  the rest; a region leaves each of its arrays at what its pipeline leaves there (an input array as entered, an output
  array at the fold of its write-backs) and every other buffer as entered. Read at the third region's entry this gives:
  the second region's output buffer at the second region's final array; the neighbour-sum buffer at the neighbour sum of
  that array over the edge buffers written before the second region; the reciprocal count, the two halves of the gate
  matrix and the 0/1 block matrix as they were at the second region's entry; the gate bias, the second layer's scale
  and shift and the output bias as one-row views of the arguments' launch contents; the output matrix at its launch
  contents. After the third region the result buffer holds that region's final output array.
-/
import proofs.«116288_j6914897347185_2_alg».proof.Proof.Gen.KernelIdeal.Frame
import proofs.«116288_j6914897347185_2_alg».proof.Proof.KDefs
import proofs.«116288_j6914897347185_2_alg».proof.Proof.KStages
import Idealize.ShloMosaic.Lib.ValueIdx
import Idealize.ShloMosaic.Lib.Pipeline.Value
import Idealize.ShloMosaic.Lib.StableHlo.Run

set_option maxRecDepth 16384

noncomputable section

namespace Cert.KernelIdeal.KFold

open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-- A buffer none of a stretch's operations writes keeps its contents through the stretch. -/
macro "carry_ops" : tactic => `(tactic| (refine StableHlo.after_of_forall_not_mem _ _ (List.forall_iff_forall_mem.mp ?_); simp only [hostOps0, hostOps1, hostOps1_1, hostOps1_2, hostOps1_3, hostOps1_4, hostOps2, List.Forall, StableHlo.nullary_writes, StableHlo.unary_writes, StableHlo.binary_writes, StableHlo.ternary_writes, StableHlo.quaternary_writes, StableHlo.reshape_writes, StableHlo.binaryIndexed_writes, Finset.mem_singleton]; (repeat' apply And.intro); all_goals exact StableHlo.devRef_ne_of_ne (by decide)))

/-! ## The second region's result at the third region's entry -/

/-- The second region's output array is not written between the regions. -/
theorem W9_v44 : W9 (F := Ideal) m ρ c (Proc.devRef .tc main_v44) = W8 m ρ c (Proc.devRef .tc main_v44) := by carry_ops

/-- At the third region's entry the second region's output buffer holds the second region's final output array. -/
theorem V9_v44 : V9 (F := Ideal) m ρ c main_v44 = (dat1 (V7 m ρ) c).arrAt 9 cfg1.N :=
  (W9_v44 m ρ c).trans (W8_arr m ρ c 9)

/-! ## The edge buffers, written before the second region and untouched since -/

theorem W8_v9 : W8 (F := Ideal) m ρ c (Proc.devRef .tc main_v9) = W6 m ρ c (Proc.devRef .tc main_v9) :=
  (W8_of_ne m ρ c main_v9 (by decide)).trans (by carry_ops)
theorem W8_v5 : W8 (F := Ideal) m ρ c (Proc.devRef .tc main_v5) = W6 m ρ c (Proc.devRef .tc main_v5) :=
  (W8_of_ne m ρ c main_v5 (by decide)).trans (by carry_ops)

/-- The neighbour sum of the second region's rows: the stretch between the regions gathers the source rows of the
    second region's output, adds each into its redirected destination row and adds the row itself. -/
theorem V9_v55 : V9 (F := Ideal) m ρ c main_v55
    = KStages.nbrK (W6 m ρ c (Proc.devRef .tc main_v9)) (W6 m ρ c (Proc.devRef .tc main_v5)) (V9 m ρ c main_v44) := by
  refine (KStages.s2_v55 (W8 m ρ c)).trans ?_
  rw [W8_v9 m ρ c, W8_v5 m ρ c, ← W9_v44 m ρ c]

/-! ## The second region's input windows, read again by the third region -/

/-- An input window of the second region holds after the region what it held before, and the stretch between the regions
    does not write it. -/
theorem V9_v18 : V9 (F := Ideal) m ρ c main_v18 = V7 m ρ c main_v18 :=
  (show W9 m ρ c (Proc.devRef .tc main_v18) = W8 m ρ c (Proc.devRef .tc main_v18) by carry_ops).trans
    ((W8_arr m ρ c 2).trans (((dat1 (V7 m ρ) c).arrAt_in 2 rfl _).trans (A_eq1 (V7 m ρ) c 2)))
theorem V9_v19 : V9 (F := Ideal) m ρ c main_v19 = V7 m ρ c main_v19 :=
  (show W9 m ρ c (Proc.devRef .tc main_v19) = W8 m ρ c (Proc.devRef .tc main_v19) by carry_ops).trans
    ((W8_arr m ρ c 3).trans (((dat1 (V7 m ρ) c).arrAt_in 3 rfl _).trans (A_eq1 (V7 m ρ) c 3)))
theorem V9_v20 : V9 (F := Ideal) m ρ c main_v20 = V7 m ρ c main_v20 :=
  (show W9 m ρ c (Proc.devRef .tc main_v20) = W8 m ρ c (Proc.devRef .tc main_v20) by carry_ops).trans
    ((W8_arr m ρ c 4).trans (((dat1 (V7 m ρ) c).arrAt_in 4 rfl _).trans (A_eq1 (V7 m ρ) c 4)))
theorem V9_v29 : V9 (F := Ideal) m ρ c main_v29 = V7 m ρ c main_v29 :=
  (show W9 m ρ c (Proc.devRef .tc main_v29) = W8 m ρ c (Proc.devRef .tc main_v29) by carry_ops).trans
    ((W8_arr m ρ c 6).trans (((dat1 (V7 m ρ) c).arrAt_in 6 rfl _).trans (A_eq1 (V7 m ρ) c 6)))

/-! ## The arguments the last stretch reshapes -/

/-- An argument that is no array of the third region and that the stretch before it does not write holds at the second
    region's exit what it holds at the end, which is its launch contents. -/
theorem W8_arg7 : W8 (F := Ideal) m ρ c (Proc.devRef .tc main_arg7) = m ((c : Thread nD τ).loc main_arg7) :=
  ((show W9 m ρ c (Proc.devRef .tc main_arg7) = W8 m ρ c (Proc.devRef .tc main_arg7) by carry_ops).symm.trans
    (W10_of_ne m ρ c main_arg7 (by decide)).symm).trans (W10_main_arg7 m ρ c)
theorem W8_arg10 : W8 (F := Ideal) m ρ c (Proc.devRef .tc main_arg10) = m ((c : Thread nD τ).loc main_arg10) :=
  ((show W9 m ρ c (Proc.devRef .tc main_arg10) = W8 m ρ c (Proc.devRef .tc main_arg10) by carry_ops).symm.trans
    (W10_of_ne m ρ c main_arg10 (by decide)).symm).trans (W10_main_arg10 m ρ c)
theorem W8_arg11 : W8 (F := Ideal) m ρ c (Proc.devRef .tc main_arg11) = m ((c : Thread nD τ).loc main_arg11) :=
  ((show W9 m ρ c (Proc.devRef .tc main_arg11) = W8 m ρ c (Proc.devRef .tc main_arg11) by carry_ops).symm.trans
    (W10_of_ne m ρ c main_arg11 (by decide)).symm).trans (W10_main_arg11 m ρ c)
theorem W8_arg13 : W8 (F := Ideal) m ρ c (Proc.devRef .tc main_arg13) = m ((c : Thread nD τ).loc main_arg13) :=
  ((show W9 m ρ c (Proc.devRef .tc main_arg13) = W8 m ρ c (Proc.devRef .tc main_arg13) by carry_ops).symm.trans
    (W10_of_ne m ρ c main_arg13 (by decide)).symm).trans (W10_main_arg13 m ρ c)

/-- The gate bias as a one-row array. -/
theorem V9_v56 : V9 (F := Ideal) m ρ c main_v56 = shapeCast S1x8 (m ((c : Thread nD τ).loc main_arg7)) shapeCasts_S8_S1x8 := by
  refine (KStages.s2_v56 (W8 m ρ c)).trans ?_
  rw [W8_arg7 m ρ c]
/-- The second layer's scale as a one-row array. -/
theorem V9_v57 : V9 (F := Ideal) m ρ c main_v57 = shapeCast S1x512 (m ((c : Thread nD τ).loc main_arg10)) shapeCasts_S512_S1x512 := by
  refine (KStages.s2_v57 (W8 m ρ c)).trans ?_
  rw [W8_arg10 m ρ c]
/-- The second layer's shift as a one-row array. -/
theorem V9_v58 : V9 (F := Ideal) m ρ c main_v58 = shapeCast S1x512 (m ((c : Thread nD τ).loc main_arg11)) shapeCasts_S512_S1x512 := by
  refine (KStages.s2_v58 (W8 m ρ c)).trans ?_
  rw [W8_arg11 m ρ c]
/-- The output bias as a one-row array. -/
theorem V9_v59 : V9 (F := Ideal) m ρ c main_v59 = shapeCast S1x256 (m ((c : Thread nD τ).loc main_arg13)) shapeCasts_S256_S1x256 := by
  refine (KStages.s2_v59 (W8 m ρ c)).trans ?_
  rw [W8_arg13 m ρ c]

/-- The output matrix is an input window of the third region: at the region's entry it holds what it holds at the end, its
    launch contents. -/
theorem V9_arg12 : V9 (F := Ideal) m ρ c main_arg12 = m ((c : Thread nD τ).loc main_arg12) :=
  ((W10_arr m ρ c 9).trans (((dat2 (V9 m ρ) c).arrAt_in 9 rfl _).trans (A_eq2 (V9 m ρ) c 9))).symm.trans (W10_main_arg12 m ρ c)

/-! ## The result -/

/-- After the third region the result buffer holds the third region's final output array. -/
theorem W10_v60 : W10 (F := Ideal) m ρ c (Proc.devRef .tc main_v60) = (dat2 (V9 m ρ) c).arrAt 11 cfg2.N :=
  W10_arr m ρ c 11

end Cert.KernelIdeal.KFold

end
-- ==== Proof.LibCatCols.lean ====
/-
  Matrices laid side by side, read at a position.

  The concatenation along the column axis of two (or three) matrices with the same number of rows, read at row
  r and a column that falls in one of the pieces, is that piece at row r and the column counted from the piece's
  first column.
-/
import Idealize.ShloMosaic.Lib.Pipeline.Value
import Idealize.ShloMosaic.Lib.ValueIdx

noncomputable section

namespace Cert.CatCols

open Idealize.ShloMosaic Idealize.ShloMosaic.ValueIdx

variable {α : Type}

/-- Two pieces, a column of the first. -/
theorem cat2_left {R n₁ n₂ n : ℕ} (A : (⟨2, ![R, n₁]⟩ : Shape).Idx → α) (B : (⟨2, ![R, n₂]⟩ : Shape).Idx → α)
    (h : Shape.Concatenates [(⟨2, ![R, n₁]⟩ : Shape), ⟨2, ![R, n₂]⟩] ⟨2, ![R, n]⟩ 1)
    (r : Fin R) (k : Fin n₁) (hk : k.val < n) :
    concatenate (⟨2, ![R, n]⟩ : Shape) 1 [⟨⟨2, ![R, n₁]⟩, A⟩, ⟨⟨2, ![R, n₂]⟩, B⟩] h (ix2 r ⟨k.val, hk⟩) = A (ix2 r k) :=
  concatenate_pair_apply_left 1 A B h (ix2 r ⟨k.val, hk⟩) rfl (ix2 r k) (fun b => by
    match b with
    | ⟨0, _⟩ => rfl
    | ⟨1, _⟩ => rfl)

/-- Two pieces, a column of the second. -/
theorem cat2_right {R n₁ n₂ n : ℕ} (A : (⟨2, ![R, n₁]⟩ : Shape).Idx → α) (B : (⟨2, ![R, n₂]⟩ : Shape).Idx → α)
    (h : Shape.Concatenates [(⟨2, ![R, n₁]⟩ : Shape), ⟨2, ![R, n₂]⟩] ⟨2, ![R, n]⟩ 1)
    (r : Fin R) (k : Fin n₂) (hk : n₁ + k.val < n) :
    concatenate (⟨2, ![R, n]⟩ : Shape) 1 [⟨⟨2, ![R, n₁]⟩, A⟩, ⟨⟨2, ![R, n₂]⟩, B⟩] h (ix2 r ⟨n₁ + k.val, hk⟩) = B (ix2 r k) :=
  concatenate_pair_apply_right 1 A B h (ix2 r ⟨n₁ + k.val, hk⟩) rfl rfl (ix2 r k) (fun b hb => by
    match b, hb with
    | ⟨0, _⟩, _ => rfl
    | ⟨1, _⟩, hb => exact absurd rfl hb) (Nat.add_comm _ _)

/-- Three pieces, a column of the first. -/
theorem cat3_first {R n₁ n₂ n₃ n : ℕ} (A : (⟨2, ![R, n₁]⟩ : Shape).Idx → α) (B : (⟨2, ![R, n₂]⟩ : Shape).Idx → α)
    (C : (⟨2, ![R, n₃]⟩ : Shape).Idx → α)
    (h : Shape.Concatenates [(⟨2, ![R, n₁]⟩ : Shape), ⟨2, ![R, n₂]⟩, ⟨2, ![R, n₃]⟩] ⟨2, ![R, n]⟩ 1)
    (r : Fin R) (k : Fin n₁) (hk : k.val < n) :
    concatenate (⟨2, ![R, n]⟩ : Shape) 1 [⟨⟨2, ![R, n₁]⟩, A⟩, ⟨⟨2, ![R, n₂]⟩, B⟩, ⟨⟨2, ![R, n₃]⟩, C⟩] h (ix2 r ⟨k.val, hk⟩)
      = A (ix2 r k) :=
  concatenate_apply_piece (t := ⟨2, ![R, n]⟩) 1 [⟨⟨2, ![R, n₁]⟩, A⟩, ⟨⟨2, ![R, n₂]⟩, B⟩, ⟨⟨2, ![R, n₃]⟩, C⟩] h (ix2 r ⟨k.val, hk⟩) 0 (by simp) ⟨2, ![R, n₁]⟩ A rfl rfl 0 rfl (ix2 r k) (fun b hb => by
    match b, hb with
    | ⟨0, _⟩, _ => rfl
    | ⟨1, _⟩, hb => exact absurd rfl hb) (Nat.zero_add _)

/-- Three pieces, a column of the second. -/
theorem cat3_second {R n₁ n₂ n₃ n : ℕ} (A : (⟨2, ![R, n₁]⟩ : Shape).Idx → α) (B : (⟨2, ![R, n₂]⟩ : Shape).Idx → α)
    (C : (⟨2, ![R, n₃]⟩ : Shape).Idx → α)
    (h : Shape.Concatenates [(⟨2, ![R, n₁]⟩ : Shape), ⟨2, ![R, n₂]⟩, ⟨2, ![R, n₃]⟩] ⟨2, ![R, n]⟩ 1)
    (r : Fin R) (k : Fin n₂) (hk : n₁ + k.val < n) :
    concatenate (⟨2, ![R, n]⟩ : Shape) 1 [⟨⟨2, ![R, n₁]⟩, A⟩, ⟨⟨2, ![R, n₂]⟩, B⟩, ⟨⟨2, ![R, n₃]⟩, C⟩] h (ix2 r ⟨n₁ + k.val, hk⟩)
      = B (ix2 r k) :=
  concatenate_apply_piece (t := ⟨2, ![R, n]⟩) 1 [⟨⟨2, ![R, n₁]⟩, A⟩, ⟨⟨2, ![R, n₂]⟩, B⟩, ⟨⟨2, ![R, n₃]⟩, C⟩] h (ix2 r ⟨n₁ + k.val, hk⟩) 1 (by simp) ⟨2, ![R, n₂]⟩ B rfl rfl n₁ (by simp) (ix2 r k) (fun b hb => by
    match b, hb with
    | ⟨0, _⟩, _ => rfl
    | ⟨1, _⟩, hb => exact absurd rfl hb) rfl

/-- Three pieces, a column of the third. -/
theorem cat3_third {R n₁ n₂ n₃ n : ℕ} (A : (⟨2, ![R, n₁]⟩ : Shape).Idx → α) (B : (⟨2, ![R, n₂]⟩ : Shape).Idx → α)
    (C : (⟨2, ![R, n₃]⟩ : Shape).Idx → α)
    (h : Shape.Concatenates [(⟨2, ![R, n₁]⟩ : Shape), ⟨2, ![R, n₂]⟩, ⟨2, ![R, n₃]⟩] ⟨2, ![R, n]⟩ 1)
    (r : Fin R) (k : Fin n₃) (hk : n₁ + n₂ + k.val < n) :
    concatenate (⟨2, ![R, n]⟩ : Shape) 1 [⟨⟨2, ![R, n₁]⟩, A⟩, ⟨⟨2, ![R, n₂]⟩, B⟩, ⟨⟨2, ![R, n₃]⟩, C⟩] h (ix2 r ⟨n₁ + n₂ + k.val, hk⟩)
      = C (ix2 r k) :=
  concatenate_apply_piece (t := ⟨2, ![R, n]⟩) 1 [⟨⟨2, ![R, n₁]⟩, A⟩, ⟨⟨2, ![R, n₂]⟩, B⟩, ⟨⟨2, ![R, n₃]⟩, C⟩] h (ix2 r ⟨n₁ + n₂ + k.val, hk⟩) 2 (by simp) ⟨2, ![R, n₃]⟩ C rfl rfl (n₁ + n₂) (by simp) (ix2 r k) (fun b hb => by
    match b, hb with
    | ⟨0, _⟩, _ => rfl
    | ⟨1, _⟩, hb => exact absurd rfl hb) rfl

end Cert.CatCols

end
-- ==== Proof.RefRows.lean ====
/-
  The reference's stages, one row at a time.

  Apart from its gathers and scatter-sums, every operation of the reference acts on single rows. This module
  reads its whole-array stages at a position (row, column) as the row functions of the specification: the layer
  normalisation, the input layer's affine map clamped at zero, a graph-convolution layer (the mix of a row with
  its neighbourhood mean under eight gates, then the normalisation; the neighbour sums and counts stay as named
  arrays) and the output projection.

  Each reading follows the stage's operations in order. A broadcast or a reshape read at a position is its operand
  at a position computed from the literal shapes; the first section states those readings once. A sum over the
  512 features starts from the zero word, which is zero. The row and its neighbourhood mean are laid side by side
  by a concatenation, read on each half separately. The reshape of the [50000, 8, 64] array of repeated gates reads
  feature j of a row at gate j / 64.
-/
import proofs.«116288_j6914897347185_2_alg».proof.Proof.RefStages
import proofs.«116288_j6914897347185_2_alg».proof.Proof.Rows
import proofs.«116288_j6914897347185_2_alg».proof.Proof.LibPlainDot
import proofs.«116288_j6914897347185_2_alg».proof.Proof.LibCatCols
import Idealize.ShloMosaic.Lib.Pipeline.Value
import Idealize.ShloMosaic.Lib.ValueIdx
import Idealize.ShloMosaic.PureOps.Ideal.Laws

noncomputable section

open scoped BigOperators

namespace Cert.ReferenceIdeal.RefRows

open Cert.ReferenceIdeal Cert.ReferenceIdeal.Facts₀ Cert.ReferenceIdeal.Facts Idealize.ShloMosaic Idealize.ShloMosaic.ValueIdx

/-! ## Layout operations read at a position

Over any element type: the broadcasts and the one reshape the reference uses, read at a (row, column) pair. The
proofs of the shape facts are arguments, so the lemmas apply whichever proof the program cites. -/

section Layout

variable {α : Type}

/-- A scalar broadcast to any shape is the scalar at every position. -/
theorem bcast_scalar {t : Shape} (h : S_.BroadcastsInDim t ![]) (c : S_.Idx → α) (i : t.Idx) :
    broadcastInDim t ![] h c i = c ix0 :=
  broadcastInDim_apply _ h c i ix0 (fun a => a.elim0)

/-- A vector laid along the columns of one row, then repeated over the rows: at (r, j) it is the vector at j. -/
theorem bcast_cols {R n : ℕ} (h1 : (⟨1, ![n]⟩ : Shape).BroadcastsInDim ⟨2, ![1, n]⟩ ![1])
    (h2 : (⟨2, ![1, n]⟩ : Shape).BroadcastsInDim ⟨2, ![R, n]⟩ ![0, 1]) (g : (⟨1, ![n]⟩ : Shape).Idx → α)
    (r : Fin R) (j : Fin n) :
    broadcastInDim ⟨2, ![R, n]⟩ ![0, 1] h2 (broadcastInDim ⟨2, ![1, n]⟩ ![1] h1 g) (ix2 r j) = g (ix1 j) := by
  have hj : (if n = 1 then 0 else j.val) = j.val := by
    split
    · have := j.isLt; omega
    · rfl
  rw [broadcastInDim_apply _ h2 _ (ix2 r j) (ix2 (0 : Fin 1) j) (fun a => match a with
      | ⟨0, _⟩ => by show (0 : ℕ) = if (1 : ℕ) = 1 then 0 else r.val; rw [if_pos rfl]
      | ⟨1, _⟩ => by show j.val = if n = 1 then 0 else j.val; rw [hj]),
    broadcastInDim_apply _ h1 g (ix2 (0 : Fin 1) j) (ix1 j) (fun a => match a with
      | ⟨0, _⟩ => by show j.val = if n = 1 then 0 else j.val; rw [hj])]

/-- A column (one value per row) repeated over the columns: at (r, j) it is the column at row r. -/
theorem bcast_rows {R n : ℕ} (h : (⟨2, ![R, 1]⟩ : Shape).BroadcastsInDim ⟨2, ![R, n]⟩ ![0, 1])
    (y : (⟨2, ![R, 1]⟩ : Shape).Idx → α) (r : Fin R) (j : Fin n) :
    broadcastInDim ⟨2, ![R, n]⟩ ![0, 1] h y (ix2 r j) = y (ix2 r (0 : Fin 1)) :=
  broadcastInDim_apply _ h y (ix2 r j) (ix2 r (0 : Fin 1)) (fun a => match a with
    | ⟨0, _⟩ => by
      show r.val = if R = 1 then 0 else r.val
      split
      · have := r.isLt; omega
      · rfl
    | ⟨1, _⟩ => by show (0 : ℕ) = if (1 : ℕ) = 1 then 0 else j.val; rw [if_pos rfl])

/-- One value per row given a unit column axis: at (r, 0) it is the value of row r. -/
theorem bcast_keep {R : ℕ} (h : (⟨1, ![R]⟩ : Shape).BroadcastsInDim ⟨2, ![R, 1]⟩ ![0])
    (y : (⟨1, ![R]⟩ : Shape).Idx → α) (r : Fin R) (z : Fin 1) :
    broadcastInDim ⟨2, ![R, 1]⟩ ![0] h y (ix2 r z) = y (ix1 r) :=
  broadcastInDim_apply _ h y (ix2 r z) (ix1 r) (fun a => match a with
    | ⟨0, _⟩ => by
      show r.val = if R = 1 then 0 else r.val
      split
      · have := r.isLt; omega
      · rfl)

/-- Eight values per row, each repeated 64 times and the [50000, 8, 64] array flattened to 512 columns: column j
    reads value j / 64. -/
theorem spread_read (h1 : S50000x8.BroadcastsInDim S50000x8x64 ![0, 1]) (h2 : S50000x8x64.ShapeCasts S50000x512)
    (y : S50000x8.Idx → α) (r : Fin 50000) (j : Fin 512) :
    shapeCast S50000x512 (broadcastInDim S50000x8x64 ![0, 1] h1 y) h2 (ix2 r j) = y (ix2 r (Cert.Rows.blk j)) := by
  have hj : j.val < 512 := j.isLt
  rw [shapeCast_apply _ h2 (ix2 r j) (ix3 r (Cert.Rows.blk j) (⟨j.val % 64, by omega⟩ : Fin 64)) (by
      rewrite [Shape.rowMajor_val_three, Shape.rowMajor_val_two]
      show (r.val * 8 + j.val / 64) * 64 + j.val % 64 = r.val * 512 + j.val
      omega),
    broadcastInDim_apply _ h1 y _ (ix2 r (Cert.Rows.blk j)) (fun a => match a with
      | ⟨0, _⟩ => by show r.val = if (50000 : ℕ) = 1 then 0 else r.val; rw [if_neg (by decide)]
      | ⟨1, _⟩ => by show j.val / 64 = if (8 : ℕ) = 1 then 0 else j.val / 64; rw [if_neg (by decide)])]

end Layout

/-- The sum over the 512 columns of a row, at the exact values: the initial value plus the finite sum. -/
theorem rowSum (y : FVec Ideal S50000x512 .f32) (init : S_.Idx → EReal) (h' : S50000x512.ReducesTo [1] S50000)
    (hu : 0 < S_.numel) (r : Fin 50000) :
    Host.reduceAdd y init h' hu (ix1 r) = init (Shape.Idx.first hu) + ∑ k : Fin 512, y (ix2 r k) := by
  simp only [Host.reduceAdd, Ideal.hostReduceAdd_def]
  rw [Ideal.hostReduceAdd_single h' (by decide)]
  refine congrArg (_ + ·) (Finset.sum_congr rfl fun k _ => ?_)
  exact congrArg y (funext fun a => Fin.ext (by match a with | ⟨0, _⟩ => rfl | ⟨1, _⟩ => rfl))

/-! ## Layer normalisation -/

/-- A vector of 512 repeated down the rows, at (r, j). -/
theorem rowB_apply (g : FVec Ideal S512 .f32) (r : Fin 50000) (j : Fin 512) :
    Stages.rowB (F := Ideal) g (ix2 r j) = g (ix1 j) :=
  bcast_cols _ _ g r j

/-- A column repeated along the rows, at (r, j). -/
theorem colB_apply (v : FVec Ideal S50000x1 .f32) (r : Fin 50000) (j : Fin 512) :
    Stages.colB (F := Ideal) v (ix2 r j) = v (ix2 r (0 : Fin 1)) :=
  bcast_rows _ v r j

/-- The mean of each row, kept as a column. -/
theorem rowMean_apply (a : FVec Ideal S50000x512 .f32) (r : Fin 50000) :
    Stages.rowMean (F := Ideal) a (ix2 r (0 : Fin 1)) = Cert.Rows.mean (fun k => a (ix2 r k)) := by
  unfold Stages.rowMean
  simp only [Host.divf, Ideal.hostDivf_def]
  rw [bcast_keep, bcast_scalar, rowSum]
  simp only [constant_apply, Ideal.ofBits_zero_f32, zero_add]
  rfl

/-- The layer normalisation of an array of rows, at a position: the normalisation of that row, at that column. -/
theorem lnH_apply (a : FVec Ideal S50000x512 .f32) (g b : FVec Ideal S512 .f32) (i : S50000x512.Idx) :
    Stages.lnH (F := Ideal) a g b i
      = Cert.Rows.ln (fun k => a (ix2 (i 0) k)) (fun j => g (ix1 j)) (fun j => b (ix1 j)) (i 1) := by
  obtain ⟨r, j, rfl⟩ : ∃ (r : Fin 50000) (j : Fin 512), i = ix2 r j := ⟨i 0, i 1, eq_ix2 i⟩
  simp only [Stages.lnH, addf_apply, mulf_apply, subf_apply, Host.rsqrt, rowB_apply, colB_apply, rowMean_apply,
    Ideal.hostUnary_rsqrt_def]
  rw [bcast_scalar]
  rfl

/-- The layer normalisation at row r, column j. -/
theorem lnH_at (a : FVec Ideal S50000x512 .f32) (g b : FVec Ideal S512 .f32) (r : Fin 50000) (j : Fin 512) :
    Stages.lnH (F := Ideal) a g b (ix2 r j)
      = Cert.Rows.ln (fun k => a (ix2 r k)) (fun j => g (ix1 j)) (fun j => b (ix1 j)) j :=
  lnH_apply a g b (ix2 r j)

/-! ## The input layer's affine map -/

/-- The product with the weight matrix plus the bias, clamped at zero, at a position. -/
theorem linH_apply (x : FVec Ideal S50000x512 .f32) (W : FVec Ideal S512x512 .f32) (b : FVec Ideal S512 .f32)
    (i : S50000x512.Idx) :
    Stages.linH (F := Ideal) x W b i
      = Cert.Rows.lin (fun k => x (ix2 (i 0) k)) (fun k j => W (ix2 k j)) (fun j => b (ix1 j)) (i 1) := by
  obtain ⟨r, j, rfl⟩ : ∃ (r : Fin 50000) (j : Fin 512), i = ix2 r j := ⟨i 0, i 1, eq_ix2 i⟩
  simp only [Stages.linH, maximumf_apply, addf_apply, rowB_apply, Host.dotGeneral]
  rw [bcast_scalar, Cert.PlainDot.dotGeneral_apply dot_S50000x512_S512x512_S50000x512_1_0_0_1_n_n rfl]
  rfl

/-! ## A convolution layer -/

/-- The neighbourhood mean: the neighbour sum divided by the neighbour count of the row. -/
theorem meanH_at (S : FVec Ideal S50000x512 .f32) (cnt : FVec Ideal S50000 .f32) (r : Fin 50000) (k : Fin 512) :
    Stages.meanH (F := Ideal) S cnt (ix2 r k) = Ideal.div (S (ix2 r k)) (cnt (ix1 r)) := by
  unfold Stages.meanH
  simp only [Host.divf, Ideal.hostDivf_def, colB_apply]
  rw [bcast_keep]

/-- Two arrays of rows laid side by side, at a position: the two rows laid side by side. -/
theorem cat_read (H M : FVec Ideal S50000x512 .f32)
    (h : Shape.Concatenates [S50000x512, S50000x512] S50000x1024 1) (r : Fin 50000) (k : Fin 1024) :
    concatenate S50000x1024 1 [⟨S50000x512, H⟩, ⟨S50000x512, M⟩] h (ix2 r k)
      = Cert.Rows.cat (fun k => H (ix2 r k)) (fun k => M (ix2 r k)) k := by
  unfold Cert.Rows.cat
  by_cases hk : k.val < 512
  · rw [dif_pos hk]
    exact Cert.CatCols.cat2_left _ _ h r ⟨k.val, hk⟩ k.isLt
  · rw [dif_neg hk]
    have hk' : 512 + (k.val - 512) < 1024 := by have := k.isLt; omega
    have e : k = ⟨512 + (k.val - 512), hk'⟩ := Fin.ext (by show k.val = 512 + (k.val - 512); omega)
    conv_lhs => rw [e]
    exact Cert.CatCols.cat2_right _ _ h r ⟨k.val - 512, by have := k.isLt; omega⟩ hk'

/-- The eight gates of a row: the logistic function, written out, of the contraction of the row and its
    neighbourhood mean, laid side by side, against the gate matrix, plus the bias. -/
theorem gateH_at (H M : FVec Ideal S50000x512 .f32) (W : FVec Ideal S1024x8 .f32) (tb : FVec Ideal S8 .f32)
    (r : Fin 50000) (c : Fin 8) :
    Stages.gateH (F := Ideal) H M W tb (ix2 r c)
      = Cert.Rows.gateRef (fun k => H (ix2 r k)) (fun k => M (ix2 r k)) (fun k c => W (ix2 k c)) (fun c => tb (ix1 c)) c := by
  simp only [Stages.gateH, Host.divf, Host.exp, Host.negf, addf_apply, Host.dotGeneral, Ideal.hostDivf_def,
    Ideal.hostUnary_exp_def, Ideal.hostNegf_def, Ideal.negf_def]
  rw [bcast_scalar, bcast_cols, Cert.PlainDot.dotGeneral_apply dot_S50000x1024_S1024x8_S50000x8_1_0_0_1_n_n rfl,
    Finset.sum_congr rfl fun k _ => congrArg (· * W (ix2 k c)) (cat_read H M _ r k)]
  rfl

/-- The gates repeated over blocks of 64 features: feature j reads the gate of its block. -/
theorem repeatH_at (G : FVec Ideal S50000x8 .f32) (r : Fin 50000) (j : Fin 512) :
    Stages.repeatH (F := Ideal) G (ix2 r j) = G (ix2 r (Cert.Rows.blk j)) :=
  spread_read _ _ G r j

/-- The mix of a row and its neighbourhood mean, weighted by the repeated gates, at row r, column j. -/
theorem mixH_at (H S : FVec Ideal S50000x512 .f32) (cnt : FVec Ideal S50000 .f32) (W : FVec Ideal S1024x8 .f32)
    (tb : FVec Ideal S8 .f32) (r : Fin 50000) (j : Fin 512) :
    Stages.mixH (F := Ideal) H S cnt W tb (ix2 r j)
      = Cert.Rows.mix (fun k => H (ix2 r k)) (fun k => Ideal.div (S (ix2 r k)) (cnt (ix1 r)))
          (fun j => Cert.Rows.gateRef (fun k => H (ix2 r k)) (fun k => Ideal.div (S (ix2 r k)) (cnt (ix1 r)))
            (fun k c => W (ix2 k c)) (fun c => tb (ix1 c)) (Cert.Rows.blk j)) j := by
  simp only [Stages.mixH, addf_apply, mulf_apply, subf_apply, repeatH_at, gateH_at, meanH_at]
  rw [bcast_scalar]
  rfl

/-- The mix at a position. -/
theorem mixH_apply (H S : FVec Ideal S50000x512 .f32) (cnt : FVec Ideal S50000 .f32) (W : FVec Ideal S1024x8 .f32)
    (tb : FVec Ideal S8 .f32) (i : S50000x512.Idx) :
    Stages.mixH (F := Ideal) H S cnt W tb i
      = Cert.Rows.mix (fun k => H (ix2 (i 0) k)) (fun k => Ideal.div (S (ix2 (i 0) k)) (cnt (ix1 (i 0))))
          (fun j => Cert.Rows.gateRef (fun k => H (ix2 (i 0) k)) (fun k => Ideal.div (S (ix2 (i 0) k)) (cnt (ix1 (i 0))))
            (fun k c => W (ix2 k c)) (fun c => tb (ix1 c)) (Cert.Rows.blk j)) (i 1) := by
  obtain ⟨r, j, rfl⟩ : ∃ (r : Fin 50000) (j : Fin 512), i = ix2 r j := ⟨i 0, i 1, eq_ix2 i⟩
  exact mixH_at H S cnt W tb r j

/-- A convolution layer at a position: the row function of the specification, in the reference's spelling, of
    the row, the row of neighbour sums and the neighbour count. -/
theorem convH_apply (e : IVec S2x400000 32) (H : FVec Ideal S50000x512 .f32) (W : FVec Ideal S1024x8 .f32)
    (tb : FVec Ideal S8 .f32) (g b : FVec Ideal S512 .f32) (i : S50000x512.Idx) :
    Stages.convH (F := Ideal) e H W tb g b i
      = Cert.Rows.convRef (fun k => H (ix2 (i 0) k)) (fun k => Stages.nbrH (F := Ideal) e H (ix2 (i 0) k))
          (Stages.cntH (F := Ideal) e (ix1 (i 0))) (fun k c => W (ix2 k c)) (fun c => tb (ix1 c))
          (fun j => g (ix1 j)) (fun j => b (ix1 j)) (i 1) := by
  obtain ⟨r, j, rfl⟩ : ∃ (r : Fin 50000) (j : Fin 512), i = ix2 r j := ⟨i 0, i 1, eq_ix2 i⟩
  have hrow : (fun k => Stages.mixH (F := Ideal) H (Stages.nbrH (F := Ideal) e H) (Stages.cntH (F := Ideal) e) W tb (ix2 r k))
      = Cert.Rows.mix (fun k => H (ix2 r k))
          (fun k => Ideal.div (Stages.nbrH (F := Ideal) e H (ix2 r k)) (Stages.cntH (F := Ideal) e (ix1 r)))
          (fun j => Cert.Rows.gateRef (fun k => H (ix2 r k))
            (fun k => Ideal.div (Stages.nbrH (F := Ideal) e H (ix2 r k)) (Stages.cntH (F := Ideal) e (ix1 r)))
            (fun k c => W (ix2 k c)) (fun c => tb (ix1 c)) (Cert.Rows.blk j)) :=
    funext fun k => mixH_at H _ _ W tb r k
  rw [Stages.convH, lnH_at, hrow]
  rfl

/-! ## The output projection -/

/-- The product with the output matrix plus the bias, at a position. -/
theorem outH_apply (A : FVec Ideal S50000x512 .f32) (W : FVec Ideal S512x256 .f32) (b : FVec Ideal S256 .f32)
    (i : S50000x256.Idx) :
    Stages.outH (F := Ideal) A W b i
      = Cert.Rows.proj (fun j => A (ix2 (i 0) j)) (fun j o => W (ix2 j o)) (fun o => b (ix1 o)) (i 1) := by
  obtain ⟨r, o, rfl⟩ : ∃ (r : Fin 50000) (o : Fin 256), i = ix2 r o := ⟨i 0, i 1, eq_ix2 i⟩
  simp only [Stages.outH, addf_apply, Host.dotGeneral]
  rw [bcast_cols, Cert.PlainDot.dotGeneral_apply dot_S50000x512_S512x256_S50000x256_1_0_0_1_n_n rfl]
  rfl

end Cert.ReferenceIdeal.RefRows

end
-- ==== Proof.LibScatterRows.lean ====
/-
  Summing neighbour rows into their destination rows: masking the updates or redirecting their indices.

  The host's accumulating scatter of an [E, C] array of update rows into an [N, C] array, through an [E, 1] table of
  row indices, adds update element (e, k) to operand element (n, k) exactly when row index e, read as a signed
  integer, is n; an update whose row index falls outside [0, N) is dropped. Hence two ways of leaving out some of
  the updates agree: replacing the unwanted update rows by zeros, or sending their row indices to N, where nothing
  lands. A scatter of nonnegative updates into a nonnegative operand is nonnegative, so a neighbour count plus one
  is never zero.
-/
import Idealize.ShloMosaic.PureOps.Ideal
import Idealize.ShloMosaic.Lib.ValueIdx

noncomputable section

open scoped BigOperators

namespace Cert.ScatterMask

open Idealize.ShloMosaic Idealize.ShloMosaic.ValueIdx

variable {N E C : ℕ}

/-- The scatter's dimension numbers for update rows: window axis 1 of the updates goes to axis 1 of the operand, axis 0
    of the operand is the one the index table names. -/
abbrev rowsDims (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

section Rows

variable (wf : ScatterDims.WF ⟨2, ![N, C]⟩ ⟨2, ![E, 1]⟩ ⟨2, ![E, C]⟩ [1] [0] [0] 1)
variable {w : ℕ} (j : (⟨2, ![E, C]⟩ : Shape).Idx) (idx : IVec ⟨2, ![E, 1]⟩ w)

/-- On the row axis the window starts at update row `j 0`'s entry of the index table, read signed. -/
theorem start_row : (rowsDims wf).start j idx 0 = (idx (ix2 (j 0) 0)).toInt := by
  unfold ScatterDims.start
  rw [dif_pos (show (0 : Fin 2) ∈ (rowsDims wf).scatterDimsToOperandDims from List.mem_singleton.mpr rfl)]
  have hsi : (rowsDims wf).siIdx j ⟨List.idxOf (0 : Fin 2) (rowsDims wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the window starts at zero. -/
theorem start_col : (rowsDims wf).start j idx 1 = 0 := by
  unfold ScatterDims.start
  rw [dif_neg (show (1 : Fin 2) ∉ (rowsDims wf).scatterDimsToOperandDims from fun h => absurd (List.mem_singleton.mp h) (by simp))]

/-- The row axis is inserted: no window coordinate. -/
theorem window_row : (rowsDims wf).window j 0 = 0 := by
  unfold ScatterDims.window
  rw [dif_neg (show (0 : Fin 2) ∉ (rowsDims wf).sKept from fun h => absurd (List.mem_filter.1 h).2 (by simp))]

/-- The column axis carries the update's column. -/
theorem window_col : (rowsDims wf).window j 1 = (j 1).val := by
  unfold ScatterDims.window
  rw [dif_pos (show (1 : Fin 2) ∈ (rowsDims wf).sKept from List.mem_filter.2 ⟨List.mem_finRange _, by simp⟩)]
  rfl

/-- Update element `j` lands on operand element `i` exactly when its row index is `i`'s row and the columns agree. -/
theorem resultIdx_eq_some_iff (i : (⟨2, ![N, C]⟩ : Shape).Idx) :
    (rowsDims wf).resultIdx? j idx = some i ↔ (idx (ix2 (j 0) 0)).toInt = ((i 0).val : ℤ) ∧ (j 1).val = (i 1).val := by
  unfold ScatterDims.resultIdx?
  split
  · rename_i h
    rw [Option.some.injEq]
    constructor
    · intro hi
      have h0 := congrArg (fun f => (f 0).val) hi
      have h1 := congrArg (fun f => (f 1).val) hi
      have hb := (h 0).1
      simp only [start_row, window_row, start_col, window_col] at h0 h1 hb
      constructor
      · omega
      · omega
    · rintro ⟨h0, h1⟩
      funext a
      refine Fin.ext ?_
      match a with
      | ⟨0, _⟩ =>
        show ((rowsDims wf).start j idx 0 + ((rowsDims wf).window j 0 : ℤ)).toNat = (i 0).val
        rw [start_row, window_row]; omega
      | ⟨1, _⟩ =>
        show ((rowsDims wf).start j idx 1 + ((rowsDims wf).window j 1 : ℤ)).toNat = (i 1).val
        rw [start_col, window_col]; omega
  · rename_i h
    constructor
    · intro hi; exact absurd hi (by simp)
    · rintro ⟨h0, h1⟩
      refine absurd ?_ h
      intro a
      match a with
      | ⟨0, _⟩ =>
        show 0 ≤ (rowsDims wf).start j idx 0 + ((rowsDims wf).window j 0 : ℤ)
          ∧ (rowsDims wf).start j idx 0 + ((rowsDims wf).window j 0 : ℤ) < (N : ℤ)
        rw [start_row, window_row]
        have := (i 0).isLt
        have hN : (⟨2, ![N, C]⟩ : Shape).size 0 = N := rfl
        omega
      | ⟨1, _⟩ =>
        show 0 ≤ (rowsDims wf).start j idx 1 + ((rowsDims wf).window j 1 : ℤ)
          ∧ (rowsDims wf).start j idx 1 + ((rowsDims wf).window j 1 : ℤ) < (C : ℤ)
        rw [start_col, window_col]
        have := (i 1).isLt
        have hC : (⟨2, ![N, C]⟩ : Shape).size 1 = C := rfl
        omega

end Rows

/-- Masking the updates or redirecting their indices: when on the kept update rows the two index tables and the two
    update arrays agree, and on the others the first update row is zero while the second table's index is `N`, the two
    accumulating scatters into one operand are equal. -/
theorem scatter_masked (wf : ScatterDims.WF ⟨2, ![N, C]⟩ ⟨2, ![E, 1]⟩ ⟨2, ![E, C]⟩ [1] [0] [0] 1) {w : ℕ}
    (z : (⟨2, ![N, C]⟩ : Shape).Idx → EReal) (idxA idxB : IVec ⟨2, ![E, 1]⟩ w)
    (updA updB : (⟨2, ![E, C]⟩ : Shape).Idx → EReal) (keep : Fin E → Prop)
    (hk : ∀ j : (⟨2, ![E, C]⟩ : Shape).Idx, keep (j 0) → idxB (ix2 (j 0) 0) = idxA (ix2 (j 0) 0) ∧ updA j = updB j)
    (hd : ∀ j : (⟨2, ![E, C]⟩ : Shape).Idx, ¬ keep (j 0) → updA j = 0 ∧ (idxB (ix2 (j 0) 0)).toInt = (N : ℤ)) :
    Ideal.hostScatterAdd (rowsDims wf) z idxA updA = Ideal.hostScatterAdd (rowsDims wf) z idxB updB := by
  funext i
  unfold Ideal.hostScatterAdd
  congr 1
  rw [Finset.sum_filter, Finset.sum_filter]
  refine Finset.sum_congr rfl fun j _ => ?_
  simp only [resultIdx_eq_some_iff]
  by_cases hj : keep (j 0)
  · obtain ⟨h1, h2⟩ := hk j hj
    rw [h1, h2]
  · obtain ⟨h1, h2⟩ := hd j hj
    rw [h1, h2, ite_self]
    have hlt := (i 0).isLt
    have hN : (⟨2, ![N, C]⟩ : Shape).size 0 = N := rfl
    rw [if_neg (fun h => by have := h.1; omega)]

/-- An accumulating scatter of nonnegative updates into a nonnegative operand is nonnegative, whatever the
    dimension numbers and the indices. -/
theorem scatter_nonneg {s si su : Shape} (d : ScatterDims s si su) {w : ℕ} (z : s.Idx → EReal) (idx : IVec si w)
    (upd : su.Idx → EReal) (hz : ∀ i, 0 ≤ z i) (hu : ∀ j, 0 ≤ upd j) (i : s.Idx) :
    0 ≤ Ideal.hostScatterAdd d z idx upd i := by
  unfold Ideal.hostScatterAdd
  exact add_nonneg (hz i) (Finset.sum_nonneg fun j _ => hu j)

end Cert.ScatterMask

end
-- ==== Proof.OneHot.lean ====
/-
  The 0/1 matrix that repeats each of eight gates over its block of 64 features.

  Its entry (c, j) is the comparison "the block of feature j is c" turned into a float: 1 when j / 64 = c, 0 otherwise.
  The block j / 64 is computed on 32-bit integers by the floor-division idiom: the quotient rounded toward zero, less one
  when the operands' signs differ and the remainder is not zero. For 0 ≤ j < 512 and the divisor 64 no correction
  applies and the result is the natural-number quotient; this is a finite check over the 512 features.
-/
import Idealize.ShloMosaic.PureOps.Ideal

noncomputable section

namespace Cert.OneHot

open Idealize.ShloMosaic

/-- The sign of a 32-bit integer as a 32-bit integer: 0, -1 or 1. -/
def sgn (x : BitVec 32) : BitVec 32 := if x = 0 then 0 else if x.msb then -1 else 1

/-- Floor division on 32-bit integers, as the idiom spells it. -/
def fdiv (x y : BitVec 32) : BitVec 32 :=
  Scalar.select
    (IntOp.andi (IntOp.cmpi .ne (sgn x) (sgn y)) (IntOp.cmpi .ne (IntOp.remsi .host x y) 0#32))
    (IntOp.subi (IntOp.divsi .host x y) 1#32)
    (IntOp.divsi .host x y)

/-- For a feature j < 512, floor division by 64 is the natural-number quotient. -/
theorem fdiv_64 : ∀ j : Fin 512, fdiv (BitVec.ofNat 32 j.val) 64#32 = BitVec.ofNat 32 (j.val / 64) := by
  decide +kernel

/-- The comparison of a feature's block with a gate's number, as a bit. -/
theorem block_bit : ∀ (c : Fin 8) (j : Fin 512),
    IntOp.cmpi .eq (BitVec.ofNat 32 (j.val / 64)) (BitVec.ofNat 32 c.val) = if c.val = j.val / 64 then 1#1 else 0#1 := by
  decide +kernel

/-- The bit as a float at the exact values: one or zero. -/
theorem bit_float (b : BitVec 1) (p : Prop) [Decidable p] (h : b = if p then 1#1 else 0#1) :
    FloatOps.uitofp (F := Ideal) .f32 b = if p then 1 else 0 := by
  subst h
  split
  · show (((1#1 : BitVec 1).toNat : ℝ) : EReal) = 1
    simp
  · show (((0#1 : BitVec 1).toNat : ℝ) : EReal) = 0
    simp

end Cert.OneHot

end
-- ==== Proof.Bridge.lean ====
/-
  The laws joining the host values of the two programs.

  Between its regions the kernel computes on the host what the reference computes in its own words: the neighbour
  sums, the neighbour counts, the 0/1 matrix of the feature blocks, the two halves of the gate matrix, and a few
  vectors reshaped into one-row arrays. This module proves the two spellings equal.

  * The neighbour sum. The reference zeroes the gathered rows of the self loops before adding every row into its
    destination; the kernel leaves the rows alone and sends the self loops' destinations to the node count, where
    nothing lands. Masking the updates or redirecting their indices gives the same accumulating scatter.
  * The neighbour count is a scatter of 0/1 floats into zeros, plus one: at least one, so never zero, and the
    kernel's reciprocal column is one divided by it.
  * The block of feature j by the floor-division idiom on 32-bit integers is j / 64, so the comparison with the gate
    numbers, as floats, is the 0/1 matrix of the blocks.
  * A slice of the gate matrix's rows and a vector reshaped into one row or one column, read at a position.
-/
import proofs.«116288_j6914897347185_2_alg».proof.Proof.KDefs
import proofs.«116288_j6914897347185_2_alg».proof.Proof.RefStages
import proofs.«116288_j6914897347185_2_alg».proof.Proof.RefRows
import proofs.«116288_j6914897347185_2_alg».proof.Proof.Rows
import proofs.«116288_j6914897347185_2_alg».proof.Proof.LibScatterRows
import proofs.«116288_j6914897347185_2_alg».proof.Proof.OneHot

noncomputable section

open scoped BigOperators

namespace Cert.Bridge

open Cert.ReferenceIdeal Cert.ReferenceIdeal.Facts₀ Cert.ReferenceIdeal.Facts Idealize.ShloMosaic Idealize.ShloMosaic.ValueIdx
open Cert.ReferenceIdeal.RefRows (bcast_scalar bcast_cols bcast_rows bcast_keep)

/-! ## Reshapes and slices read at a position -/

section Layout

variable {α : Type}

/-- A vector reshaped into a one-row array, at (0, j). -/
theorem oneRow_read {n : ℕ} (h : (⟨1, ![n]⟩ : Shape).ShapeCasts ⟨2, ![1, n]⟩) (v : (⟨1, ![n]⟩ : Shape).Idx → α) (j : Fin n) :
    shapeCast ⟨2, ![1, n]⟩ v h (ix2 (0 : Fin 1) j) = v (ix1 j) :=
  shapeCast_apply v h (ix2 (0 : Fin 1) j) (ix1 j) (by
    rewrite [Shape.rowMajor_val_one, Shape.rowMajor_val_two]
    show j.val = 0 * n + j.val
    omega)

/-- A vector reshaped into a one-column array, at (r, 0). -/
theorem oneCol_read {R : ℕ} (h : (⟨1, ![R]⟩ : Shape).ShapeCasts ⟨2, ![R, 1]⟩) (v : (⟨1, ![R]⟩ : Shape).Idx → α) (r : Fin R) :
    shapeCast ⟨2, ![R, 1]⟩ v h (ix2 r (0 : Fin 1)) = v (ix1 r) :=
  shapeCast_apply v h (ix2 r (0 : Fin 1)) (ix1 r) (by
    rewrite [Shape.rowMajor_val_one, Shape.rowMajor_val_two]
    show r.val = r.val * 1 + 0
    omega)

/-- The kernel's three one-row reshapes. -/
theorem row512_read (v : S512.Idx → α) (j : Fin 512) :
    shapeCast Cert.KernelIdeal.S1x512 v Cert.KernelIdeal.Gen.shapeCasts_S512_S1x512 (ix2 (0 : Fin 1) j) = v (ix1 j) :=
  oneRow_read _ v j

theorem row8_read (v : S8.Idx → α) (c : Fin 8) :
    shapeCast Cert.KernelIdeal.S1x8 v Cert.KernelIdeal.Gen.shapeCasts_S8_S1x8 (ix2 (0 : Fin 1) c) = v (ix1 c) :=
  oneRow_read _ v c

theorem row256_read (v : S256.Idx → α) (o : Fin 256) :
    shapeCast Cert.KernelIdeal.S1x256 v Cert.KernelIdeal.Gen.shapeCasts_S256_S1x256 (ix2 (0 : Fin 1) o) = v (ix1 o) :=
  oneRow_read _ v o

/-- The upper half of the gate matrix's rows. -/
theorem upperHalf_read (W : S1024x8.Idx → α) (k : Fin 512) (c : Fin 8) :
    extractStridedSlice Cert.KernelIdeal.S512x8 ![0, 0] W Cert.KernelIdeal.Gen.slices_S1024x8_S512x8_0_0 (ix2 k c) = W (ix2 ⟨k.val, by omega⟩ c) :=
  extractStridedSlice_apply _ W _ (ix2 k c) (ix2 ⟨k.val, by omega⟩ c) (fun a => match a with
    | ⟨0, _⟩ => by show k.val = 0 + k.val; omega
    | ⟨1, _⟩ => by show c.val = 0 + c.val; omega)

/-- The lower half of the gate matrix's rows. -/
theorem lowerHalf_read (W : S1024x8.Idx → α) (k : Fin 512) (c : Fin 8) :
    extractStridedSlice Cert.KernelIdeal.S512x8 ![512, 0] W Cert.KernelIdeal.Gen.slices_S1024x8_S512x8_512_0 (ix2 k c) = W (ix2 ⟨512 + k.val, by omega⟩ c) :=
  extractStridedSlice_apply _ W _ (ix2 k c) (ix2 ⟨512 + k.val, by omega⟩ c) (fun a => match a with
    | ⟨0, _⟩ => by show 512 + k.val = 512 + k.val; rfl
    | ⟨1, _⟩ => by show c.val = 0 + c.val; omega)

end Layout

/-! ## The 0/1 matrix of the feature blocks -/

/-- The block of feature j, computed by the floor-division idiom, is j / 64. -/
theorem block_read (j : Fin 512) :
    Cert.KernelIdeal.KStages.blockK (iotaInDim Cert.KernelIdeal.S512 32 0) (constantI Cert.KernelIdeal.S_ 32 64#32) (ix1 j) = BitVec.ofNat 32 (j.val / 64) := by
  rw [← Cert.OneHot.fdiv_64 j]
  unfold Cert.KernelIdeal.KStages.blockK
  simp only [select, andi, subi, cmpi, signi, Host.remsi, Host.divsi]
  rw [bcast_scalar, bcast_scalar, bcast_scalar, bcast_scalar]
  rfl

/-- The kernel's comparison matrix, as floats, is the 0/1 matrix of the blocks. -/
theorem onehot_eq (c : Fin 8) (j : Fin 512) :
    Cert.KernelIdeal.KStages.onehotK (Cert.KernelIdeal.KStages.blockK (iotaInDim Cert.KernelIdeal.S512 32 0) (constantI Cert.KernelIdeal.S_ 32 64#32)) (ix2 c j)
      = if c = Cert.Rows.blk j then 1 else 0 := by
  unfold Cert.KernelIdeal.KStages.onehotK
  simp only [uitofp, cmpi]
  rw [bcast_cols, bcast_rows, bcast_keep, block_read]
  refine (Cert.OneHot.bit_float _ (c.val = j.val / 64) (Cert.OneHot.block_bit c j)).trans (if_congr ?_ rfl rfl)
  exact ⟨fun h => Fin.ext h, fun h => congrArg Fin.val h⟩

/-! ## The neighbour count -/

/-- The two programs' neighbour counts are one array. -/
theorem cnt_eq (e : IVec S2x400000 32) :
    Cert.KernelIdeal.KStages.cntK (cmpi .ne (Cert.KernelIdeal.KStages.srcK e) (Cert.KernelIdeal.KStages.dstK e)) (Cert.KernelIdeal.KStages.dstK e) = Stages.cntH (F := Ideal) e := rfl

/-- A nonnegative extended real plus one is not zero. -/
theorem add_one_ne_zero (x : EReal) (hx : 0 ≤ x) : x + 1 ≠ 0 := by
  have h1 : (1 : EReal) ≤ x + 1 := le_add_of_nonneg_left hx
  intro h
  rw [h] at h1
  exact absurd h1 (not_le.mpr zero_lt_one)

/-- The neighbour count is never zero. -/
theorem cnt_ne_zero (e : IVec S2x400000 32) (r : Fin 50000) : Stages.cntH (F := Ideal) e (ix1 r) ≠ 0 := by
  have hz : ∀ i, (0 : EReal) ≤ broadcastInDim S50000 ![] bcast_S_S50000 (constant (F := Ideal) S_ .f32 0x00000000#32) i :=
    fun i => by rw [bcast_scalar]; exact le_of_eq Ideal.ofBits_zero_f32.symm
  have hu : ∀ j, (0 : EReal) ≤ uitofp (F := Ideal) .f32 (Stages.maskH e) j :=
    fun j => EReal.coe_nonneg.mpr (Nat.cast_nonneg _)
  have h0 := Cert.ScatterMask.scatter_nonneg scatter_S50000_S400000x1_S400000_n_0_0_1 _
    (Stages.tableB (Stages.dstH e)) _ hz hu (ix1 r)
  have h1 := add_one_ne_zero _ h0
  rw [← Cert.Rows.cone_eq] at h1
  exact h1

/-- The kernel's reciprocal column is one divided by the neighbour count. -/
theorem recip_eq (e : IVec S2x400000 32) (r : Fin 50000) :
    Cert.KernelIdeal.KStages.recipK (cmpi .ne (Cert.KernelIdeal.KStages.srcK e) (Cert.KernelIdeal.KStages.dstK e)) (Cert.KernelIdeal.KStages.dstK e) (ix2 r (0 : Fin 1))
      = Ideal.div Cert.Rows.cone (Stages.cntH (F := Ideal) e (ix1 r)) := by
  unfold Cert.KernelIdeal.KStages.recipK
  rw [oneCol_read, cnt_eq]
  simp only [Host.divf, Ideal.hostDivf_def]
  rw [bcast_scalar]
  rfl

/-! ## The neighbour sum -/

/-- An index table read at (e, 0): the vector at e. -/
theorem tableK_read {w : ℕ} (v : IVec S400000 w) (e' : Fin 400000) (z : Fin 1) :
    Cert.KernelIdeal.KStages.tableK v (ix2 e' z) = v (ix1 e') :=
  bcast_keep _ v e' z

theorem tableB_read {w : ℕ} (v : IVec S400000 w) (e' : Fin 400000) (z : Fin 1) :
    Stages.tableB v (ix2 e' z) = v (ix1 e') :=
  bcast_keep _ v e' z

/-- The redirected destination of an edge: its destination where the mask bit is set, the given node elsewhere. -/
theorem dstEff_read (mask : IVec S400000 1) (dst : IVec S400000 32) (n : IVec S_ 32) (e' : Fin 400000) :
    Cert.KernelIdeal.KStages.dstEffK mask dst n (ix1 e') = Scalar.select (mask (ix1 e')) (dst (ix1 e')) (n ix0) := by
  unfold Cert.KernelIdeal.KStages.dstEffK
  simp only [select]
  rw [bcast_scalar]
  rfl

/-- The reference's update rows: the gathered row where the mask bit is set, zeros elsewhere. -/
theorem masked_read (e : IVec S2x400000 32) (H : FVec Ideal S50000x512 .f32) (e' : Fin 400000) (k : Fin 512) :
    (select (broadcastInDim S400000x512 ![0, 1] bcast_S400000x1_S400000x512_0_1 (Stages.tableB (Stages.maskH e)))
      (Stages.gatherH (F := Ideal) e H)
      (broadcastInDim S400000x512 ![] bcast_S_S400000x512 (id (constant (F := Ideal) S_ .f32 0x00000000#32)))) (ix2 e' k)
      = Scalar.select (Stages.maskH e (ix1 e')) (Stages.gatherH (F := Ideal) e H (ix2 e' k)) 0 := by
  simp only [select]
  rw [bcast_rows, tableB_read, bcast_scalar]
  show Scalar.select _ _ (Ideal.ofBits .f32 0x00000000#32) = _
  rw [Ideal.ofBits_zero_f32]

/-- The two programs' neighbour sums are one array: zeroing the self loops' rows, or sending their destinations
    to the node count, leaves the same rows added. -/
theorem nbr_eq (e : IVec S2x400000 32) (H : FVec Ideal S50000x512 .f32) :
    Cert.KernelIdeal.KStages.nbrK (Cert.KernelIdeal.KStages.dstEffK (cmpi .ne (Cert.KernelIdeal.KStages.srcK e) (Cert.KernelIdeal.KStages.dstK e)) (Cert.KernelIdeal.KStages.dstK e) (constantI Cert.KernelIdeal.S_ 32 50000#32)) (Cert.KernelIdeal.KStages.srcK e) H = Stages.nbrH (F := Ideal) e H := by
  have key := Cert.ScatterMask.scatter_masked (N := 50000) (E := 400000) (C := 512)
    scatter_S50000x512_S400000x1_S400000x512_1_0_0_1_wf (w := 32)
    (broadcastInDim S50000x512 ![] bcast_S_S50000x512 (constant (F := Ideal) S_ .f32 0x00000000#32))
    (Stages.tableB (Stages.dstH e))
    (Cert.KernelIdeal.KStages.tableK (Cert.KernelIdeal.KStages.dstEffK (cmpi .ne (Cert.KernelIdeal.KStages.srcK e) (Cert.KernelIdeal.KStages.dstK e)) (Cert.KernelIdeal.KStages.dstK e) (constantI Cert.KernelIdeal.S_ 32 50000#32)))
    (select (broadcastInDim S400000x512 ![0, 1] bcast_S400000x1_S400000x512_0_1 (Stages.tableB (Stages.maskH e)))
      (Stages.gatherH (F := Ideal) e H)
      (broadcastInDim S400000x512 ![] bcast_S_S400000x512 (id (constant (F := Ideal) S_ .f32 0x00000000#32))))
    (Stages.gatherH (F := Ideal) e H)
    (fun e' => Stages.maskH e (ix1 e') = 1#1)
    (fun j hj => by
      obtain ⟨e', k, rfl⟩ : ∃ (e' : Fin 400000) (k : Fin 512), j = ix2 e' k := ⟨j 0, j 1, eq_ix2 j⟩
      have hm : Stages.maskH e (ix1 e') = 1#1 := hj
      constructor
      · show Cert.KernelIdeal.KStages.tableK _ (ix2 e' (0 : Fin 1)) = Stages.tableB _ (ix2 e' (0 : Fin 1))
        rw [tableK_read, tableB_read, dstEff_read]
        show Scalar.select (Stages.maskH e (ix1 e')) _ _ = _
        rw [hm, select_one]
        rfl
      · rw [masked_read, hm, select_one])
    (fun j hj => by
      obtain ⟨e', k, rfl⟩ : ∃ (e' : Fin 400000) (k : Fin 512), j = ix2 e' k := ⟨j 0, j 1, eq_ix2 j⟩
      have hm : Stages.maskH e (ix1 e') = 0#1 := eq_zero_of_ne_one hj
      constructor
      · rw [masked_read, hm, select_zero]
      · show BitVec.toInt (Cert.KernelIdeal.KStages.tableK _ (ix2 e' (0 : Fin 1))) = _
        rw [tableK_read, dstEff_read]
        show BitVec.toInt (Scalar.select (Stages.maskH e (ix1 e')) _ _) = _
        rw [hm, select_zero]
        show (50000#32 : BitVec 32).toInt = ((50000 : ℕ) : ℤ)
        decide)
  unfold Cert.KernelIdeal.KStages.nbrK Stages.nbrH
  exact congrArg (fun X => addf X H) key.symm

end Cert.Bridge

end
-- ==== Proof.PureBridge.lean ====
/-
  The two programs' stages are the same functions of the same arrays.

  For the input layer, a convolution layer and the output projection: the kernel's result, row by row, written with
  the values its host side prepares (the one-row reshapes of the bias, scale and shift vectors; the neighbour sum with
  self loops redirected past the last row; the reciprocal of the neighbour count; the two halves of the gate matrix;
  the 0/1 matrix of the feature blocks), is the reference's whole-array stage of the same row array. For a
  convolution layer this is the law joining the two spellings of a row (the sum times the reciprocal count against the
  quotient, the split contraction against the concatenated one, the 0/1 product against the repeat), with its side
  conditions supplied: the count is never zero, the halves are the halves, the 0/1 matrix is the blocks' indicator.
-/
import proofs.«116288_j6914897347185_2_alg».proof.Proof.Rows
import proofs.«116288_j6914897347185_2_alg».proof.Proof.RefRows
import proofs.«116288_j6914897347185_2_alg».proof.Proof.KDefs
import proofs.«116288_j6914897347185_2_alg».proof.Proof.Bridge
import Idealize.ShloMosaic.Lib.ValueIdx

set_option maxRecDepth 16384

noncomputable section

open scoped BigOperators

namespace Cert.PureBridge

open Idealize.ShloMosaic Idealize.ShloMosaic.ValueIdx
open Cert.KernelIdeal (S50000x512 S2x400000 S400000 S_ S512 S8 S256 S1x512 S1x8 S1x256 S512x8 S512x512 S1024x8 S8x512 S50000x1 S50000 S512x256 S50000x256)
open Cert.KernelIdeal.KStages Cert.KernelIdeal.Gen

/-- The mask of the edges that are not self loops. -/
abbrev mk (e : IVec S2x400000 32) : IVec S400000 1 := cmpi .ne (srcK e) (dstK e)
/-- The destinations with the self loops sent to the node count. -/
abbrev de (e : IVec S2x400000 32) : IVec S400000 32 := dstEffK (mk e) (dstK e) (constantI S_ 32 50000#32)

/-- The input layer: the kernel's rows, with its one-row bias, scale and shift, are the reference's input layer. -/
theorem layer0_eq (x : FVec Ideal S50000x512 .f32) (W : FVec Ideal S512x512 .f32) (b g be : FVec Ideal S512 .f32) :
    (fun i : S50000x512.Idx =>
      Cert.Rows.ln (Cert.Rows.lin (fun k => x (ix2 (i 0) k)) (fun k j => W (ix2 k j))
          (fun j => shapeCast S1x512 b shapeCasts_S512_S1x512 (ix2 0 j)))
        (fun j => shapeCast S1x512 g shapeCasts_S512_S1x512 (ix2 0 j))
        (fun j => shapeCast S1x512 be shapeCasts_S512_S1x512 (ix2 0 j)) (i 1))
      = Cert.ReferenceIdeal.Stages.layer0 (F := Ideal) x W b g be := by
  funext i
  obtain ⟨r, j, rfl⟩ : ∃ (r : Fin 50000) (j : Fin 512), i = ix2 r j := ⟨i 0, i 1, eq_ix2 i⟩
  unfold Cert.ReferenceIdeal.Stages.layer0
  rw [Cert.ReferenceIdeal.RefRows.lnH_apply]
  simp only [Cert.Bridge.row512_read]
  show Cert.Rows.ln _ _ _ j = Cert.Rows.ln _ _ _ j
  congr 1
  funext k
  exact (Cert.ReferenceIdeal.RefRows.linH_apply x W b (ix2 r k)).symm

/-- A convolution layer: the kernel's rows, with the kernel's neighbour sum, reciprocal count, matrix halves, 0/1
    block matrix and one-row vectors, are the reference's convolution layer of the same row array. -/
theorem conv_eq (e : IVec S2x400000 32) (H : FVec Ideal S50000x512 .f32) (a6 : FVec Ideal S1024x8 .f32)
    (a7 : FVec Ideal S8 .f32) (g b : FVec Ideal S512 .f32) :
    (fun i : S50000x512.Idx =>
      Cert.Rows.conv (fun k => H (ix2 (i 0) k)) (fun k => nbrK (de e) (srcK e) H (ix2 (i 0) k))
        (recipK (mk e) (dstK e) (ix2 (i 0) 0))
        (fun k c => extractStridedSlice S512x8 ![0, 0] a6 slices_S1024x8_S512x8_0_0 (ix2 k c))
        (fun k c => extractStridedSlice S512x8 ![512, 0] a6 slices_S1024x8_S512x8_512_0 (ix2 k c))
        (fun c => shapeCast S1x8 a7 shapeCasts_S8_S1x8 (ix2 0 c))
        (fun c j => onehotK (blockK (iotaInDim S512 32 0) (constantI S_ 32 64#32)) (ix2 c j))
        (fun j => shapeCast S1x512 g shapeCasts_S512_S1x512 (ix2 0 j))
        (fun j => shapeCast S1x512 b shapeCasts_S512_S1x512 (ix2 0 j)) (i 1))
      = Cert.ReferenceIdeal.Stages.convH (F := Ideal) e H a6 a7 g b := by
  funext i
  obtain ⟨r, j, rfl⟩ : ∃ (r : Fin 50000) (j : Fin 512), i = ix2 r j := ⟨i 0, i 1, eq_ix2 i⟩
  rw [Cert.ReferenceIdeal.RefRows.convH_apply]
  simp only [Cert.Bridge.row512_read, Cert.Bridge.row8_read, Cert.Bridge.nbr_eq]
  exact congrFun (Cert.Rows.conv_eq (fun k => H (ix2 r k)) (fun k => Cert.ReferenceIdeal.Stages.nbrH (F := Ideal) e H (ix2 r k))
    (Cert.ReferenceIdeal.Stages.cntH (F := Ideal) e (ix1 r)) (recipK (mk e) (dstK e) (ix2 r 0))
    (fun k c => a6 (ix2 k c)) _ _ (fun c => a7 (ix1 c)) _ (fun j => g (ix1 j)) (fun j => b (ix1 j))
    (Cert.Bridge.cnt_ne_zero e r) (Cert.Bridge.recip_eq e r)
    (fun k c => Cert.Bridge.upperHalf_read a6 k c) (fun k c => Cert.Bridge.lowerHalf_read a6 k c)
    (fun c j => Cert.Bridge.onehot_eq c j)) j

/-- The output projection: the kernel's rows with its one-row bias are the reference's output projection. -/
theorem out_eq (A : FVec Ideal S50000x512 .f32) (a12 : FVec Ideal S512x256 .f32) (a13 : FVec Ideal S256 .f32) :
    (fun i : S50000x256.Idx =>
      Cert.Rows.proj (fun j => A (ix2 (i 0) j)) (fun j o => a12 (ix2 j o))
        (fun o => shapeCast S1x256 a13 shapeCasts_S256_S1x256 (ix2 0 o)) (i 1))
      = Cert.ReferenceIdeal.Stages.outH (F := Ideal) A a12 a13 := by
  funext i
  obtain ⟨r, o, rfl⟩ : ∃ (r : Fin 50000) (o : Fin 256), i = ix2 r o := ⟨i 0, i 1, eq_ix2 i⟩
  rw [Cert.ReferenceIdeal.RefRows.outH_apply]
  simp only [Cert.Bridge.row256_read]

end Cert.PureBridge

end
-- ==== Proof.Final.lean ====
/-
  The idealized kernel's result is the reference's composition of stages, of the launch arrays.

  Region by region: the first region's output array is the reference's input layer; carried through the host
  operations that follow (the neighbour sum, the reciprocal count, the matrix halves, the 0/1 block matrix, the one-row
  vectors), the second region's output array is the reference's first convolution layer of it; carried through the
  next stretch, the third region's output array is the reference's output projection of the second convolution layer.
  Each step rewrites the region's row-by-row value at the contents its input arrays hold when it is entered, then
  applies the equality of the two programs' stages.
-/
import proofs.«116288_j6914897347185_2_alg».proof.Proof.Gen.KernelIdeal.Frame
import proofs.«116288_j6914897347185_2_alg».proof.Proof.Reg0
import proofs.«116288_j6914897347185_2_alg».proof.Proof.Reg1
import proofs.«116288_j6914897347185_2_alg».proof.Proof.Reg2
import proofs.«116288_j6914897347185_2_alg».proof.Proof.KDefs
import proofs.«116288_j6914897347185_2_alg».proof.Proof.KFold1
import proofs.«116288_j6914897347185_2_alg».proof.Proof.KFold1V7
import proofs.«116288_j6914897347185_2_alg».proof.Proof.KFold2
import proofs.«116288_j6914897347185_2_alg».proof.Proof.PureBridge
import Idealize.ShloMosaic.Lib.ValueIdx

set_option maxRecDepth 16384

noncomputable section

namespace Cert.Final

open Idealize.ShloMosaic Idealize.ShloMosaic.TcCoe Idealize.ShloMosaic.ValueIdx Idealize.SL.Sem
open Cert.KernelIdeal Cert.KernelIdeal.Gen Cert.KernelIdeal.KStages

variable (m : (ℓ : Loc nD τ sig) → Buf (Elt Ideal) ℓ) (ρ : Dev nD → PrngReg) (c : Dev nD)

/-- The reference's input layer of the launch arrays. -/
abbrev h0 : FVec Ideal S50000x512 .f32 :=
  Cert.ReferenceIdeal.Stages.layer0 (F := Ideal) (m ((c : Thread nD τ).loc main_arg0)) (m ((c : Thread nD τ).loc main_arg2)) (m ((c : Thread nD τ).loc main_arg3)) (m ((c : Thread nD τ).loc main_arg4)) (m ((c : Thread nD τ).loc main_arg5))
/-- The reference's first convolution layer of the launch arrays. -/
abbrev h1 : FVec Ideal S50000x512 .f32 :=
  Cert.ReferenceIdeal.Stages.convH (F := Ideal) (m ((c : Thread nD τ).loc main_arg1)) (h0 m c) (m ((c : Thread nD τ).loc main_arg6)) (m ((c : Thread nD τ).loc main_arg7)) (m ((c : Thread nD τ).loc main_arg8)) (m ((c : Thread nD τ).loc main_arg9))
/-- The reference's second convolution layer of the launch arrays. -/
abbrev h2 : FVec Ideal S50000x512 .f32 :=
  Cert.ReferenceIdeal.Stages.convH (F := Ideal) (m ((c : Thread nD τ).loc main_arg1)) (h1 m c) (m ((c : Thread nD τ).loc main_arg6)) (m ((c : Thread nD τ).loc main_arg7)) (m ((c : Thread nD τ).loc main_arg10)) (m ((c : Thread nD τ).loc main_arg11))

set_option maxHeartbeats 1000000 in
/-- The first region leaves the reference's input layer. -/
theorem rows0 : (dat0 (F := Ideal) (V1 m ρ) c).arrAt 5 cfg0.N = h0 m c := by
  rw [Cert.KernelIdeal.Reg0.final (V1 m ρ) c]
  have e0 : V1 m ρ c (Pipeline.arrRef spec0 0) = (m ((c : Thread nD τ).loc main_arg0)) := KFold.V1_arg0 m ρ c
  have e1 : V1 m ρ c (Pipeline.arrRef spec0 1) = (m ((c : Thread nD τ).loc main_arg2)) := KFold.V1_arg2 m ρ c
  have e2 : V1 m ρ c (Pipeline.arrRef spec0 2) = _ := KFold.V1_v0 m ρ c
  have e3 : V1 m ρ c (Pipeline.arrRef spec0 3) = _ := KFold.V1_v1 m ρ c
  have e4 : V1 m ρ c (Pipeline.arrRef spec0 4) = _ := KFold.V1_v2 m ρ c
  rw [e0, e1, e2, e3, e4]
  exact Cert.PureBridge.layer0_eq _ _ _ _ _

set_option maxHeartbeats 1000000 in
/-- The second region leaves the reference's first convolution layer. -/
theorem rows1 : (dat1 (F := Ideal) (V7 m ρ) c).arrAt 9 cfg1.N = h1 m c := by
  rw [Cert.KernelIdeal.Reg1.final (V7 m ρ) c]
  have e0 : V7 m ρ c (Pipeline.arrRef spec1 0) = h0 m c := (KFold.V7_v3 m ρ c).trans (rows0 m ρ c)
  have e1 : V7 m ρ c (Pipeline.arrRef spec1 1) = _ := KFold.V7_v40 m ρ c
  have e2 : V7 m ρ c (Pipeline.arrRef spec1 2) = _ := KFold.V7_v18 m ρ c
  have e3 : V7 m ρ c (Pipeline.arrRef spec1 3) = _ := KFold.V7_v19 m ρ c
  have e4 : V7 m ρ c (Pipeline.arrRef spec1 4) = _ := KFold.V7_v20 m ρ c
  have e5 : V7 m ρ c (Pipeline.arrRef spec1 5) = _ := KFold.V7_v41 m ρ c
  have e6 : V7 m ρ c (Pipeline.arrRef spec1 6) = _ := KFold.V7_v29 m ρ c
  have e7 : V7 m ρ c (Pipeline.arrRef spec1 7) = _ := KFold.V7_v42 m ρ c
  have e8 : V7 m ρ c (Pipeline.arrRef spec1 8) = _ := KFold.V7_v43 m ρ c
  rw [e1, e0, e2, e3, e4, e5, e6, e7, e8]
  exact Cert.PureBridge.conv_eq (m ((c : Thread nD τ).loc main_arg1)) (h0 m c) (m ((c : Thread nD τ).loc main_arg6)) (m ((c : Thread nD τ).loc main_arg7)) (m ((c : Thread nD τ).loc main_arg8)) (m ((c : Thread nD τ).loc main_arg9))

set_option maxHeartbeats 1000000 in
/-- The third region leaves the reference's result. -/
theorem rows2 : (dat2 (F := Ideal) (V9 m ρ) c).arrAt 11 cfg2.N
    = Cert.ReferenceIdeal.Stages.outH (F := Ideal) (h2 m c) (m ((c : Thread nD τ).loc main_arg12)) (m ((c : Thread nD τ).loc main_arg13)) := by
  rw [Cert.KernelIdeal.Reg2.final (V9 m ρ) c]
  have e0 : V9 m ρ c (Pipeline.arrRef spec2 0) = h1 m c := (KFold.V9_v44 m ρ c).trans (rows1 m ρ c)
  have e1 : V9 m ρ c (Pipeline.arrRef spec2 1) = _ := (KFold.V9_v55 m ρ c).trans (by rw [KFold.W6_v9, KFold.W6_v5])
  have e2 : V9 m ρ c (Pipeline.arrRef spec2 2) = _ := (KFold.V9_v18 m ρ c).trans (KFold.V7_v18 m ρ c)
  have e3 : V9 m ρ c (Pipeline.arrRef spec2 3) = _ := (KFold.V9_v19 m ρ c).trans (KFold.V7_v19 m ρ c)
  have e4 : V9 m ρ c (Pipeline.arrRef spec2 4) = _ := (KFold.V9_v20 m ρ c).trans (KFold.V7_v20 m ρ c)
  have e5 : V9 m ρ c (Pipeline.arrRef spec2 5) = _ := KFold.V9_v56 m ρ c
  have e6 : V9 m ρ c (Pipeline.arrRef spec2 6) = _ := (KFold.V9_v29 m ρ c).trans (KFold.V7_v29 m ρ c)
  have e7 : V9 m ρ c (Pipeline.arrRef spec2 7) = _ := KFold.V9_v57 m ρ c
  have e8 : V9 m ρ c (Pipeline.arrRef spec2 8) = _ := KFold.V9_v58 m ρ c
  have e9 : V9 m ρ c (Pipeline.arrRef spec2 9) = _ := KFold.V9_arg12 m ρ c
  have e10 : V9 m ρ c (Pipeline.arrRef spec2 10) = _ := KFold.V9_v59 m ρ c
  rw [e1, e0, e2, e3, e4, e5, e6, e7, e8, e9, e10]
  have hc := Cert.PureBridge.conv_eq (m ((c : Thread nD τ).loc main_arg1)) (h1 m c) (m ((c : Thread nD τ).loc main_arg6)) (m ((c : Thread nD τ).loc main_arg7)) (m ((c : Thread nD τ).loc main_arg10)) (m ((c : Thread nD τ).loc main_arg11))
  rw [← Cert.PureBridge.out_eq (h2 m c) (m ((c : Thread nD τ).loc main_arg12)) (m ((c : Thread nD τ).loc main_arg13))]
  funext i
  refine congrArg (fun a => Cert.Rows.proj a _ _ (i 1)) ?_
  funext j
  exact congrFun hc (ix2 (i 0) j)

/-- The kernel's result buffer holds the reference's result of the launch arrays. -/
theorem kernel_value : W10 m ρ c (Proc.devRef .tc main_v60)
    = Cert.ReferenceIdeal.Stages.whole (F := Ideal) (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13)) :=
  (KFold.W10_v60 m ρ c).trans (rows2 m ρ c)

end Cert.Final

end
-- ==== Proof.lean ====
/-
  A three-layer graph network, computed by three fused kernels or by plain array operations: the same function.

  The network maps 50000 node rows of 512 features to 256 outputs: an input layer (an affine map, a clamp at zero, a
  layer normalisation), two graph-convolution layers sharing one gate matrix (each node's row is mixed with the mean of
  its neighbours' rows — self loops removed, the node itself added — by eight logistic gates, each repeated over a
  block of 64 features, then normalised), and an output projection.

  The kernel program runs three regions of kernels over blocks of rows, with host operations between them; the
  reference is a straight line of host operations. At the exact extended-real values both end with the same array:

  * every stage but the neighbour sum acts row by row, so each region's output array is a row function of its input
    arrays (the regions' modules), and each of the reference's stages is the same row function (the reference's
    modules);
  * the kernel sums each neighbourhood by sending the self loops' destinations past the last row, where nothing
    lands, the reference by zeroing the self loops' rows before summing: the same sum;
  * the kernel multiplies the neighbour sum by the reciprocal of the count, the reference divides by the count: equal
    because the count, one plus a sum of zeros and ones, is never zero;
  * the kernel contracts a row and its neighbourhood mean against the two halves of the gate matrix, the reference
    contracts them side by side against the whole: a sum over 1024 split in two;
  * the kernel spreads the eight gates by a product with the 0/1 matrix of the feature blocks, the reference repeats
    each gate 64 times: a sum with one surviving term;
  * the logistic function is 1 / (1 + exp (-z)) on every extended real.

  No step uses finiteness of the inputs. The kernel's idealization rewrote no operation, so it is preserved trivially;
  the three programs' runs terminate with their arguments unchanged (the kernels' frames region by region, the
  reference as a line of host operations none of which writes an argument).
-/
import proofs.«116288_j6914897347185_2_alg».proof.Defs
import proofs.«116288_j6914897347185_2_alg».proof.Proof.Gen.Kernel
import proofs.«116288_j6914897347185_2_alg».proof.Proof.Gen.Kernel.Skeleton
import proofs.«116288_j6914897347185_2_alg».proof.Proof.Gen.Kernel.Launch
import proofs.«116288_j6914897347185_2_alg».proof.Proof.Gen.Kernel.Points
import proofs.«116288_j6914897347185_2_alg».proof.Proof.Gen.Kernel.Frame
import proofs.«116288_j6914897347185_2_alg».proof.Proof.Gen.KernelIdeal
import proofs.«116288_j6914897347185_2_alg».proof.Proof.Gen.KernelIdeal.Skeleton
import proofs.«116288_j6914897347185_2_alg».proof.Proof.Gen.KernelIdeal.Launch
import proofs.«116288_j6914897347185_2_alg».proof.Proof.Gen.KernelIdeal.Points
import proofs.«116288_j6914897347185_2_alg».proof.Proof.Gen.KernelIdeal.Frame
import proofs.«116288_j6914897347185_2_alg».proof.Proof.Gen.ReferenceIdeal
import proofs.«116288_j6914897347185_2_alg».proof.Proof.Gen.Pre_finite_inputs
import proofs.«116288_j6914897347185_2_alg».proof.Proof.RunValue
import proofs.«116288_j6914897347185_2_alg».proof.Proof.RefRun
import proofs.«116288_j6914897347185_2_alg».proof.Proof.Final
import Idealize.ShloMosaic.Adequacy
import Idealize.ShloMosaic.Init

set_option maxRecDepth 16384

noncomputable section

namespace Cert.Proof

open Idealize.ShloMosaic Idealize.SL.Sem

/-- The word-level kernel runs and keeps its arguments: the three regions' frames, launched in order. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations, none of which writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.args_kept (F := Ideal) m c (r := Cert.ReferenceIdeal.main_arg0) (by decide)),
      (h c Cert.ReferenceIdeal.main_arg1).trans (Cert.ReferenceIdeal.RefRun.args_kept (F := Ideal) m c (r := Cert.ReferenceIdeal.main_arg1) (by decide)),
      (h c Cert.ReferenceIdeal.main_arg2).trans (Cert.ReferenceIdeal.RefRun.args_kept (F := Ideal) m c (r := Cert.ReferenceIdeal.main_arg2) (by decide)),
      (h c Cert.ReferenceIdeal.main_arg3).trans (Cert.ReferenceIdeal.RefRun.args_kept (F := Ideal) m c (r := Cert.ReferenceIdeal.main_arg3) (by decide)),
      (h c Cert.ReferenceIdeal.main_arg4).trans (Cert.ReferenceIdeal.RefRun.args_kept (F := Ideal) m c (r := Cert.ReferenceIdeal.main_arg4) (by decide)),
      (h c Cert.ReferenceIdeal.main_arg5).trans (Cert.ReferenceIdeal.RefRun.args_kept (F := Ideal) m c (r := Cert.ReferenceIdeal.main_arg5) (by decide)),
      (h c Cert.ReferenceIdeal.main_arg6).trans (Cert.ReferenceIdeal.RefRun.args_kept (F := Ideal) m c (r := Cert.ReferenceIdeal.main_arg6) (by decide)),
      (h c Cert.ReferenceIdeal.main_arg7).trans (Cert.ReferenceIdeal.RefRun.args_kept (F := Ideal) m c (r := Cert.ReferenceIdeal.main_arg7) (by decide)),
      (h c Cert.ReferenceIdeal.main_arg8).trans (Cert.ReferenceIdeal.RefRun.args_kept (F := Ideal) m c (r := Cert.ReferenceIdeal.main_arg8) (by decide)),
      (h c Cert.ReferenceIdeal.main_arg9).trans (Cert.ReferenceIdeal.RefRun.args_kept (F := Ideal) m c (r := Cert.ReferenceIdeal.main_arg9) (by decide)),
      (h c Cert.ReferenceIdeal.main_arg10).trans (Cert.ReferenceIdeal.RefRun.args_kept (F := Ideal) m c (r := Cert.ReferenceIdeal.main_arg10) (by decide)),
      (h c Cert.ReferenceIdeal.main_arg11).trans (Cert.ReferenceIdeal.RefRun.args_kept (F := Ideal) m c (r := Cert.ReferenceIdeal.main_arg11) (by decide)),
      (h c Cert.ReferenceIdeal.main_arg12).trans (Cert.ReferenceIdeal.RefRun.args_kept (F := Ideal) m c (r := Cert.ReferenceIdeal.main_arg12) (by decide)),
      (h c Cert.ReferenceIdeal.main_arg13).trans (Cert.ReferenceIdeal.RefRun.args_kept (F := Ideal) m c (r := Cert.ReferenceIdeal.main_arg13) (by decide))⟩)
    (Cert.ReferenceIdeal.RefRun.run_after (F := Ideal) m ρ)

/-- Run from memories that agree on the fourteen arguments, the idealized kernel and the reference end with one
    result array: the kernel's result buffer holds the reference's composition of stages of the launch arrays
    (the three regions and the host operations between them, read row by row), and so does the reference's. -/
theorem algebraic : Cert.algebraic_KernelIdeal_ReferenceIdeal := by
  intro m ρ m' ρ' _ hagree
  refine ⟨fun c => Cert.KernelIdeal.Gen.W10 m ρ c (Proc.devRef .tc Cert.KernelIdeal.main_v60),
    Cert.KernelIdeal.RunValue.run_value m ρ, ?_⟩
  refine (θ_run Cert.ReferenceIdeal.defs _ _).mono (fun r h c =>
    ⟨?_,
      (h c Cert.ReferenceIdeal.main_arg0).trans (Cert.ReferenceIdeal.RefRun.args_kept (F := Ideal) m' c (r := Cert.ReferenceIdeal.main_arg0) (by decide)),
      (h c Cert.ReferenceIdeal.main_arg1).trans (Cert.ReferenceIdeal.RefRun.args_kept (F := Ideal) m' c (r := Cert.ReferenceIdeal.main_arg1) (by decide)),
      (h c Cert.ReferenceIdeal.main_arg2).trans (Cert.ReferenceIdeal.RefRun.args_kept (F := Ideal) m' c (r := Cert.ReferenceIdeal.main_arg2) (by decide)),
      (h c Cert.ReferenceIdeal.main_arg3).trans (Cert.ReferenceIdeal.RefRun.args_kept (F := Ideal) m' c (r := Cert.ReferenceIdeal.main_arg3) (by decide)),
      (h c Cert.ReferenceIdeal.main_arg4).trans (Cert.ReferenceIdeal.RefRun.args_kept (F := Ideal) m' c (r := Cert.ReferenceIdeal.main_arg4) (by decide)),
      (h c Cert.ReferenceIdeal.main_arg5).trans (Cert.ReferenceIdeal.RefRun.args_kept (F := Ideal) m' c (r := Cert.ReferenceIdeal.main_arg5) (by decide)),
      (h c Cert.ReferenceIdeal.main_arg6).trans (Cert.ReferenceIdeal.RefRun.args_kept (F := Ideal) m' c (r := Cert.ReferenceIdeal.main_arg6) (by decide)),
      (h c Cert.ReferenceIdeal.main_arg7).trans (Cert.ReferenceIdeal.RefRun.args_kept (F := Ideal) m' c (r := Cert.ReferenceIdeal.main_arg7) (by decide)),
      (h c Cert.ReferenceIdeal.main_arg8).trans (Cert.ReferenceIdeal.RefRun.args_kept (F := Ideal) m' c (r := Cert.ReferenceIdeal.main_arg8) (by decide)),
      (h c Cert.ReferenceIdeal.main_arg9).trans (Cert.ReferenceIdeal.RefRun.args_kept (F := Ideal) m' c (r := Cert.ReferenceIdeal.main_arg9) (by decide)),
      (h c Cert.ReferenceIdeal.main_arg10).trans (Cert.ReferenceIdeal.RefRun.args_kept (F := Ideal) m' c (r := Cert.ReferenceIdeal.main_arg10) (by decide)),
      (h c Cert.ReferenceIdeal.main_arg11).trans (Cert.ReferenceIdeal.RefRun.args_kept (F := Ideal) m' c (r := Cert.ReferenceIdeal.main_arg11) (by decide)),
      (h c Cert.ReferenceIdeal.main_arg12).trans (Cert.ReferenceIdeal.RefRun.args_kept (F := Ideal) m' c (r := Cert.ReferenceIdeal.main_arg12) (by decide)),
      (h c Cert.ReferenceIdeal.main_arg13).trans (Cert.ReferenceIdeal.RefRun.args_kept (F := Ideal) m' c (r := Cert.ReferenceIdeal.main_arg13) (by decide))⟩)
    (Cert.ReferenceIdeal.RefRun.run_after (F := Ideal) m' ρ')
  refine (h c Cert.ReferenceIdeal.main_v166).trans ((Cert.ReferenceIdeal.RefRun.value (F := Ideal) m' c).trans ?_)
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.Final.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
